-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x1024 .f32) (main_arg1 : FVec F S8x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S512x1024 : Shape := ⟨2, ![512, 1024]⟩
abbrev S1024x512 : Shape := ⟨2, ![1024, 512]⟩

abbrev nBuf : Space → Nat
  | .hbm => 24
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S16384x1024, .f32⟩
  | .hbm, ⟨19, _⟩ => ⟨S16384x1024, .bf16⟩
  | .hbm, ⟨20, _⟩ => ⟨S16384x1024, .bf16⟩
  | .hbm, ⟨21, _⟩ => ⟨S8x2048x1024, .bf16⟩
  | .hbm, ⟨22, _⟩ => ⟨S8x2048x1024, .bf16⟩
  | .hbm, ⟨23, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1024x1024, .bf16⟩
  | .local _ .vmem, ⟨17, _⟩ => ⟨S1024, .f32⟩
  | .local _ .vmem, ⟨18, _⟩ => ⟨S1024x1024, .bf16⟩
  | .local _ .vmem, ⟨19, _⟩ => ⟨S1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1024x1024, .bf16⟩
  | .local _ .vmem, ⟨23, _⟩ => ⟨S1024x1, .f32⟩
  | .local _ .vmem, ⟨24, _⟩ => ⟨S1024x1, .f32⟩
  | .local _ .vmem, ⟨25, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_24 : BitVec 32 := 0#32
  let v42 : BitVec 1 := Scalar.cmpi .ne v41 c0_i32_24
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  transposes_S1024x1024_S1024x1024_1_0 : S1024x1024.Transposes [1, 0] S1024x1024
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .f32 = 32 ∨ (Rect.block (s := S8x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x1024.size a ≤ S8x2048x1024.size a
  hwx1_7 : ∀ i : grid1.Coords, EltTy.bits .f32 = 32 ∨ (Rect.block (s := S8x2048x1024) S1x1024x1024.size (cc1_transform_7 i) (hinb1_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x2048x1024, .f32⟩
  | .hbm, ⟨11, _⟩ => ⟨S1x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2048, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KFrame0.lean ====
/-
  The first kernel region (the fused key/value projection), at the buffer contents `V` the region is
  entered with.

  The region's grid has 16 points; at point t the body is handed a block of 1024 rows of the flattened
  source (window 0), the two transposed weight matrices (windows 1, 3) and the two bias vectors
  (windows 2, 4) whole, and two output blocks of 1024 rows (windows 5, 6). It loads every input whole,
  and stores into each output block, whole, the projection of the source block: `k0_pay2` (keys) and
  `k0_pay3` (values) of the loaded blocks. Hence after the body each input buffer still holds its
  block and each output buffer holds that payload of the input blocks; nothing else changes, and the
  body needs nothing beyond its windows.
-/
import proofs.«113719_j69286412419541_2_alg».proof.Proof.Gen.Kernel.Launch
import proofs.«113719_j69286412419541_2_alg».proof.Proof.Gen.Kernel.Skeleton
import proofs.«113719_j69286412419541_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether or not it was fetched there
    (a window whose block index does not move is fetched once), for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body's accesses name: each buffer whole. -/
abbrev rM : Rect S1024x1024 := Rect.unit (s := S1024x1024) ![0, 0] S1024x1024.size inb_S1024x1024_S1024x1024_0_0
abbrev rB : Rect S1024 := Rect.unit (s := S1024) ![0] S1024.size inb_S1024_S1024_0

/-- The key block the body leaves in window 5's buffer, from the input blocks: its one store. -/
def out0_5 (x0 : Vec F S1024x1024 .f32) (x1 : Vec F S1024x1024 .bf16) (x2 : Vec F S1024 .f32) : Vec F S1024x1024 .bf16 :=
  View.canon [⟨rM, k0_pay2 (View.ld x0 rM) (View.ld x1 rM) (View.ld x2 rB)⟩]

/-- The value block the body leaves in window 6's buffer. -/
def out0_6 (x0 : Vec F S1024x1024 .f32) (x3 : Vec F S1024x1024 .bf16) (x4 : Vec F S1024 .f32) : Vec F S1024x1024 .bf16 :=
  View.canon [⟨rM, k0_pay3 (View.ld x0 rM) (View.ld x3 rM) (View.ld x4 rB)⟩]

/-- A single whole-buffer store covers the buffer. -/
theorem cover0 (p0 : Vec F S1024x1024 .bf16) (y : S1024x1024.Idx) :
    ∃ pc ∈ ([⟨rM, p0⟩] : List (View.Piece (Elt F) S1024x1024 .bf16)), y ∈ pc.1.set :=
  View.cover_of_tiled [⟨rM, p0⟩] S1024x1024.size (by rfl) y

set_option maxHeartbeats 4000000 in
/-- The body on whole buffers, the inputs' at contents `x0 … x4` and the outputs' at anything, runs to the
    continuation with the inputs' as they were and the outputs' at `out0_5`, `out0_6` of the inputs'. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 : Vec F S1024x1024 .bf16) (x2 : Vec F S1024 .f32) (x3 : Vec F S1024x1024 .bf16) (x4 : Vec F S1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the region on core `c`: the arrays as the region finds them; after the body at point `t`
    each input's buffer at its block and each output's at the projection of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KFrame1Runs.lean ====
/-
  The second kernel region (attention with the query projection before and the output projection after),
  what its three control cases share.

  The grid is 8 × 2 × 4: batch entry, half of the 2048 query rows, and one of four tiles of 512 keys — the
  key tile innermost, so the grid position t has key tile t mod 4. At the first key tile the body projects
  the query block and resets its running maximum, denominator and numerator; at every tile it folds the
  tile's scores into them; at the last tile it divides, projects and stores the output block. The four
  running quantities live in scratch buffers of the kernel's own, carried from one grid point to the next;
  the output block is stored at the last key tile only, and written back only there.
-/
import proofs.«113719_j69286412419541_2_alg».proof.Proof.Gen.Kernel.Launch
import proofs.«113719_j69286412419541_2_alg».proof.Proof.Gen.Kernel.Skeleton
import proofs.«113719_j69286412419541_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "This is the first key tile": the body's first conditional, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_in : ∀ (w : Fin 8), w.val ≠ 7 → ∀ t : Fin cfg1.N, cfg1.idle w (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The buffers the body is called with -/

abbrev VO1_7 : View sig .tc .vmem S1x1024x1024 .f32 := (Memref.whole cc1_stg7_0 : Memref sig .tc .vmem S1x1024x1024 .f32).view
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1024 .f32 := win1_7.stage (cfg1.slots t 7)
abbrev hs1_7 (t : Fin cfg1.N) : (ms1_7 t).IsWhole := hstage1_7 ((cfg1.slots t 7).cast nbuf1_7)
/-- The four scratch operands: the projected queries, the running maximum, denominator and numerator. -/
abbrev scM1_0 : Memref sig .tc .vmem S1024x1024 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1024 .f32 := Memref.whole cc1_scratch3
abbrev VS1_0 : View sig .tc .vmem S1024x1024 .bf16 := scM1_0.view
abbrev VS1_1 : View sig .tc .vmem S1024x1 .f32 := scM1_1.view
abbrev VS1_2 : View sig .tc .vmem S1024x1 .f32 := scM1_2.view
abbrev VS1_3 : View sig .tc .vmem S1024x1024 .f32 := scM1_3.view

/-- The core's other scoped buffers (the first region's staging buffers), each at some contents: never opened here. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- The class invariant with the four scratch operands split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ restBut1 c) ∗ (∃ r, prngReg c r)) := by
  unfold Pipeline.ΦA
  rw [Pipeline.scopedRest_split_of_list spec1 c [cc1_scratch0, cc1_scratch1, cc1_scratch2, cc1_scratch3] (by decide) (by decide)]
  simp only [scM1_0, scM1_1, scM1_2, scM1_3, owns_whole]
  rfl

end Cert.Kernel.Fr

end
-- ==== Proof.KRun1A.lean ====
/-
  The attention body run whole at the first key tile (the query block is projected and the running quantities are reset before the tile is folded in): on whole buffers — the inputs' at their contents, the output
  block's handed back untouched, the four scratch buffers at anything — it runs to the continuation holding the inputs'
  as they were and each buffer it stored into with its stores written, as pieces (last first) that the
  run itself finds.
-/
import proofs.«113719_j69286412419541_2_alg».proof.Proof.KFrame1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1024 .f32) (harg14 : arg14.IsWhole) (hc0 : cond1_0 i) (hc1 : ¬cond1_1 i)
    (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    Σ' (L7 : List (View.Piece (Elt F) S1x1024x1024 .f32)), Σ' (LS0 : List (View.Piece (Elt F) S1024x1024 .bf16)), Σ' (LS1 : List (View.Piece (Elt F) S1024x1 .f32)), Σ' (LS2 : List (View.Piece (Elt F) S1024x1 .f32)), { LS3 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__attn_o_kernel i arg3 harg3 arg4 harg4 arg5 harg5 arg6 harg6 arg7 harg7 arg8 harg8 arg9 harg9 arg10 harg10 arg11 harg11 arg12 harg12 arg13 harg13 arg14 harg14) K } := by
  refine ⟨[], ?_, ?_, ?_, ?_, fun xi7 E K => ?run⟩
  case run =>
    simp only [cc1__attn_o_kernel_eq_skeleton]; unfold cc1__attn_o_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    iexists _; iexact HS3

end Cert.Kernel.Fr

end
-- ==== Proof.KRun1B.lean ====
/-
  The attention body run whole at a middle key tile (the tile is folded into the running quantities): on whole buffers — the inputs' at their contents, the output
  block's handed back untouched, the scratch buffers at what the point before left (the projected queries are only read here, and handed back as they were) — it runs to the continuation holding the inputs'
  as they were and each buffer it stored into with its stores written, as pieces (last first) that the
  run itself finds.
-/
import proofs.«113719_j69286412419541_2_alg».proof.Proof.KFrame1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1024 .f32) (harg14 : arg14.IsWhole) (hc0 : ¬cond1_0 i) (hc1 : ¬cond1_1 i)
    (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs0 : Vec F S1024x1024 .bf16) (xs1 : Vec F S1024x1 .f32) (xs2 : Vec F S1024x1 .f32) (xs3 : Vec F S1024x1024 .f32) :
    Σ' (L7 : List (View.Piece (Elt F) S1x1024x1024 .f32)), Σ' (LS1 : List (View.Piece (Elt F) S1024x1 .f32)), Σ' (LS2 : List (View.Piece (Elt F) S1024x1 .f32)), { LS3 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__attn_o_kernel i arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi7 E K => ?run⟩
  case run =>
    simp only [cc1__attn_o_kernel_eq_skeleton]; unfold cc1__attn_o_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]
    · iexists _; isplitr; · ipureintro; exact harg11.read_unread _
      iexact HS0
    isplitl [HS1]; · iexists _; iexact HS1
    isplitl [HS2]; · iexists _; iexact HS2
    iexists _; iexact HS3

end Cert.Kernel.Fr

end
-- ==== Proof.KRun1C.lean ====
/-
  The attention body run whole at the last key tile (the tile is folded in, then the quotient is projected and stored into the output block): on whole buffers — the inputs' at their contents, the output
  block's at anything, the scratch buffers at what the point before left (the projected queries are only read here, and handed back as they were) — it runs to the continuation holding the inputs'
  as they were and each buffer it stored into with its stores written, as pieces (last first) that the
  run itself finds.
-/
import proofs.«113719_j69286412419541_2_alg».proof.Proof.KFrame1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1024 .f32) (harg14 : arg14.IsWhole) (hc0 : ¬cond1_0 i) (hc1 : cond1_1 i)
    (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs0 : Vec F S1024x1024 .bf16) (xs1 : Vec F S1024x1 .f32) (xs2 : Vec F S1024x1 .f32) (xs3 : Vec F S1024x1024 .f32) :
    Σ' (L7 : List (View.Piece (Elt F) S1x1024x1024 .f32)), Σ' (LS1 : List (View.Piece (Elt F) S1024x1 .f32)), Σ' (LS2 : List (View.Piece (Elt F) S1024x1 .f32)), { LS3 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__attn_o_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__attn_o_kernel_eq_skeleton]; unfold cc1__attn_o_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]; · iexists _; iexact HS1
    isplitl [HS2]; · iexists _; iexact HS2
    iexists _; iexact HS3

end Cert.Kernel.Fr

end
-- ==== Proof.KSteps.lean ====
/-
  One grid point of the attention region as a pure function of what the body loads.

  The body keeps four running quantities in scratch: the projected query block q, and per query row the
  running maximum m, denominator l and numerator acc. Folding one tile of 512 keys (kb) and values (vb) into
  them replaces (m, l, acc) by the skeleton's payloads of (q, kb, vb, m, l, acc) and leaves q alone
  (`fold`). At a first key tile q is first set to the projection of the target block and (m, l, acc) to
  (-∞, 0, 0) (`foldFirst`). At a last key tile the output block is the projected quotient acc / l (`emit`).
-/
import proofs.«113719_j69286412419541_2_alg».proof.Proof.Gen.Kernel.Skeleton

noncomputable section

namespace Cert.Kernel.Fr

open Cert.Kernel Cert.Kernel.Gen
open Idealize.ShloMosaic

variable {F : FTy → Type} [FloatOps F]

/-- The four scratch buffers' contents: projected queries, running maximum, denominator, numerator. -/
abbrev Scr (F : FTy → Type) [FloatOps F] : Type :=
  Vec F S1024x1024 .bf16 × Vec F S1024x1 .f32 × Vec F S1024x1 .f32 × Vec F S1024x1024 .f32

/-- One tile of keys `kb` and values `vb` folded into the running quantities. -/
def fold (kb vb : Vec F S1x512x1024 .bf16) (s : Scr F) : Scr F :=
  (s.1,
   k1_pay2 (k1_pay10 s.1 kb s.2.1),
   k1_pay13 s.1 kb s.2.1 s.2.2.1,
   k1_pay1 (k1_pay8 vb) (k1_pay14 s.1 kb s.2.1 s.2.2.2) (k1_pay15 s.1 kb s.2.1) (constant S1024x1024 .f32 0x00000000#32))

/-- The reset state of a first key tile: the target block `x` projected by `wq`, `bq`; maximum -∞; denominator and
    numerator zero. -/
def reset (x : Vec F S1x1024x1024 .f32) (wq : Vec F S1024x1024 .bf16) (bq : Vec F S1024 .f32) : Scr F :=
  (k1_pay4 x wq bq, k1_pay5, k1_pay6, k1_pay7)

/-- A first key tile: reset, then fold the tile in. -/
def foldFirst (x : Vec F S1x1024x1024 .f32) (kb vb : Vec F S1x512x1024 .bf16) (wq : Vec F S1024x1024 .bf16) (bq : Vec F S1024 .f32) : Scr F :=
  fold kb vb (reset x wq bq)

/-- The output block of a last key tile, from the state after its fold. -/
def emit (s : Scr F) (wo : Vec F S1024x1024 .bf16) (bo : Vec F S1024 .f32) : Vec F S1x1024x1024 .f32 :=
  k1_pay3 s.2.2.2 s.2.2.1 wo bo

end Cert.Kernel.Fr

end
-- ==== Proof.KFrame1.lean ====
/-
  The second kernel region's proof data: what the four scratch buffers (projected queries, running
  maximum, denominator, numerator) and the output block hold after each grid point, by recursion on the
  grid position — at a first key tile the case's run from the point's input blocks alone, at a later key
  tile the case's run from the input blocks and what the point before left in the scratch —; the region
  invariant, which carries the scratch buffers at exactly those contents from one point to the next; and
  the body obligation, by cases on the key tile.
-/
import proofs.«113719_j69286412419541_2_alg».proof.Proof.KRun1A
import proofs.«113719_j69286412419541_2_alg».proof.Proof.KRun1B
import proofs.«113719_j69286412419541_2_alg».proof.Proof.KRun1C
import proofs.«113719_j69286412419541_2_alg».proof.Proof.KSteps

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The run of case A at the point's own buffers. -/
abbrev runA (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 x0 x1 x2 x3 x4 x5 x6

theorem scoverA_0 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1024.Idx) :
    ∃ pc ∈ (runA (F := F) c t hc0 hc1 x0 x1 x2 x3 x4 x5 x6).2.1, y ∈ pc.1.set :=
  View.cover_of_tiledL (runA (F := F) c t hc0 hc1 x0 x1 x2 x3 x4 x5 x6).2.1 S1024x1024.size (by sl_kernel_rfl) y

theorem scoverA_1 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1.Idx) :
    ∃ pc ∈ (runA (F := F) c t hc0 hc1 x0 x1 x2 x3 x4 x5 x6).2.2.1, y ∈ pc.1.set :=
  View.cover_of_tiledL (runA (F := F) c t hc0 hc1 x0 x1 x2 x3 x4 x5 x6).2.2.1 S1024x1.size (by sl_kernel_rfl) y

theorem scoverA_2 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1.Idx) :
    ∃ pc ∈ (runA (F := F) c t hc0 hc1 x0 x1 x2 x3 x4 x5 x6).2.2.2.1, y ∈ pc.1.set :=
  View.cover_of_tiledL (runA (F := F) c t hc0 hc1 x0 x1 x2 x3 x4 x5 x6).2.2.2.1 S1024x1.size (by sl_kernel_rfl) y

theorem scoverA_3 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1024.Idx) :
    ∃ pc ∈ (runA (F := F) c t hc0 hc1 x0 x1 x2 x3 x4 x5 x6).2.2.2.2.1, y ∈ pc.1.set :=
  View.cover_of_tiledL (runA (F := F) c t hc0 hc1 x0 x1 x2 x3 x4 x5 x6).2.2.2.2.1 S1024x1024.size (by sl_kernel_rfl) y

/-- What case A leaves in the four scratch buffers: its stores read back. -/
def scrA (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) : Scr F :=
  (VS1_0.read (Elt F) (VS1_0.writes (Elt F) VS1_0.junk (runA (F := F) c t hc0 hc1 x0 x1 x2 x3 x4 x5 x6).2.1),
   VS1_1.read (Elt F) (VS1_1.writes (Elt F) VS1_1.junk (runA (F := F) c t hc0 hc1 x0 x1 x2 x3 x4 x5 x6).2.2.1),
   VS1_2.read (Elt F) (VS1_2.writes (Elt F) VS1_2.junk (runA (F := F) c t hc0 hc1 x0 x1 x2 x3 x4 x5 x6).2.2.2.1),
   VS1_3.read (Elt F) (VS1_3.writes (Elt F) VS1_3.junk (runA (F := F) c t hc0 hc1 x0 x1 x2 x3 x4 x5 x6).2.2.2.2.1))

/-- The run of case B at the point's own buffers. -/
abbrev runB (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 x0 x1 x2 x3 x4 x5 x6 xs.1 xs.2.1 xs.2.2.1 xs.2.2.2

theorem scoverB_1 (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runB (F := F) c t hc0 hc1 x0 x1 x2 x3 x4 x5 x6 xs).2.1, y ∈ pc.1.set :=
  View.cover_of_tiledL (runB (F := F) c t hc0 hc1 x0 x1 x2 x3 x4 x5 x6 xs).2.1 S1024x1.size (by sl_kernel_rfl) y

theorem scoverB_2 (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runB (F := F) c t hc0 hc1 x0 x1 x2 x3 x4 x5 x6 xs).2.2.1, y ∈ pc.1.set :=
  View.cover_of_tiledL (runB (F := F) c t hc0 hc1 x0 x1 x2 x3 x4 x5 x6 xs).2.2.1 S1024x1.size (by sl_kernel_rfl) y

theorem scoverB_3 (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1024.Idx) :
    ∃ pc ∈ (runB (F := F) c t hc0 hc1 x0 x1 x2 x3 x4 x5 x6 xs).2.2.2.1, y ∈ pc.1.set :=
  View.cover_of_tiledL (runB (F := F) c t hc0 hc1 x0 x1 x2 x3 x4 x5 x6 xs).2.2.2.1 S1024x1024.size (by sl_kernel_rfl) y

/-- What case B leaves in the four scratch buffers: its stores read back (the projected queries, only read here, as they were). -/
def scrB (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) : Scr F :=
  (xs.1,
   VS1_1.read (Elt F) (VS1_1.writes (Elt F) VS1_1.junk (runB (F := F) c t hc0 hc1 x0 x1 x2 x3 x4 x5 x6 xs).2.1),
   VS1_2.read (Elt F) (VS1_2.writes (Elt F) VS1_2.junk (runB (F := F) c t hc0 hc1 x0 x1 x2 x3 x4 x5 x6 xs).2.2.1),
   VS1_3.read (Elt F) (VS1_3.writes (Elt F) VS1_3.junk (runB (F := F) c t hc0 hc1 x0 x1 x2 x3 x4 x5 x6 xs).2.2.2.1))

/-- The run of case C at the point's own buffers. -/
abbrev runC (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 x0 x1 x2 x3 x4 x5 x6 xs.1 xs.2.1 xs.2.2.1 xs.2.2.2

theorem scoverC_1 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runC (F := F) c t hc0 hc1 x0 x1 x2 x3 x4 x5 x6 xs).2.1, y ∈ pc.1.set :=
  View.cover_of_tiledL (runC (F := F) c t hc0 hc1 x0 x1 x2 x3 x4 x5 x6 xs).2.1 S1024x1.size (by sl_kernel_rfl) y

theorem scoverC_2 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runC (F := F) c t hc0 hc1 x0 x1 x2 x3 x4 x5 x6 xs).2.2.1, y ∈ pc.1.set :=
  View.cover_of_tiledL (runC (F := F) c t hc0 hc1 x0 x1 x2 x3 x4 x5 x6 xs).2.2.1 S1024x1.size (by sl_kernel_rfl) y

theorem scoverC_3 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1024.Idx) :
    ∃ pc ∈ (runC (F := F) c t hc0 hc1 x0 x1 x2 x3 x4 x5 x6 xs).2.2.2.1, y ∈ pc.1.set :=
  View.cover_of_tiledL (runC (F := F) c t hc0 hc1 x0 x1 x2 x3 x4 x5 x6 xs).2.2.2.1 S1024x1024.size (by sl_kernel_rfl) y

/-- What case C leaves in the four scratch buffers: its stores read back (the projected queries, only read here, as they were). -/
def scrC (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) : Scr F :=
  (xs.1,
   VS1_1.read (Elt F) (VS1_1.writes (Elt F) VS1_1.junk (runC (F := F) c t hc0 hc1 x0 x1 x2 x3 x4 x5 x6 xs).2.1),
   VS1_2.read (Elt F) (VS1_2.writes (Elt F) VS1_2.junk (runC (F := F) c t hc0 hc1 x0 x1 x2 x3 x4 x5 x6 xs).2.2.1),
   VS1_3.read (Elt F) (VS1_3.writes (Elt F) VS1_3.junk (runC (F := F) c t hc0 hc1 x0 x1 x2 x3 x4 x5 x6 xs).2.2.2.1))

theorem coverC_7 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1x1024x1024.Idx) :
    ∃ pc ∈ (runC (F := F) c t hc0 hc1 x0 x1 x2 x3 x4 x5 x6 xs).1, y ∈ pc.1.set :=
  View.cover_of_tiledL (runC (F := F) c t hc0 hc1 x0 x1 x2 x3 x4 x5 x6 xs).1 S1x1024x1024.size (by sl_kernel_rfl) y

/-- What case C leaves in the output block's buffer. -/
def outC (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) : Vec F S1x1024x1024 .f32 :=
  VO1_7.read (Elt F) (VO1_7.writes (Elt F) VO1_7.junk (runC (F := F) c t hc0 hc1 x0 x1 x2 x3 x4 x5 x6 xs).1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

section Region1

variable (V : (c : Dev nD) → (b : Ref sig .tc) → Buf (Elt F) ((c : Thread nD τ).loc b))

/-- What the output block's buffer and the four scratch buffers hold after the body at grid position `n`:
    the case the position's key tile selects, run at the point's input blocks, a later key tile over what the
    position before left in the scratch. (Where the body stores nothing into the output block — every key tile
    but the last — the first component is a placeholder nothing consults.) -/
def outsAt1 (c : Dev nD) : (n : ℕ) → n < cfg1.N → Vec F S1x1024x1024 .f32 × Scr F
  | 0, hn => (VO1_7.read (Elt F) VO1_7.junk, scrA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (VO1_7.read (Elt F) VO1_7.junk, scrA c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (outC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2,
         scrC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (VO1_7.read (Elt F) VO1_7.junk, scrB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (VO1_7.read (Elt F) VO1_7.junk, scrA c t ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_7.read (Elt F) VO1_7.junk, scrB c t (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC c t (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2,
      scrC c t (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The four scratch buffers owned at a state's components. -/
abbrev ownsScr (c : Dev nD) (s : Scr F) : sProp 𝕄 :=
  iprop(owns (c : Thread nD τ) scM1_0 fullShare s.1 ∗ owns (c : Thread nD τ) scM1_1 fullShare s.2.1 ∗ owns (c : Thread nD τ) scM1_2 fullShare s.2.2.1 ∗ owns (c : Thread nD τ) scM1_3 fullShare s.2.2.2)

/-- The region invariant before grid position `n`: before the first point the class's (every scratch buffer at
    anything); afterwards the four scratch buffers at what the position before left in them, beside the core's
    other scoped buffers and the generator register, untouched. -/
def PhiS1 (c : Dev nD) : (n : ℕ) → n ≤ cfg1.N → sProp 𝕄
  | 0, _ => Pipeline.ΦA spec1 c
  | n + 1, hn => iprop(iprop(ownsScr c (outsAt1 V c n hn).2 ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(ownsScr c (outsAt1 V c n hn).2 ∗ restBut1 c) ∗ (∃ r, prngReg c r)) := rfl

theorem PhiS1_pos (c : Dev nD) (n : ℕ) (h : n ≤ cfg1.N) (hz : n ≠ 0) :
    PhiS1 V c n h = iprop(iprop(ownsScr c (outsAt1 V c (n - 1) (by omega)).2 ∗ restBut1 c) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

end Region1

end Cert.Kernel.Fr

end
-- ==== Proof.KFrame1b.lean ====
/-
  The second kernel region's body obligation: at every grid point the body, handed the invariant and its
  windows' buffers, runs to the invariant of the next point and the buffers at the proof data's contents —
  by cases on the key tile (first at the very first grid point, first elsewhere, middle, last).
-/
import proofs.«113719_j69286412419541_2_alg».proof.Proof.KFrame1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

set_option maxHeartbeats 8000000 in
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [Dat.leavesExact_idle (dat1 V c) 7 t (idleAt1_7 t (fun h => h1 ((hcond1_1 t).mp h))) (noFlush1_7 t (fun h => h1 ((hcond1_1 t).mp h)))]
  rw [outsAt1_A V c t h0 h1]
  rw [PhiS1_castSucc V c t, PhiS1_zero V c _ _ hz, PhiA1_eq]
  unfold ownsScr scrA
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA (F := F) c t ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, ⟨%es0, HS0⟩, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · unfold owns; iexists _; isplitr
          swap; · iexact HS0
          ipureintro; exact View.read_writes_of_cover _ _ _ _ _ (scoverA_0 (F := F) c t _ _ _ _ _ _ _ _ _)
        isplitl [HS1]
        · unfold owns; iexists _; isplitr
          swap; · iexact HS1
          ipureintro; exact View.read_writes_of_cover _ _ _ _ _ (scoverA_1 (F := F) c t _ _ _ _ _ _ _ _ _)
        isplitl [HS2]
        · unfold owns; iexists _; isplitr
          swap; · iexact HS2
          ipureintro; exact View.read_writes_of_cover _ _ _ _ _ (scoverA_2 (F := F) c t _ _ _ _ _ _ _ _ _)
        unfold owns; iexists _; isplitr
        swap; · iexact HS3
        ipureintro; exact View.read_writes_of_cover _ _ _ _ _ (scoverA_3 (F := F) c t _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 8000000 in
theorem sound_body1_A1 (c : Dev nD) (t : Fin cfg1.N) (h0 : t.val % 4 = 0) (h1 : ¬t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [Dat.leavesExact_idle (dat1 V c) 7 t (idleAt1_7 t (fun h => h1 ((hcond1_1 t).mp h))) (noFlush1_7 t (fun h => h1 ((hcond1_1 t).mp h)))]
  rw [outsAt1_A V c t h0 h1]
  rw [PhiS1_castSucc V c t, PhiS1_pos V c _ _ hz]
  unfold ownsScr scrA
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA (F := F) c t ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  iintro ⟨H0, H1, H2, H3, H4, H5, H6, H7, ⟨%es0, HS0⟩, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · unfold owns; iexists _; isplitr
          swap; · iexact HS0
          ipureintro; exact View.read_writes_of_cover _ _ _ _ _ (scoverA_0 (F := F) c t _ _ _ _ _ _ _ _ _)
        isplitl [HS1]
        · unfold owns; iexists _; isplitr
          swap; · iexact HS1
          ipureintro; exact View.read_writes_of_cover _ _ _ _ _ (scoverA_1 (F := F) c t _ _ _ _ _ _ _ _ _)
        isplitl [HS2]
        · unfold owns; iexists _; isplitr
          swap; · iexact HS2
          ipureintro; exact View.read_writes_of_cover _ _ _ _ _ (scoverA_2 (F := F) c t _ _ _ _ _ _ _ _ _)
        unfold owns; iexists _; isplitr
        swap; · iexact HS3
        ipureintro; exact View.read_writes_of_cover _ _ _ _ _ (scoverA_3 (F := F) c t _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 8000000 in
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hz : t.val ≠ 0 := fun e => h0 (by rw [e])
  rw [Dat.leavesExact_idle (dat1 V c) 7 t (idleAt1_7 t (fun h => h1 ((hcond1_1 t).mp h))) (noFlush1_7 t (fun h => h1 ((hcond1_1 t).mp h)))]
  rw [outsAt1_B V c t h0 h1]
  rw [PhiS1_castSucc V c t, PhiS1_pos V c _ _ hz]
  unfold ownsScr scrB
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB (F := F) c t (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · iexact HS0
        isplitl [HS1]
        · unfold owns; iexists _; isplitr
          swap; · iexact HS1
          ipureintro; exact View.read_writes_of_cover _ _ _ _ _ (scoverB_1 (F := F) c t _ _ _ _ _ _ _ _ _ _)
        isplitl [HS2]
        · unfold owns; iexists _; isplitr
          swap; · iexact HS2
          ipureintro; exact View.read_writes_of_cover _ _ _ _ _ (scoverB_2 (F := F) c t _ _ _ _ _ _ _ _ _ _)
        unfold owns; iexists _; isplitr
        swap; · iexact HS3
        ipureintro; exact View.read_writes_of_cover _ _ _ _ _ (scoverB_3 (F := F) c t _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 8000000 in
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hz : t.val ≠ 0 := fun e => h0 (by rw [e])
  rw [show (dat1 V c).leavesExact 7 t = owns (c : Thread nD τ) (ms1_7 t) fullShare ((dat1 V c).after 7 t) from by
    unfold Dat.leavesExact; rw [liveAt1_7 t ((hcond1_1 t).mpr h1)], after1_7]
  rw [outsAt1_C V c t h0 h1]
  rw [PhiS1_castSucc V c t, PhiS1_pos V c _ _ hz]
  unfold ownsScr outC scrC
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC (F := F) c t (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, ⟨%e7, H7⟩, HS0, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · iexact HS0
        isplitl [HS1]
        · unfold owns; iexists _; isplitr
          swap; · iexact HS1
          ipureintro; exact View.read_writes_of_cover _ _ _ _ _ (scoverC_1 (F := F) c t _ _ _ _ _ _ _ _ _ _)
        isplitl [HS2]
        · unfold owns; iexists _; isplitr
          swap; · iexact HS2
          ipureintro; exact View.read_writes_of_cover _ _ _ _ _ (scoverC_2 (F := F) c t _ _ _ _ _ _ _ _ _ _)
        unfold owns; iexists _; isplitr
        swap; · iexact HS3
        ipureintro; exact View.read_writes_of_cover _ _ _ _ _ (scoverC_3 (F := F) c t _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverC_7 (F := F) c t _ _ _ _ _ _ _ _ _ _)

/-- The body at any point, by cases on the key tile. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  by_cases h0 : t.val % 4 = 0
  · have h1 : ¬t.val % 4 = 3 := by omega
    by_cases hz : t.val = 0
    · exact sound_body1_A0 V c t h0 h1 hz
    · exact sound_body1_A1 V c t h0 h1 hz
  · by_cases h1 : t.val % 4 = 3
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1, HS2, HS3⟩, Hrest⟩, Hg⟩
  isplitl [HS0 HS1 HS2 HS3 Hrest]
  · isplitl [HS0 HS1 HS2 HS3]
    · isplitl [HS0]; · iexists _; iexact HS0
      isplitl [HS1]; · iexists _; iexact HS1
      isplitl [HS2]; · iexists _; iexact HS2
      iexists _; iexact HS3
    iexact Hrest
  iexact Hg

end Region1

end Cert.Kernel.Fr

end
-- ==== Proof.KRun.lean ====
/-
  The whole program's run: the two kernel regions among the host operations around them.

  The buffer contents at every boundary between two items of the program are a fold from the launch
  memory: after a stretch of host operations, those operations applied; after a kernel region, the
  region's arrays at what its write-backs leave and every other buffer as it was. Each region is entered
  from the contents before it and left at the contents after it. Hence every weakly fair execution ends,
  faults nowhere, and every buffer ends at the last fold's contents — in particular each argument as
  launched, since no host operation writes an argument and a region only reads one through an input window.
-/
import proofs.«113719_j69286412419541_2_alg».proof.Proof.KFrame0
import proofs.«113719_j69286412419541_2_alg».proof.Proof.KFrame1b
import proofs.«113719_j69286412419541_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the transposed weights, the flattened source). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the keys and values regrouped by batch entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### Each argument ends as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 4).trans (((dat1 (V3 m ρ) c).arrAt_in 4 rfl _).trans (A_eq1 (V3 m ρ) c 4))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- The second region's invariant after its last point gives back the scoped rest and the generator register. -/
theorem hout1' (V : (c : Dev nD) → (b : Ref sig .tc) → Buf (Elt F) ((c : Thread nD τ).loc b)) (c : Dev nD) :
    (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 V c
  unfold Pipeline.ΦA at h
  exact h

/-! ## The regions as segments -/

set_option backward.isDefEq.respectTransparency.types false in
/-- Region 0 over the thread state: entered from every unscoped buffer at the contents before it, left at the
    contents after it; its arrays split out of the unscoped buffers and put back at what its write-backs leave; the
    generator register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what its write-backs leave; the
    generator register into the region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    iintro H
    ihave H' := (hout1' (V3 m ρ) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

/-- The result's buffer ends at what the second region's write-backs leave in its output array. -/
theorem run_result : θ_run defs (onTc (τ := τ) (main (F := F))) ⟨m, fun _ => 0, ρ⟩ (fun r => ∀ c : Dev nD,
      r.2.mem ((c.tc : Thread nD τ).loc main_v12) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

end Cert.Kernel.Fr

end
-- ==== Proof.Frame0.lean ====
/-
  The first kernel region (the fused key/value projection), at the buffer contents `V` the region is
  entered with.

  The region's grid has 16 points; at point t the body is handed a block of 1024 rows of the flattened
  source (window 0), the two transposed weight matrices (windows 1, 3) and the two bias vectors
  (windows 2, 4) whole, and two output blocks of 1024 rows (windows 5, 6). It loads every input whole,
  and stores into each output block, whole, the projection of the source block: `k0_pay2` (keys) and
  `k0_pay3` (values) of the loaded blocks. Hence after the body each input buffer still holds its
  block and each output buffer holds that payload of the input blocks; nothing else changes, and the
  body needs nothing beyond its windows.
-/
import proofs.«113719_j69286412419541_2_alg».proof.Proof.Gen.KernelIdeal.Launch
import proofs.«113719_j69286412419541_2_alg».proof.Proof.Gen.KernelIdeal.Skeleton
import proofs.«113719_j69286412419541_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether or not it was fetched there
    (a window whose block index does not move is fetched once), for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body's accesses name: each buffer whole. -/
abbrev rM : Rect S1024x1024 := Rect.unit (s := S1024x1024) ![0, 0] S1024x1024.size inb_S1024x1024_S1024x1024_0_0
abbrev rB : Rect S1024 := Rect.unit (s := S1024) ![0] S1024.size inb_S1024_S1024_0

/-- The key block the body leaves in window 5's buffer, from the input blocks: its one store. -/
def out0_5 (x0 : Vec F S1024x1024 .f32) (x1 : Vec F S1024x1024 .bf16) (x2 : Vec F S1024 .f32) : Vec F S1024x1024 .bf16 :=
  View.canon [⟨rM, k0_pay2 (View.ld x0 rM) (View.ld x1 rM) (View.ld x2 rB)⟩]

/-- The value block the body leaves in window 6's buffer. -/
def out0_6 (x0 : Vec F S1024x1024 .f32) (x3 : Vec F S1024x1024 .bf16) (x4 : Vec F S1024 .f32) : Vec F S1024x1024 .bf16 :=
  View.canon [⟨rM, k0_pay3 (View.ld x0 rM) (View.ld x3 rM) (View.ld x4 rB)⟩]

/-- A single whole-buffer store covers the buffer. -/
theorem cover0 (p0 : Vec F S1024x1024 .bf16) (y : S1024x1024.Idx) :
    ∃ pc ∈ ([⟨rM, p0⟩] : List (View.Piece (Elt F) S1024x1024 .bf16)), y ∈ pc.1.set :=
  View.cover_of_tiled [⟨rM, p0⟩] S1024x1024.size (by rfl) y

set_option maxHeartbeats 4000000 in
/-- The body on whole buffers, the inputs' at contents `x0 … x4` and the outputs' at anything, runs to the
    continuation with the inputs' as they were and the outputs' at `out0_5`, `out0_6` of the inputs'. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 : Vec F S1024x1024 .bf16) (x2 : Vec F S1024 .f32) (x3 : Vec F S1024x1024 .bf16) (x4 : Vec F S1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the region on core `c`: the arrays as the region finds them; after the body at point `t`
    each input's buffer at its block and each output's at the projection of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.Frame1Runs.lean ====
/-
  The second kernel region (attention with the query projection before and the output projection after),
  what its three control cases share.

  The grid is 8 × 2 × 4: batch entry, half of the 2048 query rows, and one of four tiles of 512 keys — the
  key tile innermost, so the grid position t has key tile t mod 4. At the first key tile the body projects
  the query block and resets its running maximum, denominator and numerator; at every tile it folds the
  tile's scores into them; at the last tile it divides, projects and stores the output block. The four
  running quantities live in scratch buffers of the kernel's own, carried from one grid point to the next;
  the output block is stored at the last key tile only, and written back only there.
-/
import proofs.«113719_j69286412419541_2_alg».proof.Proof.Gen.KernelIdeal.Launch
import proofs.«113719_j69286412419541_2_alg».proof.Proof.Gen.KernelIdeal.Skeleton
import proofs.«113719_j69286412419541_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "This is the first key tile": the body's first conditional, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_in : ∀ (w : Fin 8), w.val ≠ 7 → ∀ t : Fin cfg1.N, cfg1.idle w (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The buffers the body is called with -/

abbrev VO1_7 : View sig .tc .vmem S1x1024x1024 .f32 := (Memref.whole cc1_stg7_0 : Memref sig .tc .vmem S1x1024x1024 .f32).view
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1024 .f32 := win1_7.stage (cfg1.slots t 7)
abbrev hs1_7 (t : Fin cfg1.N) : (ms1_7 t).IsWhole := hstage1_7 ((cfg1.slots t 7).cast nbuf1_7)
/-- The four scratch operands: the projected queries, the running maximum, denominator and numerator. -/
abbrev scM1_0 : Memref sig .tc .vmem S1024x1024 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1024 .f32 := Memref.whole cc1_scratch3
abbrev VS1_0 : View sig .tc .vmem S1024x1024 .bf16 := scM1_0.view
abbrev VS1_1 : View sig .tc .vmem S1024x1 .f32 := scM1_1.view
abbrev VS1_2 : View sig .tc .vmem S1024x1 .f32 := scM1_2.view
abbrev VS1_3 : View sig .tc .vmem S1024x1024 .f32 := scM1_3.view

/-- The core's other scoped buffers (the first region's staging buffers), each at some contents: never opened here. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- The class invariant with the four scratch operands split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ restBut1 c) ∗ (∃ r, prngReg c r)) := by
  unfold Pipeline.ΦA
  rw [Pipeline.scopedRest_split_of_list spec1 c [cc1_scratch0, cc1_scratch1, cc1_scratch2, cc1_scratch3] (by decide) (by decide)]
  simp only [scM1_0, scM1_1, scM1_2, scM1_3, owns_whole]
  rfl

end Cert.KernelIdeal.Fr

end
-- ==== Proof.Run1A.lean ====
/-
  The attention body run whole at the first key tile (the query block is projected and the running quantities are reset before the tile is folded in): on whole buffers — the inputs' at their contents, the output
  block's handed back untouched, the four scratch buffers at anything — it runs to the continuation holding the inputs'
  as they were and each buffer it stored into with its stores written, as pieces (last first) that the
  run itself finds.
-/
import proofs.«113719_j69286412419541_2_alg».proof.Proof.Frame1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1024 .f32) (harg14 : arg14.IsWhole) (hc0 : cond1_0 i) (hc1 : ¬cond1_1 i)
    (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    Σ' (L7 : List (View.Piece (Elt F) S1x1024x1024 .f32)), Σ' (LS0 : List (View.Piece (Elt F) S1024x1024 .bf16)), Σ' (LS1 : List (View.Piece (Elt F) S1024x1 .f32)), Σ' (LS2 : List (View.Piece (Elt F) S1024x1 .f32)), { LS3 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__attn_o_kernel i arg3 harg3 arg4 harg4 arg5 harg5 arg6 harg6 arg7 harg7 arg8 harg8 arg9 harg9 arg10 harg10 arg11 harg11 arg12 harg12 arg13 harg13 arg14 harg14) K } := by
  refine ⟨[], ?_, ?_, ?_, ?_, fun xi7 E K => ?run⟩
  case run =>
    simp only [cc1__attn_o_kernel_eq_skeleton]; unfold cc1__attn_o_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    iexists _; iexact HS3

end Cert.KernelIdeal.Fr

end
-- ==== Proof.Run1B.lean ====
/-
  The attention body run whole at a middle key tile (the tile is folded into the running quantities): on whole buffers — the inputs' at their contents, the output
  block's handed back untouched, the scratch buffers at what the point before left (the projected queries are only read here, and handed back as they were) — it runs to the continuation holding the inputs'
  as they were and each buffer it stored into with its stores written, as pieces (last first) that the
  run itself finds.
-/
import proofs.«113719_j69286412419541_2_alg».proof.Proof.Frame1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1024 .f32) (harg14 : arg14.IsWhole) (hc0 : ¬cond1_0 i) (hc1 : ¬cond1_1 i)
    (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs0 : Vec F S1024x1024 .bf16) (xs1 : Vec F S1024x1 .f32) (xs2 : Vec F S1024x1 .f32) (xs3 : Vec F S1024x1024 .f32) :
    Σ' (L7 : List (View.Piece (Elt F) S1x1024x1024 .f32)), Σ' (LS1 : List (View.Piece (Elt F) S1024x1 .f32)), Σ' (LS2 : List (View.Piece (Elt F) S1024x1 .f32)), { LS3 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__attn_o_kernel i arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi7 E K => ?run⟩
  case run =>
    simp only [cc1__attn_o_kernel_eq_skeleton]; unfold cc1__attn_o_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]
    · iexists _; isplitr; · ipureintro; exact harg11.read_unread _
      iexact HS0
    isplitl [HS1]; · iexists _; iexact HS1
    isplitl [HS2]; · iexists _; iexact HS2
    iexists _; iexact HS3

end Cert.KernelIdeal.Fr

end
-- ==== Proof.Run1C.lean ====
/-
  The attention body run whole at the last key tile (the tile is folded in, then the quotient is projected and stored into the output block): on whole buffers — the inputs' at their contents, the output
  block's at anything, the scratch buffers at what the point before left (the projected queries are only read here, and handed back as they were) — it runs to the continuation holding the inputs'
  as they were and each buffer it stored into with its stores written, as pieces (last first) that the
  run itself finds.
-/
import proofs.«113719_j69286412419541_2_alg».proof.Proof.Frame1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1024 .f32) (harg14 : arg14.IsWhole) (hc0 : ¬cond1_0 i) (hc1 : cond1_1 i)
    (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs0 : Vec F S1024x1024 .bf16) (xs1 : Vec F S1024x1 .f32) (xs2 : Vec F S1024x1 .f32) (xs3 : Vec F S1024x1024 .f32) :
    Σ' (L7 : List (View.Piece (Elt F) S1x1024x1024 .f32)), Σ' (LS1 : List (View.Piece (Elt F) S1024x1 .f32)), Σ' (LS2 : List (View.Piece (Elt F) S1024x1 .f32)), { LS3 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__attn_o_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__attn_o_kernel_eq_skeleton]; unfold cc1__attn_o_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]; · iexists _; iexact HS1
    isplitl [HS2]; · iexists _; iexact HS2
    iexists _; iexact HS3

end Cert.KernelIdeal.Fr

end
-- ==== Proof.Steps.lean ====
/-
  One grid point of the attention region as a pure function of what the body loads.

  The body keeps four running quantities in scratch: the projected query block q, and per query row the
  running maximum m, denominator l and numerator acc. Folding one tile of 512 keys (kb) and values (vb) into
  them replaces (m, l, acc) by the skeleton's payloads of (q, kb, vb, m, l, acc) and leaves q alone
  (`fold`). At a first key tile q is first set to the projection of the target block and (m, l, acc) to
  (-∞, 0, 0) (`foldFirst`). At a last key tile the output block is the projected quotient acc / l (`emit`).
-/
import proofs.«113719_j69286412419541_2_alg».proof.Proof.Gen.KernelIdeal.Skeleton

noncomputable section

namespace Cert.KernelIdeal.Fr

open Cert.KernelIdeal Cert.KernelIdeal.Gen
open Idealize.ShloMosaic

variable {F : FTy → Type} [FloatOps F]

/-- The four scratch buffers' contents: projected queries, running maximum, denominator, numerator. -/
abbrev Scr (F : FTy → Type) [FloatOps F] : Type :=
  Vec F S1024x1024 .bf16 × Vec F S1024x1 .f32 × Vec F S1024x1 .f32 × Vec F S1024x1024 .f32

/-- One tile of keys `kb` and values `vb` folded into the running quantities. -/
def fold (kb vb : Vec F S1x512x1024 .bf16) (s : Scr F) : Scr F :=
  (s.1,
   k1_pay2 (k1_pay10 s.1 kb s.2.1),
   k1_pay13 s.1 kb s.2.1 s.2.2.1,
   k1_pay1 (k1_pay8 vb) (k1_pay14 s.1 kb s.2.1 s.2.2.2) (k1_pay15 s.1 kb s.2.1) (constant S1024x1024 .f32 0x00000000#32))

/-- The reset state of a first key tile: the target block `x` projected by `wq`, `bq`; maximum -∞; denominator and
    numerator zero. -/
def reset (x : Vec F S1x1024x1024 .f32) (wq : Vec F S1024x1024 .bf16) (bq : Vec F S1024 .f32) : Scr F :=
  (k1_pay4 x wq bq, k1_pay5, k1_pay6, k1_pay7)

/-- A first key tile: reset, then fold the tile in. -/
def foldFirst (x : Vec F S1x1024x1024 .f32) (kb vb : Vec F S1x512x1024 .bf16) (wq : Vec F S1024x1024 .bf16) (bq : Vec F S1024 .f32) : Scr F :=
  fold kb vb (reset x wq bq)

/-- The output block of a last key tile, from the state after its fold. -/
def emit (s : Scr F) (wo : Vec F S1024x1024 .bf16) (bo : Vec F S1024 .f32) : Vec F S1x1024x1024 .f32 :=
  k1_pay3 s.2.2.2 s.2.2.1 wo bo

end Cert.KernelIdeal.Fr

end
-- ==== Proof.Frame1.lean ====
/-
  The second kernel region's proof data: what the four scratch buffers (projected queries, running
  maximum, denominator, numerator) and the output block hold after each grid point, by recursion on the
  grid position — at a first key tile the case's run from the point's input blocks alone, at a later key
  tile the case's run from the input blocks and what the point before left in the scratch —; the region
  invariant, which carries the scratch buffers at exactly those contents from one point to the next; and
  the body obligation, by cases on the key tile.
-/
import proofs.«113719_j69286412419541_2_alg».proof.Proof.Run1A
import proofs.«113719_j69286412419541_2_alg».proof.Proof.Run1B
import proofs.«113719_j69286412419541_2_alg».proof.Proof.Run1C
import proofs.«113719_j69286412419541_2_alg».proof.Proof.Steps

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The run of case A at the point's own buffers. -/
abbrev runA (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 x0 x1 x2 x3 x4 x5 x6

theorem scoverA_0 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1024.Idx) :
    ∃ pc ∈ (runA (F := F) c t hc0 hc1 x0 x1 x2 x3 x4 x5 x6).2.1, y ∈ pc.1.set :=
  View.cover_of_tiledL (runA (F := F) c t hc0 hc1 x0 x1 x2 x3 x4 x5 x6).2.1 S1024x1024.size (by sl_kernel_rfl) y

theorem scoverA_1 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1.Idx) :
    ∃ pc ∈ (runA (F := F) c t hc0 hc1 x0 x1 x2 x3 x4 x5 x6).2.2.1, y ∈ pc.1.set :=
  View.cover_of_tiledL (runA (F := F) c t hc0 hc1 x0 x1 x2 x3 x4 x5 x6).2.2.1 S1024x1.size (by sl_kernel_rfl) y

theorem scoverA_2 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1.Idx) :
    ∃ pc ∈ (runA (F := F) c t hc0 hc1 x0 x1 x2 x3 x4 x5 x6).2.2.2.1, y ∈ pc.1.set :=
  View.cover_of_tiledL (runA (F := F) c t hc0 hc1 x0 x1 x2 x3 x4 x5 x6).2.2.2.1 S1024x1.size (by sl_kernel_rfl) y

theorem scoverA_3 (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (y : S1024x1024.Idx) :
    ∃ pc ∈ (runA (F := F) c t hc0 hc1 x0 x1 x2 x3 x4 x5 x6).2.2.2.2.1, y ∈ pc.1.set :=
  View.cover_of_tiledL (runA (F := F) c t hc0 hc1 x0 x1 x2 x3 x4 x5 x6).2.2.2.2.1 S1024x1024.size (by sl_kernel_rfl) y

/-- What case A leaves in the four scratch buffers: its stores read back. -/
def scrA (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) : Scr F :=
  (VS1_0.read (Elt F) (VS1_0.writes (Elt F) VS1_0.junk (runA (F := F) c t hc0 hc1 x0 x1 x2 x3 x4 x5 x6).2.1),
   VS1_1.read (Elt F) (VS1_1.writes (Elt F) VS1_1.junk (runA (F := F) c t hc0 hc1 x0 x1 x2 x3 x4 x5 x6).2.2.1),
   VS1_2.read (Elt F) (VS1_2.writes (Elt F) VS1_2.junk (runA (F := F) c t hc0 hc1 x0 x1 x2 x3 x4 x5 x6).2.2.2.1),
   VS1_3.read (Elt F) (VS1_3.writes (Elt F) VS1_3.junk (runA (F := F) c t hc0 hc1 x0 x1 x2 x3 x4 x5 x6).2.2.2.2.1))

/-- The run of case B at the point's own buffers. -/
abbrev runB (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 x0 x1 x2 x3 x4 x5 x6 xs.1 xs.2.1 xs.2.2.1 xs.2.2.2

theorem scoverB_1 (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runB (F := F) c t hc0 hc1 x0 x1 x2 x3 x4 x5 x6 xs).2.1, y ∈ pc.1.set :=
  View.cover_of_tiledL (runB (F := F) c t hc0 hc1 x0 x1 x2 x3 x4 x5 x6 xs).2.1 S1024x1.size (by sl_kernel_rfl) y

theorem scoverB_2 (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runB (F := F) c t hc0 hc1 x0 x1 x2 x3 x4 x5 x6 xs).2.2.1, y ∈ pc.1.set :=
  View.cover_of_tiledL (runB (F := F) c t hc0 hc1 x0 x1 x2 x3 x4 x5 x6 xs).2.2.1 S1024x1.size (by sl_kernel_rfl) y

theorem scoverB_3 (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1024.Idx) :
    ∃ pc ∈ (runB (F := F) c t hc0 hc1 x0 x1 x2 x3 x4 x5 x6 xs).2.2.2.1, y ∈ pc.1.set :=
  View.cover_of_tiledL (runB (F := F) c t hc0 hc1 x0 x1 x2 x3 x4 x5 x6 xs).2.2.2.1 S1024x1024.size (by sl_kernel_rfl) y

/-- What case B leaves in the four scratch buffers: its stores read back (the projected queries, only read here, as they were). -/
def scrB (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) : Scr F :=
  (xs.1,
   VS1_1.read (Elt F) (VS1_1.writes (Elt F) VS1_1.junk (runB (F := F) c t hc0 hc1 x0 x1 x2 x3 x4 x5 x6 xs).2.1),
   VS1_2.read (Elt F) (VS1_2.writes (Elt F) VS1_2.junk (runB (F := F) c t hc0 hc1 x0 x1 x2 x3 x4 x5 x6 xs).2.2.1),
   VS1_3.read (Elt F) (VS1_3.writes (Elt F) VS1_3.junk (runB (F := F) c t hc0 hc1 x0 x1 x2 x3 x4 x5 x6 xs).2.2.2.1))

/-- The run of case C at the point's own buffers. -/
abbrev runC (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 x0 x1 x2 x3 x4 x5 x6 xs.1 xs.2.1 xs.2.2.1 xs.2.2.2

theorem scoverC_1 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runC (F := F) c t hc0 hc1 x0 x1 x2 x3 x4 x5 x6 xs).2.1, y ∈ pc.1.set :=
  View.cover_of_tiledL (runC (F := F) c t hc0 hc1 x0 x1 x2 x3 x4 x5 x6 xs).2.1 S1024x1.size (by sl_kernel_rfl) y

theorem scoverC_2 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1.Idx) :
    ∃ pc ∈ (runC (F := F) c t hc0 hc1 x0 x1 x2 x3 x4 x5 x6 xs).2.2.1, y ∈ pc.1.set :=
  View.cover_of_tiledL (runC (F := F) c t hc0 hc1 x0 x1 x2 x3 x4 x5 x6 xs).2.2.1 S1024x1.size (by sl_kernel_rfl) y

theorem scoverC_3 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1024x1024.Idx) :
    ∃ pc ∈ (runC (F := F) c t hc0 hc1 x0 x1 x2 x3 x4 x5 x6 xs).2.2.2.1, y ∈ pc.1.set :=
  View.cover_of_tiledL (runC (F := F) c t hc0 hc1 x0 x1 x2 x3 x4 x5 x6 xs).2.2.2.1 S1024x1024.size (by sl_kernel_rfl) y

/-- What case C leaves in the four scratch buffers: its stores read back (the projected queries, only read here, as they were). -/
def scrC (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) : Scr F :=
  (xs.1,
   VS1_1.read (Elt F) (VS1_1.writes (Elt F) VS1_1.junk (runC (F := F) c t hc0 hc1 x0 x1 x2 x3 x4 x5 x6 xs).2.1),
   VS1_2.read (Elt F) (VS1_2.writes (Elt F) VS1_2.junk (runC (F := F) c t hc0 hc1 x0 x1 x2 x3 x4 x5 x6 xs).2.2.1),
   VS1_3.read (Elt F) (VS1_3.writes (Elt F) VS1_3.junk (runC (F := F) c t hc0 hc1 x0 x1 x2 x3 x4 x5 x6 xs).2.2.2.1))

theorem coverC_7 (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) (y : S1x1024x1024.Idx) :
    ∃ pc ∈ (runC (F := F) c t hc0 hc1 x0 x1 x2 x3 x4 x5 x6 xs).1, y ∈ pc.1.set :=
  View.cover_of_tiledL (runC (F := F) c t hc0 hc1 x0 x1 x2 x3 x4 x5 x6 xs).1 S1x1024x1024.size (by sl_kernel_rfl) y

/-- What case C leaves in the output block's buffer. -/
def outC (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) : Vec F S1x1024x1024 .f32 :=
  VO1_7.read (Elt F) (VO1_7.writes (Elt F) VO1_7.junk (runC (F := F) c t hc0 hc1 x0 x1 x2 x3 x4 x5 x6 xs).1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

section Region1

variable (V : (c : Dev nD) → (b : Ref sig .tc) → Buf (Elt F) ((c : Thread nD τ).loc b))

/-- What the output block's buffer and the four scratch buffers hold after the body at grid position `n`:
    the case the position's key tile selects, run at the point's input blocks, a later key tile over what the
    position before left in the scratch. (Where the body stores nothing into the output block — every key tile
    but the last — the first component is a placeholder nothing consults.) -/
def outsAt1 (c : Dev nD) : (n : ℕ) → n < cfg1.N → Vec F S1x1024x1024 .f32 × Scr F
  | 0, hn => (VO1_7.read (Elt F) VO1_7.junk, scrA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (VO1_7.read (Elt F) VO1_7.junk, scrA c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (outC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2,
         scrC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (VO1_7.read (Elt F) VO1_7.junk, scrB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (VO1_7.read (Elt F) VO1_7.junk, scrA c t ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_7.read (Elt F) VO1_7.junk, scrB c t (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC c t (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2,
      scrC c t (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The four scratch buffers owned at a state's components. -/
abbrev ownsScr (c : Dev nD) (s : Scr F) : sProp 𝕄 :=
  iprop(owns (c : Thread nD τ) scM1_0 fullShare s.1 ∗ owns (c : Thread nD τ) scM1_1 fullShare s.2.1 ∗ owns (c : Thread nD τ) scM1_2 fullShare s.2.2.1 ∗ owns (c : Thread nD τ) scM1_3 fullShare s.2.2.2)

/-- The region invariant before grid position `n`: before the first point the class's (every scratch buffer at
    anything); afterwards the four scratch buffers at what the position before left in them, beside the core's
    other scoped buffers and the generator register, untouched. -/
def PhiS1 (c : Dev nD) : (n : ℕ) → n ≤ cfg1.N → sProp 𝕄
  | 0, _ => Pipeline.ΦA spec1 c
  | n + 1, hn => iprop(iprop(ownsScr c (outsAt1 V c n hn).2 ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(ownsScr c (outsAt1 V c n hn).2 ∗ restBut1 c) ∗ (∃ r, prngReg c r)) := rfl

theorem PhiS1_pos (c : Dev nD) (n : ℕ) (h : n ≤ cfg1.N) (hz : n ≠ 0) :
    PhiS1 V c n h = iprop(iprop(ownsScr c (outsAt1 V c (n - 1) (by omega)).2 ∗ restBut1 c) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

end Region1

end Cert.KernelIdeal.Fr

end
-- ==== Proof.Frame1b.lean ====
/-
  The second kernel region's body obligation: at every grid point the body, handed the invariant and its
  windows' buffers, runs to the invariant of the next point and the buffers at the proof data's contents —
  by cases on the key tile (first at the very first grid point, first elsewhere, middle, last).
-/
import proofs.«113719_j69286412419541_2_alg».proof.Proof.Frame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

set_option maxHeartbeats 8000000 in
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [Dat.leavesExact_idle (dat1 V c) 7 t (idleAt1_7 t (fun h => h1 ((hcond1_1 t).mp h))) (noFlush1_7 t (fun h => h1 ((hcond1_1 t).mp h)))]
  rw [outsAt1_A V c t h0 h1]
  rw [PhiS1_castSucc V c t, PhiS1_zero V c _ _ hz, PhiA1_eq]
  unfold ownsScr scrA
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA (F := F) c t ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, ⟨%es0, HS0⟩, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · unfold owns; iexists _; isplitr
          swap; · iexact HS0
          ipureintro; exact View.read_writes_of_cover _ _ _ _ _ (scoverA_0 (F := F) c t _ _ _ _ _ _ _ _ _)
        isplitl [HS1]
        · unfold owns; iexists _; isplitr
          swap; · iexact HS1
          ipureintro; exact View.read_writes_of_cover _ _ _ _ _ (scoverA_1 (F := F) c t _ _ _ _ _ _ _ _ _)
        isplitl [HS2]
        · unfold owns; iexists _; isplitr
          swap; · iexact HS2
          ipureintro; exact View.read_writes_of_cover _ _ _ _ _ (scoverA_2 (F := F) c t _ _ _ _ _ _ _ _ _)
        unfold owns; iexists _; isplitr
        swap; · iexact HS3
        ipureintro; exact View.read_writes_of_cover _ _ _ _ _ (scoverA_3 (F := F) c t _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 8000000 in
theorem sound_body1_A1 (c : Dev nD) (t : Fin cfg1.N) (h0 : t.val % 4 = 0) (h1 : ¬t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [Dat.leavesExact_idle (dat1 V c) 7 t (idleAt1_7 t (fun h => h1 ((hcond1_1 t).mp h))) (noFlush1_7 t (fun h => h1 ((hcond1_1 t).mp h)))]
  rw [outsAt1_A V c t h0 h1]
  rw [PhiS1_castSucc V c t, PhiS1_pos V c _ _ hz]
  unfold ownsScr scrA
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA (F := F) c t ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  iintro ⟨H0, H1, H2, H3, H4, H5, H6, H7, ⟨%es0, HS0⟩, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · unfold owns; iexists _; isplitr
          swap; · iexact HS0
          ipureintro; exact View.read_writes_of_cover _ _ _ _ _ (scoverA_0 (F := F) c t _ _ _ _ _ _ _ _ _)
        isplitl [HS1]
        · unfold owns; iexists _; isplitr
          swap; · iexact HS1
          ipureintro; exact View.read_writes_of_cover _ _ _ _ _ (scoverA_1 (F := F) c t _ _ _ _ _ _ _ _ _)
        isplitl [HS2]
        · unfold owns; iexists _; isplitr
          swap; · iexact HS2
          ipureintro; exact View.read_writes_of_cover _ _ _ _ _ (scoverA_2 (F := F) c t _ _ _ _ _ _ _ _ _)
        unfold owns; iexists _; isplitr
        swap; · iexact HS3
        ipureintro; exact View.read_writes_of_cover _ _ _ _ _ (scoverA_3 (F := F) c t _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 8000000 in
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hz : t.val ≠ 0 := fun e => h0 (by rw [e])
  rw [Dat.leavesExact_idle (dat1 V c) 7 t (idleAt1_7 t (fun h => h1 ((hcond1_1 t).mp h))) (noFlush1_7 t (fun h => h1 ((hcond1_1 t).mp h)))]
  rw [outsAt1_B V c t h0 h1]
  rw [PhiS1_castSucc V c t, PhiS1_pos V c _ _ hz]
  unfold ownsScr scrB
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB (F := F) c t (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · iexact HS0
        isplitl [HS1]
        · unfold owns; iexists _; isplitr
          swap; · iexact HS1
          ipureintro; exact View.read_writes_of_cover _ _ _ _ _ (scoverB_1 (F := F) c t _ _ _ _ _ _ _ _ _ _)
        isplitl [HS2]
        · unfold owns; iexists _; isplitr
          swap; · iexact HS2
          ipureintro; exact View.read_writes_of_cover _ _ _ _ _ (scoverB_2 (F := F) c t _ _ _ _ _ _ _ _ _ _)
        unfold owns; iexists _; isplitr
        swap; · iexact HS3
        ipureintro; exact View.read_writes_of_cover _ _ _ _ _ (scoverB_3 (F := F) c t _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 8000000 in
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hz : t.val ≠ 0 := fun e => h0 (by rw [e])
  rw [show (dat1 V c).leavesExact 7 t = owns (c : Thread nD τ) (ms1_7 t) fullShare ((dat1 V c).after 7 t) from by
    unfold Dat.leavesExact; rw [liveAt1_7 t ((hcond1_1 t).mpr h1)], after1_7]
  rw [outsAt1_C V c t h0 h1]
  rw [PhiS1_castSucc V c t, PhiS1_pos V c _ _ hz]
  unfold ownsScr outC scrC
  dsimp only
  iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC (F := F) c t (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, ⟨%e7, H7⟩, HS0, ⟨%es1, HS1⟩, ⟨%es2, HS2⟩, ⟨%es3, HS3⟩⟩
  isplitl [HS0 HS1 HS2 HS3 Hrest Hg]
  · isplitl [HS0 HS1 HS2 HS3 Hrest]
    · isplitl [HS0 HS1 HS2 HS3]
      · isplitl [HS0]
        · iexact HS0
        isplitl [HS1]
        · unfold owns; iexists _; isplitr
          swap; · iexact HS1
          ipureintro; exact View.read_writes_of_cover _ _ _ _ _ (scoverC_1 (F := F) c t _ _ _ _ _ _ _ _ _ _)
        isplitl [HS2]
        · unfold owns; iexists _; isplitr
          swap; · iexact HS2
          ipureintro; exact View.read_writes_of_cover _ _ _ _ _ (scoverC_2 (F := F) c t _ _ _ _ _ _ _ _ _ _)
        unfold owns; iexists _; isplitr
        swap; · iexact HS3
        ipureintro; exact View.read_writes_of_cover _ _ _ _ _ (scoverC_3 (F := F) c t _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverC_7 (F := F) c t _ _ _ _ _ _ _ _ _ _)

/-- The body at any point, by cases on the key tile. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  by_cases h0 : t.val % 4 = 0
  · have h1 : ¬t.val % 4 = 3 := by omega
    by_cases hz : t.val = 0
    · exact sound_body1_A0 V c t h0 h1 hz
    · exact sound_body1_A1 V c t h0 h1 hz
  · by_cases h1 : t.val % 4 = 3
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1, HS2, HS3⟩, Hrest⟩, Hg⟩
  isplitl [HS0 HS1 HS2 HS3 Hrest]
  · isplitl [HS0 HS1 HS2 HS3]
    · isplitl [HS0]; · iexists _; iexact HS0
      isplitl [HS1]; · iexists _; iexact HS1
      isplitl [HS2]; · iexists _; iexact HS2
      iexists _; iexact HS3
    iexact Hrest
  iexact Hg

end Region1

end Cert.KernelIdeal.Fr

end
-- ==== Proof.Run.lean ====
/-
  The whole program's run: the two kernel regions among the host operations around them.

  The buffer contents at every boundary between two items of the program are a fold from the launch
  memory: after a stretch of host operations, those operations applied; after a kernel region, the
  region's arrays at what its write-backs leave and every other buffer as it was. Each region is entered
  from the contents before it and left at the contents after it. Hence every weakly fair execution ends,
  faults nowhere, and every buffer ends at the last fold's contents — in particular each argument as
  launched, since no host operation writes an argument and a region only reads one through an input window.
-/
import proofs.«113719_j69286412419541_2_alg».proof.Proof.Frame0
import proofs.«113719_j69286412419541_2_alg».proof.Proof.Frame1b
import proofs.«113719_j69286412419541_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the transposed weights, the flattened source). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the keys and values regrouped by batch entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### Each argument ends as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 4).trans (((dat1 (V3 m ρ) c).arrAt_in 4 rfl _).trans (A_eq1 (V3 m ρ) c 4))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- The second region's invariant after its last point gives back the scoped rest and the generator register. -/
theorem hout1' (V : (c : Dev nD) → (b : Ref sig .tc) → Buf (Elt F) ((c : Thread nD τ).loc b)) (c : Dev nD) :
    (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 V c
  unfold Pipeline.ΦA at h
  exact h

/-! ## The regions as segments -/

set_option backward.isDefEq.respectTransparency.types false in
/-- Region 0 over the thread state: entered from every unscoped buffer at the contents before it, left at the
    contents after it; its arrays split out of the unscoped buffers and put back at what its write-backs leave; the
    generator register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what its write-backs leave; the
    generator register into the region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    iintro H
    ihave H' := (hout1' (V3 m ρ) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

/-- The result's buffer ends at what the second region's write-backs leave in its output array. -/
theorem run_result : θ_run defs (onTc (τ := τ) (main (F := F))) ⟨m, fun _ => 0, ρ⟩ (fun r => ∀ c : Dev nD,
      r.2.mem ((c.tc : Thread nD τ).loc main_v12) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

end Cert.KernelIdeal.Fr

end
-- ==== Proof.Spec.lean ====
/-
  The mathematics both programs compute, stated once over plain index types, with no program imported.

  Scaled dot-product attention with learned projections: for a batch entry b, a query row t and an
  output column o,
      Q(b,t,e) = Σ_d target(b,t,d)·Wq(e,d) + bq(e)      K(b,s,e), V(b,s,e) likewise from source,
      S(b,t,s) = (Σ_e Q(b,t,e)·K(b,s,e)) / √1024,
      P(b,t,s) = exp(S(b,t,s) − max_s S(b,t,s)),         L(b,t) = Σ_s P(b,t,s),
      A(b,t,e) = Σ_s (P(b,t,s) / L(b,t))·V(b,s,e),       O(b,t,o) = Σ_e A(b,t,e)·Wo(o,e) + bo(o).
  The reference computes exactly this. The kernel computes the same row by row in four blocks of 512
  keys with a running maximum, a running denominator and a running numerator ("online softmax"):
  the row-level update is `rowStep` below, and after the last block it divides the numerator by the
  denominator. Everything is an extended real; the operations are the exact ones.
-/
import Idealize.ShloMosaic.Lib.ValueIdx

noncomputable section

namespace Cert.Attn

open Idealize.ShloMosaic Idealize.ShloMosaic.ValueIdx

/-! ## One row of the online softmax -/

section Row

variable {J : Type} [Fintype J]

/-- A block's largest score, as the fold of `max` from `-∞`. -/
def blockMax (s : J → EReal) : EReal := (Finset.univ : Finset J).fold max (⊥ : EReal) s

/-- The running maximum after a block of scores `s`: the old maximum `m` against the block's. -/
def rowMax (m : EReal) (s : J → EReal) : EReal := max m (blockMax s)

/-- The running denominator after the block: the old one rescaled by `exp (m − m')`, plus the block's
    `Σ_j exp (s j − m')`, where `m'` is the new maximum. -/
def rowDen (m l : EReal) (s : J → EReal) : EReal :=
  Ideal.exp (m - rowMax m s) * l + ∑ j, Ideal.exp (s j - rowMax m s)

/-- The running numerator (one output column) after the block: the old one rescaled, plus the block's
    `Σ_j exp (s j − m')·v j`. -/
def rowNum (m a : EReal) (s v : J → EReal) : EReal :=
  Ideal.exp (m - rowMax m s) * a + ∑ j, Ideal.exp (s j - rowMax m s) * v j

end Row

/-! ## The whole function, index by index -/

section Whole

/-- 1/√1024 as the kernel spells it (the f32 word of 0.03125) and √1024's radicand as the reference spells it. -/
abbrev scaleWord : BitVec 32 := 0x3D000000#32
abbrev dWord : BitVec 32 := 0x44800000#32

variable (tg src : Fin 8 → Fin 2048 → Fin 1024 → EReal)
  (Wq Wk Wv Wo : Fin 1024 → Fin 1024 → EReal) (bq bk bv bo : Fin 1024 → EReal)

/-- A linear layer `x·Wᵀ + b` at one entry. -/
def proj (x : Fin 8 → Fin 2048 → Fin 1024 → EReal) (W : Fin 1024 → Fin 1024 → EReal) (b : Fin 1024 → EReal)
    (n : Fin 8) (t : Fin 2048) (e : Fin 1024) : EReal :=
  (∑ d : Fin 1024, x n t d * W e d) + b e

/-- The scaled score of query row `t` against key row `s`, as the reference scales it (a division by √1024). -/
def score (n : Fin 8) (t s : Fin 2048) : EReal :=
  Ideal.div (∑ e : Fin 1024, proj tg Wq bq n t e * proj src Wk bk n s e) (Ideal.sqrt (Ideal.ofBits .f32 dWord))

/-- A row's largest score. -/
def rowTop (n : Fin 8) (t : Fin 2048) : EReal := blockMax (fun s : Fin 2048 => score tg src Wq Wk bq bk n t s)

/-- The unnormalised weight of key row `s`. -/
def weight (n : Fin 8) (t s : Fin 2048) : EReal :=
  Ideal.exp (score tg src Wq Wk bq bk n t s - rowTop tg src Wq Wk bq bk n t)

/-- A row's normaliser. -/
def norm (n : Fin 8) (t : Fin 2048) : EReal := ∑ s : Fin 2048, weight tg src Wq Wk bq bk n t s

/-- The attended value. -/
def attended (n : Fin 8) (t : Fin 2048) (e : Fin 1024) : EReal :=
  ∑ s : Fin 2048, Ideal.div (weight tg src Wq Wk bq bk n t s) (norm tg src Wq Wk bq bk n t) * proj src Wv bv n s e

/-- The result: the output projection of the attended values. -/
def result (n : Fin 8) (t : Fin 2048) (o : Fin 1024) : EReal :=
  (∑ e : Fin 1024, attended tg src Wq Wk Wv bq bk bv n t e * Wo o e) + bo o

end Whole

end Cert.Attn

end
-- ==== Proof.RefAt.lean ====
/-
  The reference program read at an index.

  The reference computes scaled dot-product attention with learned projections in 36 array operations.
  This module reads its result array at one index (n, t, o) and finds there the index-by-index
  specification `Cert.Attn.result` of the ten argument arrays:

    * a linear layer `x·Wᵀ + b` at (n, t, e) is `Σ_d x(n,t,d)·W(e,d) + b(e)`: the contraction's left
      index is (n, t, d), its right index (e, d), and the bias, broadcast over the two leading axes,
      reads at e;
    * the score at (n, t, s) is the contraction over e of the two projected rows, divided by the
      square root of the constant 1024 broadcast to every entry;
    * the row maximum at (n, t) is the maximum of −∞ with the fold of `max` from −∞ over the key axis,
      which is that fold;
    * the weights are `exp (score − row maximum)`, the row maximum read through its two keepdims
      broadcasts [8,2048] → [8,2048,1] → [8,2048,2048] at (n, t);
    * the normaliser is zero plus the sum of the weights over the key axis;
    * the attended value contracts the normalised weights with the projected values over the key axis;
    * the result is the output layer applied to the attended values.
-/
import proofs.«113719_j69286412419541_2_alg».proof.Proof.Gen.ReferenceIdeal.Read
import proofs.«113719_j69286412419541_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attn

/-! ## Index arithmetic: the contraction and broadcast indices at explicit coordinates -/

/-- A linear layer's left index at (n, t, e), contraction coordinate d: (n, t, d). -/
theorem lidx_lin (n : Fin 8) (t : Fin 2048) (e d : Fin 1024) : lidx_main_v0 (ix3 n t e) d = ix3 n t d :=
  funext fun a => Fin.ext (by match a with | ⟨0, _⟩ => rfl | ⟨1, _⟩ => rfl | ⟨2, _⟩ => rfl)

/-- A linear layer's right index at (n, t, e), contraction coordinate d: (e, d). -/
theorem ridx_lin (n : Fin 8) (t : Fin 2048) (e d : Fin 1024) : ridx_main_v0 (ix3 n t e) d = ix2 e d :=
  funext fun a => Fin.ext (by match a with | ⟨0, _⟩ => rfl | ⟨1, _⟩ => rfl)

/-- The bias, broadcast [1024] → [1,1,1024] → [8,2048,1024], reads at (n, t, e) its entry e. -/
theorem idx_bias (n : Fin 8) (t : Fin 2048) (e : Fin 1024) : idx_main_v1 (idx_main_v2 (ix3 n t e)) = ix1 e :=
  funext fun a => Fin.ext (by match a with | ⟨0, _⟩ => rfl)

/-! ## The linear layers -/

/-- A linear layer at (n, t, e): the contraction over the input features plus the bias's entry e. -/
theorem lin_apply (x : FVec Ideal S8x2048x1024 .f32) (W : FVec Ideal S1024x1024 .f32) (b : FVec Ideal S1024 .f32)
    (n : Fin 8) (t : Fin 2048) (e : Fin 1024) :
    val_main_v3 (F := Ideal) x W b (ix3 n t e)
      = proj (fun n t d => x (ix3 n t d)) (fun e d => W (ix2 e d)) (fun e => b (ix1 e)) n t e := by
  rw [val_main_v3_apply, val_main_v0_apply, val_main_v2_apply, val_main_v1_apply, idx_bias, Ideal.addf_def]
  unfold proj
  refine congrArg (· + b (ix1 e)) (Finset.sum_congr rfl fun d _ => ?_)
  rw [lidx_lin, ridx_lin]

/-- The key projection is the same function of the source, its weights and its bias. -/
theorem key_eq (x : FVec Ideal S8x2048x1024 .f32) (W : FVec Ideal S1024x1024 .f32) (b : FVec Ideal S1024 .f32) :
    val_main_v7 (F := Ideal) x W b = val_main_v3 (F := Ideal) x W b := rfl

/-- The value projection likewise. -/
theorem value_eq (x : FVec Ideal S8x2048x1024 .f32) (W : FVec Ideal S1024x1024 .f32) (b : FVec Ideal S1024 .f32) :
    val_main_v11 (F := Ideal) x W b = val_main_v3 (F := Ideal) x W b := rfl

/-! ## The scores -/

/-- The score contraction's left index at (n, t, s), coordinate e: the query row (n, t, e). -/
theorem lidx_score (n : Fin 8) (t s : Fin 2048) (e : Fin 1024) : lidx_main_v12 (ix3 n t s) e = ix3 n t e :=
  funext fun a => Fin.ext (by match a with | ⟨0, _⟩ => rfl | ⟨1, _⟩ => rfl | ⟨2, _⟩ => rfl)

/-- Its right index: the key row (n, s, e). -/
theorem ridx_score (n : Fin 8) (t s : Fin 2048) (e : Fin 1024) : ridx_main_v12 (ix3 n t s) e = ix3 n s e :=
  funext fun a => Fin.ext (by match a with | ⟨0, _⟩ => rfl | ⟨1, _⟩ => rfl | ⟨2, _⟩ => rfl)

section Score

variable (a0 a1 : FVec Ideal S8x2048x1024 .f32) (a2 : FVec Ideal S1024x1024 .f32) (a3 : FVec Ideal S1024 .f32)
  (a4 : FVec Ideal S1024x1024 .f32) (a5 : FVec Ideal S1024 .f32)

/-- The scaled score at (n, t, s). -/
theorem score_apply (n : Fin 8) (t s : Fin 2048) :
    val_main_v15 (F := Ideal) a0 a1 a2 a3 a4 a5 (ix3 n t s)
      = score (fun n t d => a0 (ix3 n t d)) (fun n s d => a1 (ix3 n s d)) (fun e d => a2 (ix2 e d)) (fun e d => a4 (ix2 e d))
          (fun e => a3 (ix1 e)) (fun e => a5 (ix1 e)) n t s := by
  rw [val_main_v15_apply, val_main_v12_apply, val_main_v14_apply, val_main_v13_apply, val_main_cst_apply,
    Ideal.hostDivf_def, Ideal.hostUnary_sqrt_def, Ideal.ofBits_def]
  unfold score
  refine congrArg (Ideal.div · _) (Finset.sum_congr rfl fun e _ => ?_)
  rw [lidx_score, ridx_score, key_eq, lin_apply, lin_apply]

/-! ## The row maximum -/

/-- The score array's key axis is dropped: [8,2048,2048] over axis 2 to [8,2048]. -/
theorem reduces_keys : S8x2048x2048.Reduces [2] S8x2048 := by decide

/-- The reduced index (n, t) with key coordinate k put back on axis 2 is (n, t, k). -/
theorem lift_keys (n : Fin 8) (t : Fin 2048) (k : Fin (S8x2048x2048.size 2)) :
    reduces_keys.lift (ix2 n t) k = ix3 n t (⟨k.val, k.isLt⟩ : Fin 2048) := by
  funext c; apply Fin.ext
  fin_cases c <;> rfl

/-- The word 0xFF800000 is −∞, the bottom of the extended reals. -/
theorem negInf_word : Ideal.ofBits .f32 0xFF800000#32 = (⊥ : EReal) := by simp [Ideal.ofBits, Ideal.ieee]

/-- The row maximum at (n, t): the maximum of −∞ with the fold of `max` from −∞ over the keys is that fold. -/
theorem rowTop_apply (n : Fin 8) (t : Fin 2048) :
    val_main_v18 (F := Ideal) a0 a1 a2 a3 a4 a5 (ix2 n t)
      = rowTop (fun n t d => a0 (ix3 n t d)) (fun n s d => a1 (ix3 n s d)) (fun e d => a2 (ix2 e d)) (fun e d => a4 (ix2 e d))
          (fun e => a3 (ix1 e)) (fun e => a5 (ix1 e)) n t := by
  rw [val_main_v18_apply, val_main_v17_apply, val_main_cst_1_apply, Ideal.maximumf_def, Ideal.ofBits_def, negInf_word,
    max_eq_right bot_le]
  unfold val_main_v16
  rw [Host.reduce_eq_fold_single FloatOps.maximumf _ _ reducesTo_S8x2048x2048_S8x2048_d2 reduces_keys h_S_,
    val_main_cst_0_apply, Ideal.ofBits_def, negInf_word]
  unfold rowTop blockMax
  have hf : (val_main_v15 (F := Ideal) a0 a1 a2 a3 a4 a5 ∘ reduces_keys.lift (ix2 n t))
      = fun s : Fin 2048 => score (fun n t d => a0 (ix3 n t d)) (fun n s d => a1 (ix3 n s d)) (fun e d => a2 (ix2 e d)) (fun e d => a4 (ix2 e d))
          (fun e => a3 (ix1 e)) (fun e => a5 (ix1 e)) n t s :=
    funext fun k => by
      show val_main_v15 (F := Ideal) a0 a1 a2 a3 a4 a5 (reduces_keys.lift (ix2 n t) k) = _
      rw [lift_keys]
      exact score_apply a0 a1 a2 a3 a4 a5 n t _
  exact congrArg (fun f => Finset.fold max (⊥ : EReal) f (Finset.univ : Finset (Fin 2048))) hf

/-! ## The weights, the normaliser, the shares -/

/-- A row statistic, broadcast [8,2048] → [8,2048,1] → [8,2048,2048], reads at (n, t, s) its entry (n, t). -/
theorem idx_keep_top (n : Fin 8) (t s : Fin 2048) : idx_main_v19 (idx_main_v20 (ix3 n t s)) = ix2 n t :=
  funext fun a => Fin.ext (by match a with | ⟨0, _⟩ => rfl | ⟨1, _⟩ => rfl)

/-- The same for the normaliser's two broadcasts. -/
theorem idx_keep_norm (n : Fin 8) (t s : Fin 2048) : idx_main_v24 (idx_main_v25 (ix3 n t s)) = ix2 n t :=
  funext fun a => Fin.ext (by match a with | ⟨0, _⟩ => rfl | ⟨1, _⟩ => rfl)

/-- The key-axis sum's index at (n, t), coordinate k: (n, t, k). -/
theorem idx_keys (n : Fin 8) (t k : Fin 2048) : idx_main_v23 (ix2 n t) k = ix3 n t k :=
  funext fun a => Fin.ext (by match a with | ⟨0, _⟩ => rfl | ⟨1, _⟩ => rfl | ⟨2, _⟩ => rfl)

/-- The unnormalised weight at (n, t, s): the exponential of the score less the row maximum. -/
theorem weight_apply (n : Fin 8) (t s : Fin 2048) :
    val_main_v22 (F := Ideal) a0 a1 a2 a3 a4 a5 (ix3 n t s)
      = weight (fun n t d => a0 (ix3 n t d)) (fun n s d => a1 (ix3 n s d)) (fun e d => a2 (ix2 e d)) (fun e d => a4 (ix2 e d))
          (fun e => a3 (ix1 e)) (fun e => a5 (ix1 e)) n t s := by
  rw [val_main_v22_apply, val_main_v21_apply, val_main_v20_apply, val_main_v19_apply, idx_keep_top,
    Ideal.hostUnary_exp_def, Ideal.subf_def, score_apply, rowTop_apply]
  rfl

/-- The normaliser at (n, t): zero plus the sum of the row's weights. -/
theorem norm_apply (n : Fin 8) (t : Fin 2048) :
    val_main_v23 (F := Ideal) a0 a1 a2 a3 a4 a5 (ix2 n t)
      = Cert.Attn.norm (fun n t d => a0 (ix3 n t d)) (fun n s d => a1 (ix3 n s d)) (fun e d => a2 (ix2 e d)) (fun e d => a4 (ix2 e d))
          (fun e => a3 (ix1 e)) (fun e => a5 (ix1 e)) n t := by
  rw [val_main_v23_apply, val_main_cst_2_apply, Ideal.ofBits_def, Ideal.ofBits_zero_f32, zero_add]
  unfold Cert.Attn.norm
  exact Finset.sum_congr rfl fun k _ => by rw [idx_keys, weight_apply]

/-- The normalised weight at (n, t, s). -/
theorem share_apply (n : Fin 8) (t s : Fin 2048) :
    val_main_v26 (F := Ideal) a0 a1 a2 a3 a4 a5 (ix3 n t s)
      = Ideal.div (weight (fun n t d => a0 (ix3 n t d)) (fun n s d => a1 (ix3 n s d)) (fun e d => a2 (ix2 e d)) (fun e d => a4 (ix2 e d))
          (fun e => a3 (ix1 e)) (fun e => a5 (ix1 e)) n t s)
          (Cert.Attn.norm (fun n t d => a0 (ix3 n t d)) (fun n s d => a1 (ix3 n s d)) (fun e d => a2 (ix2 e d)) (fun e d => a4 (ix2 e d))
          (fun e => a3 (ix1 e)) (fun e => a5 (ix1 e)) n t) := by
  rw [val_main_v26_apply, val_main_v25_apply, val_main_v24_apply, idx_keep_norm, Ideal.hostDivf_def, weight_apply, norm_apply]

/-! ## The attended values and the result -/

/-- The value contraction's left index at (n, t, e), key coordinate k: the share (n, t, k). -/
theorem lidx_att (n : Fin 8) (t : Fin 2048) (e : Fin 1024) (k : Fin 2048) : lidx_main_v27 (ix3 n t e) k = ix3 n t k :=
  funext fun a => Fin.ext (by match a with | ⟨0, _⟩ => rfl | ⟨1, _⟩ => rfl | ⟨2, _⟩ => rfl)

/-- Its right index: the projected value (n, k, e). -/
theorem ridx_att (n : Fin 8) (t : Fin 2048) (e : Fin 1024) (k : Fin 2048) : ridx_main_v27 (ix3 n t e) k = ix3 n k e :=
  funext fun a => Fin.ext (by match a with | ⟨0, _⟩ => rfl | ⟨1, _⟩ => rfl | ⟨2, _⟩ => rfl)

/-- The output layer's left index at (n, t, o), coordinate e: the attended value (n, t, e). -/
theorem lidx_out (n : Fin 8) (t : Fin 2048) (o e : Fin 1024) : lidx_main_v28 (ix3 n t o) e = ix3 n t e :=
  funext fun a => Fin.ext (by match a with | ⟨0, _⟩ => rfl | ⟨1, _⟩ => rfl | ⟨2, _⟩ => rfl)

/-- Its right index: the output weight (o, e). -/
theorem ridx_out (n : Fin 8) (t : Fin 2048) (o e : Fin 1024) : ridx_main_v28 (ix3 n t o) e = ix2 o e :=
  funext fun a => Fin.ext (by match a with | ⟨0, _⟩ => rfl | ⟨1, _⟩ => rfl)

/-- The output bias, broadcast [1024] → [1,1,1024] → [8,2048,1024], reads at (n, t, o) its entry o. -/
theorem idx_obias (n : Fin 8) (t : Fin 2048) (o : Fin 1024) : idx_main_v29 (idx_main_v30 (ix3 n t o)) = ix1 o :=
  funext fun a => Fin.ext (by match a with | ⟨0, _⟩ => rfl)

variable (a6 : FVec Ideal S1024x1024 .f32) (a7 : FVec Ideal S1024 .f32) (a8 : FVec Ideal S1024x1024 .f32) (a9 : FVec Ideal S1024 .f32)

/-- The attended value at (n, t, e): the shares contracted with the projected values over the keys. -/
theorem attended_apply (n : Fin 8) (t : Fin 2048) (e : Fin 1024) :
    val_main_v27 (F := Ideal) a0 a1 a2 a3 a4 a5 a6 a7 (ix3 n t e)
      = attended (fun n t d => a0 (ix3 n t d)) (fun n s d => a1 (ix3 n s d)) (fun e d => a2 (ix2 e d)) (fun e d => a4 (ix2 e d))
          (fun e d => a6 (ix2 e d)) (fun e => a3 (ix1 e)) (fun e => a5 (ix1 e)) (fun e => a7 (ix1 e)) n t e := by
  rw [val_main_v27_apply]
  unfold attended
  exact Finset.sum_congr rfl fun k _ => by rw [lidx_att, ridx_att, share_apply, value_eq, lin_apply]

/-- THE REFERENCE AT AN INDEX: its result array at (n, t, o) is the specification's result of the ten argument arrays. -/
theorem ref_apply (n : Fin 8) (t : Fin 2048) (o : Fin 1024) :
    val_main_v31 (F := Ideal) a0 a1 a2 a3 a4 a5 a6 a7 a8 a9 (ix3 n t o)
      = result (fun n t d => a0 (ix3 n t d)) (fun n s d => a1 (ix3 n s d))
          (fun e d => a2 (ix2 e d)) (fun e d => a4 (ix2 e d)) (fun e d => a6 (ix2 e d)) (fun o e => a8 (ix2 o e))
          (fun e => a3 (ix1 e)) (fun e => a5 (ix1 e)) (fun e => a7 (ix1 e)) (fun o => a9 (ix1 o)) n t o := by
  rw [val_main_v31_apply, val_main_v28_apply, val_main_v30_apply, val_main_v29_apply, idx_obias, Ideal.addf_def]
  unfold result
  refine congrArg (· + a9 (ix1 o)) (Finset.sum_congr rfl fun e _ => ?_)
  rw [lidx_out, ridx_out, attended_apply]

/-- The same as one equation between arrays: the reference's result is the specification's, entry by entry. -/
theorem ref_eq :
    val_main_v31 (F := Ideal) a0 a1 a2 a3 a4 a5 a6 a7 a8 a9
      = fun i => result (fun n t d => a0 (ix3 n t d)) (fun n s d => a1 (ix3 n s d))
          (fun e d => a2 (ix2 e d)) (fun e d => a4 (ix2 e d)) (fun e d => a6 (ix2 e d)) (fun o e => a8 (ix2 o e))
          (fun e => a3 (ix1 e)) (fun e => a5 (ix1 e)) (fun e => a7 (ix1 e)) (fun o => a9 (ix1 o)) (i 0) (i 1) (i 2) := by
  funext i
  obtain ⟨n, t, o, rfl⟩ : ∃ (n : Fin 8) (t : Fin 2048) (o : Fin 1024), i = ix3 n t o := ⟨i 0, i 1, i 2, eq_ix3 i⟩
  exact ref_apply a0 a1 a2 a3 a4 a5 a6 a7 a8 a9 n t o

end Score

/-! ## The run's own term -/

section Run

open Idealize.SL.Sem Idealize.ShloMosaic.TcCoe Idealize.ShloMosaic.StableHlo

variable (m : (ℓ : Loc nD τ sig) → Buf (Elt Ideal) ℓ) (c : Dev nD)

/-- The term the reference's run leaves in its result buffer, read at (n, t, o): the specification's result of the
    argument buffers' launch contents. -/
theorem ref_run_apply (n : Fin 8) (t : Fin 2048) (o : Fin 1024) :
    Cert.ReferenceIdeal.Value.res_main_v31 m c (ix3 n t o)
      = result (fun n t d => m ((c.tc : Thread nD τ).loc main_arg0) (ix3 n t d)) (fun n s d => m ((c.tc : Thread nD τ).loc main_arg1) (ix3 n s d))
          (fun e d => m ((c.tc : Thread nD τ).loc main_arg2) (ix2 e d)) (fun e d => m ((c.tc : Thread nD τ).loc main_arg4) (ix2 e d))
          (fun e d => m ((c.tc : Thread nD τ).loc main_arg6) (ix2 e d)) (fun o e => m ((c.tc : Thread nD τ).loc main_arg8) (ix2 o e))
          (fun e => m ((c.tc : Thread nD τ).loc main_arg3) (ix1 e)) (fun e => m ((c.tc : Thread nD τ).loc main_arg5) (ix1 e))
          (fun e => m ((c.tc : Thread nD τ).loc main_arg7) (ix1 e)) (fun o => m ((c.tc : Thread nD τ).loc main_arg9) (ix1 o)) n t o := by
  rw [val_main_v31_eq]
  exact ref_apply _ _ _ _ _ _ _ _ _ _ n t o

/-- The same as one equation between arrays. -/
theorem ref_run_eq :
    Cert.ReferenceIdeal.Value.res_main_v31 m c
      = fun i : S8x2048x1024.Idx => result (fun n t d => m ((c.tc : Thread nD τ).loc main_arg0) (ix3 n t d)) (fun n s d => m ((c.tc : Thread nD τ).loc main_arg1) (ix3 n s d))
          (fun e d => m ((c.tc : Thread nD τ).loc main_arg2) (ix2 e d)) (fun e d => m ((c.tc : Thread nD τ).loc main_arg4) (ix2 e d))
          (fun e d => m ((c.tc : Thread nD τ).loc main_arg6) (ix2 e d)) (fun o e => m ((c.tc : Thread nD τ).loc main_arg8) (ix2 o e))
          (fun e => m ((c.tc : Thread nD τ).loc main_arg3) (ix1 e)) (fun e => m ((c.tc : Thread nD τ).loc main_arg5) (ix1 e))
          (fun e => m ((c.tc : Thread nD τ).loc main_arg7) (ix1 e)) (fun o => m ((c.tc : Thread nD τ).loc main_arg9) (ix1 o)) (i 0) (i 1) (i 2) :=
  (val_main_v31_eq m c).trans (ref_eq _ _ _ _ _ _ _ _ _ _)

end Run

end Cert.ReferenceIdeal.RefValue

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.LibColumnForms.lean ====
/-
  Reading a block of rows at `(p, c)`: the keepdims column forms, a lane sum, and a plain matrix product.

  * a vector `[a]` cast to a column `[a, 1]` reads at `(p, 0)` the vector at `p`;
  * a column `[a, 1]` broadcast to `[a, b]` reads at `(p, c)` the column at `(p, 0)`;
  * the sum of an `[a, b]` array over its second axis, at `p`, is the sum over `k` of the array at `(p, k)`;
  * a matrix product `[a, K] × [K, b]` into a zero accumulator, at `(p, c)`, is the sum over `k` of
    `lhs (p, k) · rhs (k, c)`, for dimension numbers that contract the left operand's second axis with the right
    operand's first.
  All at the exact instance, where every float is an extended real.
-/
import Idealize.ShloMosaic.Lib.ValueIdx
import Idealize.ShloMosaic.Lib.Pipeline.Value
import Idealize.ShloMosaic.PureOps.Ideal.Laws
import proofs.«113719_j69286412419541_2_alg».proof.Proof.LibRowBlockDot

noncomputable section

namespace Idealize.ShloMosaic.ColumnForms

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with coordinate `k` put back on the second axis is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum of an `[a, b]` array over its second axis, read at `p`: the sum over `k` of the array at `(p, k)`. -/
theorem laneSum_apply {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- The same, with the accumulator's side condition spelt through the sum's neutral word. -/
theorem laneSum_apply' {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- A plain matrix product into the zero accumulator, read at `(p, c)`. -/
theorem matmul_zero_apply {a K b : ℕ} {φ₁ φ₂ : FTy}
    (d : DotDims (⟨2, ![a, K]⟩ : Shape) (⟨2, ![K, b]⟩ : Shape) (⟨2, ![a, b]⟩ : Shape)) (hd : RowBlockDot.PlainDot d)
    (prec : Option ContractPrecision) (lhs : FVec Ideal ⟨2, ![a, K]⟩ φ₁) (rhs : FVec Ideal ⟨2, ![K, b]⟩ φ₂) (p : Fin a) (c : Fin b) :
    matmul d prec lhs rhs (constant ⟨2, ![a, b]⟩ .f32 0x00000000#32) (ix2 p c) = ∑ k : Fin K, lhs (ix2 p k) * rhs (ix2 k c) :=
  (Ideal.matmul_constant_zero_apply d prec lhs rhs (ix2 p c)).trans (RowBlockDot.sum_contr_eq d hd lhs rhs (ix2 p c))

end Idealize.ShloMosaic.ColumnForms

end
-- ==== Proof.PayAt.lean ====
/-
  The kernel's pure payloads read at an index, at the exact instance (every float an extended real).

  Each payload is a short chain of layout operations (casts that drop or add a unit axis, a row or a column
  broadcast), pointwise arithmetic, lane reductions and matrix products. Read at one index each becomes the
  textbook expression: a projection is a sum over the contracted axis plus a bias, the scaled score of a block
  is a dot product times the scale, and the three running quantities of the online softmax are the row-level
  updates of the specification.
-/
import proofs.«113719_j69286412419541_2_alg».proof.Proof.Gen.KernelIdeal.Skeleton
import proofs.«113719_j69286412419541_2_alg».proof.Proof.Spec
import proofs.«113719_j69286412419541_2_alg».proof.Proof.LibRowBlockDot
import proofs.«113719_j69286412419541_2_alg».proof.Proof.LibColumnForms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx Cert.Attn

/-- Storing the running maximum back: a cast to the same shape is the identity. -/
theorem pay2_eq (x : FVec Ideal S1024x1 .f32) : k1_pay2 (F := Ideal) x = x := by
  unfold k1_pay2
  exact shapeCast_self _ _

/-- The f32 word of minus infinity is the bottom extended real. -/
theorem ofBits_negInf : Ideal.ofBits .f32 0xFF800000#32 = ⊥ := by simp [Ideal.ofBits, Ideal.ieee]

/-- The running maximum starts at minus infinity. -/
theorem pay5_apply (r : Fin 1024) (u : Fin 1) : k1_pay5 (F := Ideal) (ix2 r u) = ⊥ := by
  unfold k1_pay5
  rw [shapeCast_self]
  exact ofBits_negInf

/-- The running denominator starts at zero. -/
theorem pay6_apply (r : Fin 1024) (u : Fin 1) : k1_pay6 (F := Ideal) (ix2 r u) = 0 := by
  unfold k1_pay6
  rw [shapeCast_self]
  exact Ideal.ofBits_zero_f32

/-- The running numerator starts at zero. -/
theorem pay7_apply (r e : Fin 1024) : k1_pay7 (F := Ideal) (ix2 r e) = 0 := by
  unfold k1_pay7
  rw [shapeCast_self]
  exact Ideal.ofBits_zero_f32

/-! ## The two plain matrix products -/

/-- The `[1024,1024] × [1024,1024]` product contracts the left operand's columns with the right operand's rows. -/
theorem plainSq : RowBlockDot.PlainDot dot_S1024x1024_S1024x1024_S1024x1024_1_0_0_1_n_n where
  hr := rfl
  hs := rfl
  l0 := fun j q => by
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  l1 := fun j q => dot_S1024x1024_S1024x1024_S1024x1024_1_0_0_1_n_n.lhsIdx_val_of_single rfl j q
  r0 := fun j q => dot_S1024x1024_S1024x1024_S1024x1024_1_0_0_1_n_n.rhsIdx_val_of_single rfl j q
  r1 := fun j q => by
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- The `[1024,512] × [512,1024]` product likewise. -/
theorem plainBlk : RowBlockDot.PlainDot dot_S1024x512_S512x1024_S1024x1024_1_0_0_1_n_n where
  hr := rfl
  hs := rfl
  l0 := fun j q => by
    unfold DotDims.lhsIdx
    rw [dif_neg (show ¬(0 : Fin S1024x512.rank) ∈ dot_S1024x512_S512x1024_S1024x1024_1_0_0_1_n_n.lhsBatch by decide),
      dif_pos (show (0 : Fin S1024x512.rank) ∈ dot_S1024x512_S512x1024_S1024x1024_1_0_0_1_n_n.lhsNonContracting by decide)]
    rfl
  l1 := fun j q => dot_S1024x512_S512x1024_S1024x1024_1_0_0_1_n_n.lhsIdx_val_of_single rfl j q
  r0 := fun j q => dot_S1024x512_S512x1024_S1024x1024_1_0_0_1_n_n.rhsIdx_val_of_single rfl j q
  r1 := fun j q => by
    unfold DotDims.rhsIdx
    rw [dif_neg (show ¬(1 : Fin S512x1024.rank) ∈ dot_S1024x512_S512x1024_S1024x1024_1_0_0_1_n_n.rhsBatch by decide),
      dif_pos (show (1 : Fin S512x1024.rank) ∈ dot_S1024x512_S512x1024_S1024x1024_1_0_0_1_n_n.rhsNonContracting by decide)]
    rfl

/-- A linear layer `x · w + b` as the kernels spell it (a product into the zero accumulator, the bias cast to a row
    and broadcast over the rows), read at `(r, e)`. -/
theorem linear_apply {φ₁ φ₂ : FTy} (x : FVec Ideal S1024x1024 φ₁) (w : FVec Ideal S1024x1024 φ₂) (b : FVec Ideal S1024 .f32)
    (r e : Fin 1024) :
    addf (matmul dot_S1024x1024_S1024x1024_S1024x1024_1_0_0_1_n_n none x w (constant (F := Ideal) S1024x1024 .f32 0x00000000#32))
        (broadcastTo S1024x1024 (shapeCast S1x1024 b shapeCasts_S1024_S1x1024) broadcasts_S1x1024_S1024x1024) (ix2 r e)
      = (∑ d : Fin 1024, x (ix2 r d) * w (ix2 d e)) + b (ix1 e) := by
  rw [addf_apply, ColumnForms.matmul_zero_apply _ plainSq, broadcastTo_1b_ab_apply, shapeCast_a_1a_apply]

/-- The key projection's payload: `x · w + b` at `(r, e)`. -/
theorem k0_pay2_apply (x : FVec Ideal S1024x1024 .f32) (w : FVec Ideal S1024x1024 .bf16) (b : FVec Ideal S1024 .f32)
    (r e : Fin 1024) :
    k0_pay2 (F := Ideal) x w b (ix2 r e) = (∑ d : Fin 1024, x (ix2 r d) * w (ix2 d e)) + b (ix1 e) := by
  unfold k0_pay2 k0_pay1
  rw [shapeCast_self, shapeCast_self]
  exact linear_apply x w b r e

/-- The value projection's payload: the same layer over the value weights. -/
theorem k0_pay3_apply (x : FVec Ideal S1024x1024 .f32) (w : FVec Ideal S1024x1024 .bf16) (b : FVec Ideal S1024 .f32)
    (r e : Fin 1024) :
    k0_pay3 (F := Ideal) x w b (ix2 r e) = (∑ d : Fin 1024, x (ix2 r d) * w (ix2 d e)) + b (ix1 e) := by
  unfold k0_pay3 k0_pay1
  rw [shapeCast_self, shapeCast_self]
  exact linear_apply x w b r e

/-! ## The query projection and the output projection -/

/-- The query projection's payload: the block `[1,1024,1024]` of the target read as a matrix, times the weights, plus
    the bias. -/
theorem pay4_apply (x : FVec Ideal S1x1024x1024 .f32) (wq : FVec Ideal S1024x1024 .bf16) (bq : FVec Ideal S1024 .f32)
    (r e : Fin 1024) :
    k1_pay4 (F := Ideal) x wq bq (ix2 r e) = (∑ d : Fin 1024, x (ix3 0 r d) * wq (ix2 d e)) + bq (ix1 e) := by
  unfold k1_pay4
  rw [shapeCast_self, shapeCast_self]
  refine (linear_apply (φ₁ := .bf16) _ wq bq r e).trans ?_
  simp only [truncf_apply, shapeCast_1ab_ab_apply]

/-- The output payload, after the last block: the numerator divided by the denominator, row by row, times the output
    weights, plus the bias; stored as a block `[1,1024,1024]`. -/
theorem pay3_apply (acc : FVec Ideal S1024x1024 .f32) (l : FVec Ideal S1024x1 .f32) (wo : FVec Ideal S1024x1024 .bf16)
    (bo : FVec Ideal S1024 .f32) (u : Fin 1) (r o : Fin 1024) :
    k1_pay3 (F := Ideal) acc l wo bo (ix3 u r o)
      = (∑ e : Fin 1024, Ideal.div (acc (ix2 r e)) (l (ix2 r 0)) * wo (ix2 e o)) + bo (ix1 o) := by
  unfold k1_pay3
  rw [shapeCast_ab_1ab_apply, shapeCast_self]
  refine (linear_apply (φ₁ := .bf16) _ wo bo r o).trans ?_
  simp only [truncf_apply, divf_apply, ColumnForms.broadcastTo_a1_ab_apply]

/-! ## The scaled scores of a block -/

/-- The scaled score of query row `r` against key row `j` of the block: the dot product over the 1024 features, times the
    scale word. -/
def sc (q : FVec Ideal S1024x1024 .bf16) (kb : FVec Ideal S1x512x1024 .bf16) (r : Fin 1024) (j : Fin 512) : EReal :=
  (∑ e : Fin 1024, q (ix2 r e) * kb (ix3 0 j e)) * Ideal.ofBits .f32 scaleWord

/-- In `q · kᵀ` the left operand's row is the output's row … -/
theorem qk_l0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

/-- … and the right operand's row is the output's column. -/
theorem qk_r0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The product `q · kᵀ` contracts the second axis of both operands: at `(r, j)` it is the dot product of row `r` of `q` with
    row `j` of `k`. -/
theorem qk_apply {φ₁ φ₂ : FTy} (q : FVec Ideal S1024x1024 φ₁) (k : FVec Ideal S512x1024 φ₂) (r : Fin 1024) (j : Fin 512) :
    matmul dot_S1024x1024_S512x1024_S1024x512_1_1_0_0_n_n none q k (constant (F := Ideal) S1024x512 .f32 0x00000000#32) (ix2 r j)
      = ∑ e : Fin 1024, q (ix2 r e) * k (ix2 j e) := by
  refine (Ideal.matmul_constant_zero_apply dot_S1024x1024_S512x1024_S1024x512_1_1_0_0_n_n none q k (ix2 r j)).trans ?_
  rw [← Equiv.sum_comp (contrEquiv1 dot_S1024x1024_S512x1024_S1024x512_1_1_0_0_n_n 1024 rfl rfl).symm]
  refine Finset.sum_congr rfl fun e _ => ?_
  have hk := contrEquiv1_symm_val dot_S1024x1024_S512x1024_S1024x512_1_1_0_0_n_n 1024 rfl rfl e
  have el : dot_S1024x1024_S512x1024_S1024x512_1_1_0_0_n_n.lhsIdx (ix2 r j)
      ((contrEquiv1 dot_S1024x1024_S512x1024_S1024x512_1_1_0_0_n_n 1024 rfl rfl).symm e) = ix2 r e :=
    funext fun a => Fin.ext (by
      match a with
      | ⟨0, _⟩ => exact qk_l0 _ _
      | ⟨1, _⟩ => exact (dot_S1024x1024_S512x1024_S1024x512_1_1_0_0_n_n.lhsIdx_val_of_single rfl _ _).trans hk)
  have er : dot_S1024x1024_S512x1024_S1024x512_1_1_0_0_n_n.rhsIdx (ix2 r j)
      ((contrEquiv1 dot_S1024x1024_S512x1024_S1024x512_1_1_0_0_n_n 1024 rfl rfl).symm e) = ix2 j e :=
    funext fun a => Fin.ext (by
      match a with
      | ⟨0, _⟩ => exact qk_r0 _ _
      | ⟨1, _⟩ => exact (dot_S1024x1024_S512x1024_S1024x512_1_1_0_0_n_n.rhsIdx_val_of_single rfl _ _).trans hk)
  rw [el, er]

/-- The block's scaled scores: the payload at `(r, j)` is `sc`. -/
theorem pay9_apply (q : FVec Ideal S1024x1024 .bf16) (kb : FVec Ideal S1x512x1024 .bf16) (r : Fin 1024) (j : Fin 512) :
    k1_pay9 (F := Ideal) q kb (ix2 r j) = sc q kb r j := by
  unfold k1_pay9 sc
  rw [mulf_apply, broadcast_apply, qk_apply]
  simp only [shapeCast_1ab_ab_apply]
  rfl

/-! ## The online-softmax updates of one block -/

/-- The largest entry of row `r` of a `[1024,512]` array, as the fold of `max` from minus infinity. -/
theorem laneMax_apply (v : FVec Ideal S1024x512 .f32) (hφ : FKind.Formats .f32)
    (hacc : (0xFF800000#32 : BitVec 32) = FKind.maximumf.neutral .f32 hφ) (r : Fin 1024) :
    multiReduction .maximumf [1] S1024 v 0xFF800000#32 reduces_S1024x512_S1024 hφ hacc (ix1 r)
      = blockMax fun j : Fin 512 => v (ix2 r j) := by
  refine (Ideal.multiReduction_maximumf_single v 0xFF800000#32 reduces_S1024x512_S1024 hφ hacc (ix1 r)).trans ?_
  have e : (v ∘ reduces_S1024x512_S1024.lift (ix1 r)) = fun k : Fin 512 => v (ix2 r k) :=
    funext fun k => congrArg v (ColumnForms.lift_axis1 reduces_S1024x512_S1024 r k)
  unfold blockMax
  rw [← ofBits_negInf]
  exact congrArg (fun f => (Finset.univ : Finset (Fin 512)).fold max (Ideal.ofBits .f32 0xFF800000#32) f) e

/-- The running maximum after the block: the old one against the block's largest scaled score. -/
theorem pay10_apply (q : FVec Ideal S1024x1024 .bf16) (kb : FVec Ideal S1x512x1024 .bf16) (m : FVec Ideal S1024x1 .f32)
    (r : Fin 1024) (u : Fin 1) :
    k1_pay10 (F := Ideal) q kb m (ix2 r u) = rowMax (m (ix2 r 0)) (sc q kb r) := by
  obtain rfl : u = 0 := Subsingleton.elim _ _
  unfold k1_pay10 rowMax
  rw [maximumf_apply, ColumnForms.shapeCast_a_a1_apply]
  refine congrArg (max (m (ix2 r 0))) ?_
  refine (laneMax_apply _ _ _ r).trans ?_
  exact congrArg blockMax (funext fun j => pay9_apply q kb r j)

/-- The factor that rescales the old running quantities: `exp (m − m')`, `m'` the new maximum. -/
theorem pay11_apply (q : FVec Ideal S1024x1024 .bf16) (kb : FVec Ideal S1x512x1024 .bf16) (m : FVec Ideal S1024x1 .f32)
    (r : Fin 1024) (u : Fin 1) :
    k1_pay11 (F := Ideal) q kb m (ix2 r u)
      = Ideal.exp (m (ix2 r 0) - rowMax (m (ix2 r 0)) (sc q kb r)) := by
  obtain rfl : u = 0 := Subsingleton.elim _ _
  unfold k1_pay11
  show Ideal.exp (subf m (k1_pay10 (F := Ideal) q kb m) (ix2 r 0)) = _
  rw [subf_apply, pay10_apply]

/-- The block's unnormalised weights: `exp (s − m')` at `(r, j)`. -/
theorem pay12_apply (q : FVec Ideal S1024x1024 .bf16) (kb : FVec Ideal S1x512x1024 .bf16) (m : FVec Ideal S1024x1 .f32)
    (r : Fin 1024) (j : Fin 512) :
    k1_pay12 (F := Ideal) q kb m (ix2 r j)
      = Ideal.exp (sc q kb r j - rowMax (m (ix2 r 0)) (sc q kb r)) := by
  unfold k1_pay12
  show Ideal.exp (subf (k1_pay9 (F := Ideal) q kb)
      (broadcastTo S1024x512 (k1_pay10 (F := Ideal) q kb m) broadcasts_S1024x1_S1024x512) (ix2 r j)) = _
  rw [subf_apply, pay9_apply, ColumnForms.broadcastTo_a1_ab_apply, pay10_apply]

/-- The running denominator after the block. -/
theorem pay13_apply (q : FVec Ideal S1024x1024 .bf16) (kb : FVec Ideal S1x512x1024 .bf16) (m l : FVec Ideal S1024x1 .f32)
    (r : Fin 1024) (u : Fin 1) :
    k1_pay13 (F := Ideal) q kb m l (ix2 r u) = rowDen (m (ix2 r 0)) (l (ix2 r 0)) (sc q kb r) := by
  obtain rfl : u = 0 := Subsingleton.elim _ _
  unfold k1_pay13 rowDen
  rw [shapeCast_self, addf_apply, mulf_apply, pay11_apply, ColumnForms.shapeCast_a_a1_apply]
  refine congrArg (Ideal.exp (m (ix2 r 0) - rowMax (m (ix2 r 0)) (sc q kb r)) * l (ix2 r 0) + ·) ?_
  refine (ColumnForms.laneSum_apply' _ _ _ _ r).trans ?_
  exact Finset.sum_congr rfl fun j _ => pay12_apply q kb m r j

/-- The value block `[1,512,1024]` read as a matrix. -/
theorem pay8_apply (vb : FVec Ideal S1x512x1024 .bf16) (j : Fin 512) (e : Fin 1024) :
    k1_pay8 (F := Ideal) vb (ix2 j e) = vb (ix3 0 j e) := by
  unfold k1_pay8
  exact shapeCast_1ab_ab_apply _ _ j e

/-- The old numerator rescaled. -/
theorem pay14_apply (q : FVec Ideal S1024x1024 .bf16) (kb : FVec Ideal S1x512x1024 .bf16) (m : FVec Ideal S1024x1 .f32)
    (acc : FVec Ideal S1024x1024 .f32) (r e : Fin 1024) :
    k1_pay14 (F := Ideal) q kb m acc (ix2 r e)
      = Ideal.exp (m (ix2 r 0) - rowMax (m (ix2 r 0)) (sc q kb r)) * acc (ix2 r e) := by
  unfold k1_pay14
  rw [mulf_apply, ColumnForms.broadcastTo_a1_ab_apply, pay11_apply]

/-- The weights as the second product's left operand: a change of format, the identity on extended reals. -/
theorem pay15_apply (q : FVec Ideal S1024x1024 .bf16) (kb : FVec Ideal S1x512x1024 .bf16) (m : FVec Ideal S1024x1 .f32)
    (r : Fin 1024) (j : Fin 512) :
    k1_pay15 (F := Ideal) q kb m (ix2 r j)
      = Ideal.exp (sc q kb r j - rowMax (m (ix2 r 0)) (sc q kb r)) := by
  unfold k1_pay15
  rw [truncf_apply, pay12_apply]

/-- The running numerator after the block, one output column `e`: the old one rescaled plus the block's weights times
    the block's values. -/
theorem acc_apply (q : FVec Ideal S1024x1024 .bf16) (kb vb : FVec Ideal S1x512x1024 .bf16) (m : FVec Ideal S1024x1 .f32)
    (acc : FVec Ideal S1024x1024 .f32) (r e : Fin 1024) :
    k1_pay1 (F := Ideal) (k1_pay8 vb) (k1_pay14 q kb m acc) (k1_pay15 q kb m)
        (constant (F := Ideal) S1024x1024 .f32 0x00000000#32) (ix2 r e)
      = rowNum (m (ix2 r 0)) (acc (ix2 r e)) (sc q kb r) (fun j => vb (ix3 0 j e)) := by
  unfold k1_pay1 rowNum
  rw [shapeCast_self, addf_apply, ColumnForms.matmul_zero_apply _ plainBlk, pay14_apply]
  refine congrArg (Ideal.exp (m (ix2 r 0) - rowMax (m (ix2 r 0)) (sc q kb r)) * acc (ix2 r e) + ·) ?_
  exact Finset.sum_congr rfl fun j _ => by rw [pay15_apply, pay8_apply]

end Cert.KernelIdeal.PayAt

end
-- ==== Proof.Blocks0.lean ====
/-
  From blocks to the arrays, for the first kernel region (the fused key/value projection), every float an
  extended real.

  The region's grid has 16 points. At point t the body sees rows 1024·t … 1024·t + 1023 of the flattened source
  (all 1024 columns), the two weight matrices and the two bias vectors whole, and writes rows
  1024·t … 1024·t + 1023 of the key array and of the value array. What it writes at block index (p, q) is the
  linear layer Σ_d x(p, d)·w(d, q) + b(q) of the blocks it was handed, that is, entry (1024·t + p, q) of the
  linear layer of the whole source. The 16 row blocks tile the 16384 rows (row r lies in block r / 1024), so after
  the region each output array is that linear layer of the arrays the region was entered with, index by index.
-/
import proofs.«113719_j69286412419541_2_alg».proof.Proof.Frame0
import proofs.«113719_j69286412419541_2_alg».proof.Proof.PayAt
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

/-- A linear layer over the flattened source: row `i 0` of `X` against column `i 1` of `W`, plus the bias at `i 1`. -/
def keyProj (X : S16384x1024.Idx → EReal) (W : S1024x1024.Idx → EReal) (b : S1024.Idx → EReal) : S16384x1024.Idx → EReal :=
  fun i => (∑ d : Fin 1024, X (ix2 (i 0) d) * W (ix2 d (i 1))) + b (ix1 (i 1))

/-- The layer at row `r`, column `e`. -/
theorem keyProj_apply (X : S16384x1024.Idx → EReal) (W : S1024x1024.Idx → EReal) (b : S1024.Idx → EReal)
    (r : Fin 16384) (e : Fin 1024) :
    keyProj X W b (ix2 r e) = (∑ d : Fin 1024, X (ix2 r d) * W (ix2 d e)) + b (ix1 e) := rfl

variable (V : (c : Dev nD) → (b : Ref sig .tc) → Buf (Elt Ideal) ((c : Thread nD τ).loc b))

/-- The zero offsets of a rank-2 buffer, however they are spelt. -/
theorem zeroOff2 : (![0, 0] : Fin 2 → Nat) = fun _ => 0 := funext fun a => by fin_cases a <;> rfl
/-- The zero offset of a rank-1 buffer. -/
theorem zeroOff1 : (![0] : Fin 1 → Nat) = fun _ => 0 := funext fun a => by fin_cases a <;> rfl

/-- The block indices over the grid: the source and the two outputs are at row block `t`, column block 0, at point
    `t`; the weights and the biases are at block 0 at every point. -/
theorem blockIndex0 : ∀ t : Fin cfg0.N, win0_0.index t (0 : Fin 2) = t.val ∧ win0_0.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_2.index t (0 : Fin 1) = 0 ∧ win0_4.index t (0 : Fin 1) = 0 :=
  (by decide +kernel : ∀ t : Fin grid0.N, _)

/-! ## The payloads of blocks that are rows of one source -/

/-- The key payload at block index `j`, of a source block whose row `j 0` is row `i 0` of `X`, is the layer of `X`
    at `i` when `i` and `j` have the same column. -/
theorem keyPayload_at (x : FVec Ideal S1024x1024 .f32) (w : FVec Ideal S1024x1024 .bf16) (b : FVec Ideal S1024 .f32)
    (X : S16384x1024.Idx → EReal) (j : S1024x1024.Idx) (i : S16384x1024.Idx)
    (hx : ∀ d : Fin 1024, x (ix2 (j 0) d) = X (ix2 (i 0) d)) (he : (i 1).val = (j 1).val) :
    k0_pay2 (F := Ideal) x w b j = keyProj X w b i := by
  obtain ⟨p, q, rfl⟩ : ∃ (p q : Fin 1024), j = ix2 p q := ⟨j 0, j 1, eq_ix2 j⟩
  rw [PayAt.k0_pay2_apply]
  have hq : ∀ d : Fin 1024, (ix2 d q : S1024x1024.Idx) = ix2 d (i 1) := fun d => funext fun a => by
    match a with
    | ⟨0, _⟩ => rfl
    | ⟨1, _⟩ => exact Fin.ext he.symm
  have hb : (ix1 q : S1024.Idx) = ix1 (i 1) := funext fun a => by
    match a with
    | ⟨0, _⟩ => exact Fin.ext he.symm
  exact congrArg₂ (· + ·) (Finset.sum_congr rfl fun d _ => congrArg₂ (· * ·) (hx d) (congrArg w (hq d))) (congrArg b hb)

/-- The value payload likewise. -/
theorem valuePayload_at (x : FVec Ideal S1024x1024 .f32) (w : FVec Ideal S1024x1024 .bf16) (b : FVec Ideal S1024 .f32)
    (X : S16384x1024.Idx → EReal) (j : S1024x1024.Idx) (i : S16384x1024.Idx)
    (hx : ∀ d : Fin 1024, x (ix2 (j 0) d) = X (ix2 (i 0) d)) (he : (i 1).val = (j 1).val) :
    k0_pay3 (F := Ideal) x w b j = keyProj X w b i := by
  obtain ⟨p, q, rfl⟩ : ∃ (p q : Fin 1024), j = ix2 p q := ⟨j 0, j 1, eq_ix2 j⟩
  rw [PayAt.k0_pay3_apply]
  have hq : ∀ d : Fin 1024, (ix2 d q : S1024x1024.Idx) = ix2 d (i 1) := fun d => funext fun a => by
    match a with
    | ⟨0, _⟩ => rfl
    | ⟨1, _⟩ => exact Fin.ext he.symm
  have hb : (ix1 q : S1024.Idx) = ix1 (i 1) := funext fun a => by
    match a with
    | ⟨0, _⟩ => exact Fin.ext he.symm
  exact congrArg₂ (· + ·) (Finset.sum_congr rfl fun d _ => congrArg₂ (· * ·) (hx d) (congrArg w (hq d))) (congrArg b hb)

/-! ## The input blocks, read off their arrays -/

/-- The key weights' block is the whole matrix at every point. -/
theorem iblk0_1_whole (c : Dev nD) (t : Fin cfg0.N) : (iblk0 V c 1 t : S1024x1024.Idx → EReal) = V c main_v3 := by
  obtain ⟨-, -, -, -, -, -, e0, e1, -⟩ := blockIndex0 t
  funext z
  show V c main_v3 (((cfg0.win 1).blk t).view.emb z) = V c main_v3 z
  refine congrArg _ (funext fun a => Fin.ext ?_)
  match a with
  | ⟨0, _⟩ => show win0_1.index t (0 : Fin 2) * 1024 + 1 * (z 0).val = (z 0).val; omega
  | ⟨1, _⟩ => show win0_1.index t (1 : Fin 2) * 1024 + 1 * (z 1).val = (z 1).val; omega

/-- The key bias' block is the whole vector. -/
theorem iblk0_2_whole (c : Dev nD) (t : Fin cfg0.N) : (iblk0 V c 2 t : S1024.Idx → EReal) = V c main_arg5 := by
  obtain ⟨-, -, -, -, -, -, -, -, -, -, e0, -⟩ := blockIndex0 t
  funext z
  show V c main_arg5 (((cfg0.win 2).blk t).view.emb z) = V c main_arg5 z
  refine congrArg _ (funext fun a => Fin.ext ?_)
  match a with
  | ⟨0, _⟩ => show win0_2.index t (0 : Fin 1) * 1024 + 1 * (z 0).val = (z 0).val; omega

/-- The value weights' block is the whole matrix. -/
theorem iblk0_3_whole (c : Dev nD) (t : Fin cfg0.N) : (iblk0 V c 3 t : S1024x1024.Idx → EReal) = V c main_v5 := by
  obtain ⟨-, -, -, -, -, -, -, -, e0, e1, -⟩ := blockIndex0 t
  funext z
  show V c main_v5 (((cfg0.win 3).blk t).view.emb z) = V c main_v5 z
  refine congrArg _ (funext fun a => Fin.ext ?_)
  match a with
  | ⟨0, _⟩ => show win0_3.index t (0 : Fin 2) * 1024 + 1 * (z 0).val = (z 0).val; omega
  | ⟨1, _⟩ => show win0_3.index t (1 : Fin 2) * 1024 + 1 * (z 1).val = (z 1).val; omega

/-- The value bias' block is the whole vector. -/
theorem iblk0_4_whole (c : Dev nD) (t : Fin cfg0.N) : (iblk0 V c 4 t : S1024.Idx → EReal) = V c main_arg7 := by
  obtain ⟨-, -, -, -, -, -, -, -, -, -, -, e0⟩ := blockIndex0 t
  funext z
  show V c main_arg7 (((cfg0.win 4).blk t).view.emb z) = V c main_arg7 z
  refine congrArg _ (funext fun a => Fin.ext ?_)
  match a with
  | ⟨0, _⟩ => show win0_4.index t (0 : Fin 1) * 1024 + 1 * (z 0).val = (z 0).val; omega

/-- The source's block at point `t` is rows `1024·t … 1024·t + 1023` of the flattened source. -/
theorem iblk0_0_rows (c : Dev nD) (t : Fin cfg0.N) (z : S1024x1024.Idx) (i : S16384x1024.Idx)
    (h0 : (i 0).val = t.val * 1024 + (z 0).val) (h1 : (i 1).val = (z 1).val) :
    (iblk0 V c 0 t : S1024x1024.Idx → EReal) z = V c main_v8 i := by
  obtain ⟨e0, e1, -⟩ := blockIndex0 t
  show V c main_v8 (((cfg0.win 0).blk t).view.emb z) = V c main_v8 i
  refine congrArg _ (funext fun a => Fin.ext ?_)
  match a with
  | ⟨0, _⟩ => show win0_0.index t (0 : Fin 2) * 1024 + 1 * (z 0).val = (i 0).val; omega
  | ⟨1, _⟩ => show win0_0.index t (1 : Fin 2) * 1024 + 1 * (z 1).val = (i 1).val; omega

/-! ## What each point writes back -/

/-- Point `t` writes back block `t` of the key layer of the arrays the region was entered with. -/
theorem flushed0_5_eq (c : Dev nD) (t : Fin cfg0.N) :
    (dat0 (F := Ideal) V c).flushed 5 t
      = ((cfg0.win 5).blk t).view.read (Elt Ideal) (keyProj (V c main_v8) (V c main_v3) (V c main_arg5)) := by
  show (cfg0.win 5).cut (grid0.coords t) ((dat0 (F := Ideal) V c).after 5 t) = _
  rw [after0_5]
  unfold out0_5
  rw [View.canon_unit_zero zeroOff2]
  simp only [View.ld_unit_zero (S := S1024x1024) zeroOff2, View.ld_unit_zero (S := S1024) zeroOff1]
  obtain ⟨-, -, e0, e1, -⟩ := blockIndex0 t
  funext y
  show k0_pay2 (F := Ideal) (iblk0 V c 0 t) (iblk0 V c 1 t) (iblk0 V c 2 t) (win0_5.xinj (grid0.coords t) y)
    = keyProj (V c main_v8) (V c main_v3) (V c main_arg5) (((cfg0.win 5).blk t).view.emb y)
  rw [iblk0_1_whole, iblk0_2_whole]
  refine keyPayload_at _ _ _ _ _ _ (fun d => iblk0_0_rows V c t _ _ ?_ rfl) ?_
  · show win0_5.index t (0 : Fin 2) * 1024 + 1 * (y 0).val = t.val * 1024 + (y 0).val; omega
  · show win0_5.index t (1 : Fin 2) * 1024 + 1 * (y 1).val = (y 1).val; omega

/-- Point `t` writes back block `t` of the value layer. -/
theorem flushed0_6_eq (c : Dev nD) (t : Fin cfg0.N) :
    (dat0 (F := Ideal) V c).flushed 6 t
      = ((cfg0.win 6).blk t).view.read (Elt Ideal) (keyProj (V c main_v8) (V c main_v5) (V c main_arg7)) := by
  show (cfg0.win 6).cut (grid0.coords t) ((dat0 (F := Ideal) V c).after 6 t) = _
  rw [after0_6]
  unfold out0_6
  rw [View.canon_unit_zero zeroOff2]
  simp only [View.ld_unit_zero (S := S1024x1024) zeroOff2, View.ld_unit_zero (S := S1024) zeroOff1]
  obtain ⟨-, -, -, -, e0, e1, -⟩ := blockIndex0 t
  funext y
  show k0_pay3 (F := Ideal) (iblk0 V c 0 t) (iblk0 V c 3 t) (iblk0 V c 4 t) (win0_6.xinj (grid0.coords t) y)
    = keyProj (V c main_v8) (V c main_v5) (V c main_arg7) (((cfg0.win 6).blk t).view.emb y)
  rw [iblk0_3_whole, iblk0_4_whole]
  refine valuePayload_at _ _ _ _ _ _ (fun d => iblk0_0_rows V c t _ _ ?_ rfl) ?_
  · show win0_6.index t (0 : Fin 2) * 1024 + 1 * (y 0).val = t.val * 1024 + (y 0).val; omega
  · show win0_6.index t (1 : Fin 2) * 1024 + 1 * (y 1).val = (y 1).val; omega

/-! ## The blocks tile the arrays -/

/-- An index of the key array is in point `t`'s block iff each coordinate is in the block's range on its axis. -/
theorem mem_blk0_5 (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v9_0).slice (win0_5.rect t)).set ↔ _
  rw [View.set_slice_whole, Rect.mem_set_unit]
  exact Iff.rfl

/-- The same for the value array. -/
theorem mem_blk0_6 (t : Fin cfg0.N) (i : S16384x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v9_1).slice (win0_6.rect t)).set ↔ _
  rw [View.set_slice_whole, Rect.mem_set_unit]
  exact Iff.rfl

/-- Row `r` of the key array lies in the block of point `r / 1024`, which writes back. -/
theorem cover0_5 (i : S16384x1024.Idx) :
    ∃ t : Fin cfg0.N, (cfg0.win 5).flush t = true ∧ i ∈ ((cfg0.win 5).blk t).view.set := by
  have hN : grid0.N = 16 := N_0
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; omega⟩, rfl⟩
  obtain ⟨-, -, e0, e1, -⟩ := blockIndex0 t
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The same for the value array. -/
theorem cover0_6 (i : S16384x1024.Idx) :
    ∃ t : Fin cfg0.N, (cfg0.win 6).flush t = true ∧ i ∈ ((cfg0.win 6).blk t).view.set := by
  have hN : grid0.N = 16 := N_0
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; omega⟩, rfl⟩
  obtain ⟨-, -, -, -, e0, e1, -⟩ := blockIndex0 t
  refine ⟨t, flush0_6 t, ?_⟩
  rw [mem_blk0_6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-! ## The arrays after the region -/

/-- After the region the key array is the key layer of the source, the key weights and the key bias as the region
    found them. -/
theorem final0_5 (c : Dev nD) :
    (dat0 (F := Ideal) V c).arrAt 5 cfg0.N = keyProj (V c main_v8) (V c main_v3) (V c main_arg5) :=
  (dat0 (F := Ideal) V c).arrAt_eq_of_cover 5 (keyProj (V c main_v8) (V c main_v3) (V c main_arg5))
    (fun t _ => flushed0_5_eq V c t) cover0_5

/-- After the region the value array is the same layer over the value weights and the value bias. -/
theorem final0_6 (c : Dev nD) :
    (dat0 (F := Ideal) V c).arrAt 6 cfg0.N = keyProj (V c main_v8) (V c main_v5) (V c main_arg7) :=
  (dat0 (F := Ideal) V c).arrAt_eq_of_cover 6 (keyProj (V c main_v8) (V c main_v5) (V c main_arg7))
    (fun t _ => flushed0_6_eq V c t) cover0_6

end Cert.KernelIdeal.Fr

end
-- ==== Proof.HostReads.lean ====
/-
  What the program's two stretches of host operations leave in the buffers, read at an index.

  The first stretch transposes each of the four weight matrices and converts it to bf16 — at the extended reals
  the conversion is the identity, so the result at (d, e) is the weight at (e, d) — and flattens the
  [8, 2048, 1024] array to [16384, 1024] in row-major order: row 2048·n + s of the result is row (n, s) of the
  operand. The second stretch cuts two [16384, 1024] arrays back into [8, 2048, 1024], the same correspondence
  read the other way. A buffer a stretch does not write keeps its contents. Everything is stated for an
  arbitrary valuation of the buffers before the stretch.
-/
import proofs.«113719_j69286412419541_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostReads

open Idealize.ShloMosaic Idealize.ShloMosaic.TcCoe Idealize.ShloMosaic.ValueIdx
open Cert.KernelIdeal Cert.KernelIdeal.Gen

/-! ## The two reshapes read at an index -/

/-- An `[8, 2048, 1024]` array flattened to `[16384, 1024]` reads, at row `2048·n + s`, the operand at `(n, s)`. -/
theorem flatten_apply {α : Type} (x : S8x2048x1024.Idx → α) (n : Fin 8) (s : Fin 2048) (d : Fin 1024) :
    shapeCast S16384x1024 x shapeCasts_S8x2048x1024_S16384x1024
        (ix2 (⟨2048 * n.val + s.val, by omega⟩ : Fin 16384) d) = x (ix3 n s d) :=
  shapeCast_apply x _ _ _ (by
    rw [Shape.rowMajor_val_three, Shape.rowMajor_val_two]
    show (n.val * 2048 + s.val) * 1024 + d.val = (2048 * n.val + s.val) * 1024 + d.val
    omega)

/-- A `[16384, 1024]` array cut into `[8, 2048, 1024]` reads, at `(n, s)`, the operand at row `2048·n + s`. -/
theorem unflatten_apply {α : Type} (x : S16384x1024.Idx → α) (n : Fin 8) (s : Fin 2048) (e : Fin 1024) :
    shapeCast S8x2048x1024 x shapeCasts_S16384x1024_S8x2048x1024 (ix3 n s e)
      = x (ix2 (⟨2048 * n.val + s.val, by omega⟩ : Fin 16384) e) :=
  shapeCast_apply x _ _ _ (by
    rw [Shape.rowMajor_val_three, Shape.rowMajor_val_two]
    show (2048 * n.val + s.val) * 1024 + e.val = (n.val * 2048 + s.val) * 1024 + e.val
    omega)

variable (W : Valuation τ sig (Elt Ideal))

/-! ## After the first stretch: the transposed weights -/

theorem after0_v1 (d e : Fin 1024) :
    (StableHlo.after (hostOps0 (F := Ideal)) W (Proc.devRef .tc main_v1) : S1024x1024.Idx → EReal) (ix2 d e)
      = (W (Proc.devRef .tc main_arg2) : S1024x1024.Idx → EReal) (ix2 e d) := by
  dsimp only [hostOps0]
  after_results
  exact (truncf_apply (φ := .f32) (ψ := .bf16) _ bitsLt_bf16_f32 _).trans
    (transpose_ix2_apply (α := EReal) _ transposes_S1024x1024_S1024x1024_1_0 d e)

theorem after0_v3 (d e : Fin 1024) :
    (StableHlo.after (hostOps0 (F := Ideal)) W (Proc.devRef .tc main_v3) : S1024x1024.Idx → EReal) (ix2 d e)
      = (W (Proc.devRef .tc main_arg4) : S1024x1024.Idx → EReal) (ix2 e d) := by
  dsimp only [hostOps0]
  after_results
  exact (truncf_apply (φ := .f32) (ψ := .bf16) _ bitsLt_bf16_f32 _).trans
    (transpose_ix2_apply (α := EReal) _ transposes_S1024x1024_S1024x1024_1_0 d e)

theorem after0_v5 (d e : Fin 1024) :
    (StableHlo.after (hostOps0 (F := Ideal)) W (Proc.devRef .tc main_v5) : S1024x1024.Idx → EReal) (ix2 d e)
      = (W (Proc.devRef .tc main_arg6) : S1024x1024.Idx → EReal) (ix2 e d) := by
  dsimp only [hostOps0]
  after_results
  exact (truncf_apply (φ := .f32) (ψ := .bf16) _ bitsLt_bf16_f32 _).trans
    (transpose_ix2_apply (α := EReal) _ transposes_S1024x1024_S1024x1024_1_0 d e)

theorem after0_v7 (d e : Fin 1024) :
    (StableHlo.after (hostOps0 (F := Ideal)) W (Proc.devRef .tc main_v7) : S1024x1024.Idx → EReal) (ix2 d e)
      = (W (Proc.devRef .tc main_arg8) : S1024x1024.Idx → EReal) (ix2 e d) := by
  dsimp only [hostOps0]
  after_results
  exact (truncf_apply (φ := .f32) (ψ := .bf16) _ bitsLt_bf16_f32 _).trans
    (transpose_ix2_apply (α := EReal) _ transposes_S1024x1024_S1024x1024_1_0 d e)

/-! ## After the first stretch: the flattened array -/

theorem after0_v8 (n : Fin 8) (s : Fin 2048) (d : Fin 1024) :
    (StableHlo.after (hostOps0 (F := Ideal)) W (Proc.devRef .tc main_v8) : S16384x1024.Idx → EReal)
        (ix2 (⟨2048 * n.val + s.val, by omega⟩ : Fin 16384) d)
      = (W (Proc.devRef .tc main_arg1) : S8x2048x1024.Idx → EReal) (ix3 n s d) := by
  dsimp only [hostOps0]
  after_results
  exact flatten_apply (α := EReal) (W (Proc.devRef .tc main_arg1)) n s d

/-- The flattened array at a row `i`: the operand at `(i / 2048, i % 2048)`. -/
theorem after0_v8_row (i : Fin 16384) (d : Fin 1024) :
    (StableHlo.after (hostOps0 (F := Ideal)) W (Proc.devRef .tc main_v8) : S16384x1024.Idx → EReal) (ix2 i d)
      = (W (Proc.devRef .tc main_arg1) : S8x2048x1024.Idx → EReal)
          (ix3 (⟨i.val / 2048, by have := i.isLt; omega⟩ : Fin 8) (⟨i.val % 2048, by omega⟩ : Fin 2048) d) := by
  have h1 : i.val / 2048 < 8 := by have := i.isLt; omega
  have h2 : i.val % 2048 < 2048 := by omega
  have hi : i = (⟨2048 * (⟨i.val / 2048, h1⟩ : Fin 8).val + (⟨i.val % 2048, h2⟩ : Fin 2048).val,
      by show 2048 * (i.val / 2048) + i.val % 2048 < 16384; omega⟩ : Fin 16384) :=
    Fin.ext (by show i.val = 2048 * (i.val / 2048) + i.val % 2048; omega)
  refine Eq.trans ?_ (after0_v8 W ⟨i.val / 2048, h1⟩ ⟨i.val % 2048, h2⟩ d)
  exact congrArg (fun j : Fin 16384 =>
    (StableHlo.after (hostOps0 (F := Ideal)) W (Proc.devRef .tc main_v8) : S16384x1024.Idx → EReal) (ix2 j d)) hi

/-! ## After the second stretch: the two arrays cut back into batches -/

theorem after1_v10 (n : Fin 8) (s : Fin 2048) (e : Fin 1024) :
    (StableHlo.after (hostOps1 (F := Ideal)) W (Proc.devRef .tc main_v10) : S8x2048x1024.Idx → EReal) (ix3 n s e)
      = (W (Proc.devRef .tc main_v9_0) : S16384x1024.Idx → EReal)
          (ix2 (⟨2048 * n.val + s.val, by omega⟩ : Fin 16384) e) := by
  dsimp only [hostOps1]
  after_results
  exact unflatten_apply (α := EReal) (W (Proc.devRef .tc main_v9_0)) n s e

theorem after1_v11 (n : Fin 8) (s : Fin 2048) (e : Fin 1024) :
    (StableHlo.after (hostOps1 (F := Ideal)) W (Proc.devRef .tc main_v11) : S8x2048x1024.Idx → EReal) (ix3 n s e)
      = (W (Proc.devRef .tc main_v9_1) : S16384x1024.Idx → EReal)
          (ix2 (⟨2048 * n.val + s.val, by omega⟩ : Fin 16384) e) := by
  dsimp only [hostOps1]
  after_results
  exact unflatten_apply (α := EReal) (W (Proc.devRef .tc main_v9_1)) n s e

/-! ## What a stretch does not write -/

theorem after0_keep (r : Ref sig .tc) (h : r ∉ hostOps0_W) :
    StableHlo.after (hostOps0 (F := Ideal)) W (Proc.devRef .tc r) = W (Proc.devRef .tc r) :=
  StableHlo.after_of_writes_sub hostOps0 W hostOps0_writes h

theorem after1_keep (r : Ref sig .tc) (h : r ∉ hostOps1_W) :
    StableHlo.after (hostOps1 (F := Ideal)) W (Proc.devRef .tc r) = W (Proc.devRef .tc r) :=
  StableHlo.after_of_writes_sub hostOps1 W hostOps1_writes h

end Cert.KernelIdeal.HostReads

end
-- ==== Proof.Folds.lean ====
/-
  What the attention region finds in its windows' arrays, read back to the launch memory.

  The query, key, value and output weights reach it transposed (the conversion to the narrower format being
  the identity on extended reals); the target, and the query and output biases, untouched; and the keys and
  values as the first region left them, regrouped by batch entry: row s of batch entry n of the keys is the
  projection of the source row (n, s) by Wk and bk, and likewise the values by Wv and bv.
-/
import proofs.«113719_j69286412419541_2_alg».proof.Proof.Run
import proofs.«113719_j69286412419541_2_alg».proof.Proof.Blocks0
import proofs.«113719_j69286412419541_2_alg».proof.Proof.HostReads
import proofs.«113719_j69286412419541_2_alg».proof.Proof.Spec

noncomputable section

namespace Cert.KernelIdeal.Fr

open Cert.KernelIdeal Cert.KernelIdeal.Gen Cert.KernelIdeal.HostReads
open Idealize.ShloMosaic Idealize.ShloMosaic.TcCoe Idealize.ShloMosaic.ValueIdx
open Idealize.SL Idealize.SL.Sem
open Cert.Attn

variable (m : (ℓ : Loc nD τ sig) → Buf (Elt Ideal) ℓ) (ρ : Dev nD → PrngReg)

/-- A buffer that neither stretch of host operations writes and that is no array of the first region reaches the
    second region as launched. -/
theorem V3_keep (c : Dev nD) (r : Ref sig .tc) (h1 : r ∉ hostOps1_W) (h0 : r ∉ hostOps0_W) (hw : ∀ w, Pipeline.arrRef spec0 w ≠ r) :
    V3 m ρ c r = m ((c : Thread nD τ).loc r) :=
  calc W3 m ρ c (Proc.devRef .tc r)
    _ = W2 m ρ c (Proc.devRef .tc r) := after1_keep _ r h1
    _ = W1 m ρ c (Proc.devRef .tc r) := W2_of_ne m ρ c r hw
    _ = W0 m ρ c (Proc.devRef .tc r) := after0_keep _ r h0
    _ = m ((c : Thread nD τ).loc r) := rfl

theorem V3_arg0 (c : Dev nD) : V3 m ρ c main_arg0 = m ((c : Thread nD τ).loc main_arg0) := V3_keep m ρ c main_arg0 (by decide) (by decide) (by decide)
theorem V3_arg3 (c : Dev nD) : V3 m ρ c main_arg3 = m ((c : Thread nD τ).loc main_arg3) := V3_keep m ρ c main_arg3 (by decide) (by decide) (by decide)
theorem V3_arg9 (c : Dev nD) : V3 m ρ c main_arg9 = m ((c : Thread nD τ).loc main_arg9) := V3_keep m ρ c main_arg9 (by decide) (by decide) (by decide)

/-- A transposed weight, as the second region finds it. -/
theorem V3_v1 (c : Dev nD) (d e : Fin 1024) :
    (V3 m ρ c main_v1 : S1024x1024.Idx → EReal) (ix2 d e) = (m ((c : Thread nD τ).loc main_arg2) : S1024x1024.Idx → EReal) (ix2 e d) := by
  have h : V3 m ρ c main_v1 = W1 m ρ c (Proc.devRef .tc main_v1) :=
    (after1_keep _ main_v1 (by decide)).trans (W2_of_ne m ρ c main_v1 (by decide))
  rw [h]; exact after0_v1 (W0 m ρ c) d e

theorem V3_v7 (c : Dev nD) (e o : Fin 1024) :
    (V3 m ρ c main_v7 : S1024x1024.Idx → EReal) (ix2 e o) = (m ((c : Thread nD τ).loc main_arg8) : S1024x1024.Idx → EReal) (ix2 o e) := by
  have h : V3 m ρ c main_v7 = W1 m ρ c (Proc.devRef .tc main_v7) :=
    (after1_keep _ main_v7 (by decide)).trans (W2_of_ne m ρ c main_v7 (by decide))
  rw [h]; exact after0_v7 (W0 m ρ c) e o

/-- The flattened source row 2048·n + s is the source row (n, s). -/
theorem V1_v8 (c : Dev nD) (n : Fin 8) (s : Fin 2048) (d : Fin 1024) :
    (V1 m ρ c main_v8 : S16384x1024.Idx → EReal) (ix2 (⟨2048 * n.val + s.val, by omega⟩ : Fin 16384) d)
      = (m ((c : Thread nD τ).loc main_arg1) : S8x2048x1024.Idx → EReal) (ix3 n s d) :=
  after0_v8 (W0 m ρ c) n s d

/-- The keys, as the second region finds them: the projection of the source by Wk, bk. -/
theorem V3_v10 (c : Dev nD) (n : Fin 8) (s : Fin 2048) (e : Fin 1024) :
    (V3 m ρ c main_v10 : S8x2048x1024.Idx → EReal) (ix3 n s e)
      = proj (fun n s d => (m ((c : Thread nD τ).loc main_arg1) : S8x2048x1024.Idx → EReal) (ix3 n s d))
          (fun e d => (m ((c : Thread nD τ).loc main_arg4) : S1024x1024.Idx → EReal) (ix2 e d))
          (fun e => (m ((c : Thread nD τ).loc main_arg5) : S1024.Idx → EReal) (ix1 e)) n s e := by
  refine (after1_v10 (W2 m ρ c) n s e).trans ?_
  rw [show W2 m ρ c (Proc.devRef .tc main_v9_0) = (dat0 (F := Ideal) (V1 m ρ) c).arrAt 5 cfg0.N from W2_arr m ρ c 5, final0_5 (V1 m ρ) c, keyProj_apply]
  unfold proj
  refine congrArg₂ (· + ·) (Finset.sum_congr rfl fun d _ => congrArg₂ (· * ·) (V1_v8 m ρ c n s d) (after0_v3 (W0 m ρ c) d e)) ?_
  exact congrFun (after0_keep (W0 m ρ c) main_arg5 (by decide)) (ix1 e)

/-- The values, likewise by Wv, bv. -/
theorem V3_v11 (c : Dev nD) (n : Fin 8) (s : Fin 2048) (e : Fin 1024) :
    (V3 m ρ c main_v11 : S8x2048x1024.Idx → EReal) (ix3 n s e)
      = proj (fun n s d => (m ((c : Thread nD τ).loc main_arg1) : S8x2048x1024.Idx → EReal) (ix3 n s d))
          (fun e d => (m ((c : Thread nD τ).loc main_arg6) : S1024x1024.Idx → EReal) (ix2 e d))
          (fun e => (m ((c : Thread nD τ).loc main_arg7) : S1024.Idx → EReal) (ix1 e)) n s e := by
  refine (after1_v11 (W2 m ρ c) n s e).trans ?_
  rw [show W2 m ρ c (Proc.devRef .tc main_v9_1) = (dat0 (F := Ideal) (V1 m ρ) c).arrAt 6 cfg0.N from W2_arr m ρ c 6, final0_6 (V1 m ρ) c, keyProj_apply]
  unfold proj
  refine congrArg₂ (· + ·) (Finset.sum_congr rfl fun d _ => congrArg₂ (· * ·) (V1_v8 m ρ c n s d) (after0_v5 (W0 m ρ c) d e)) ?_
  exact congrFun (after0_keep (W0 m ρ c) main_arg7 (by decide)) (ix1 e)

end Cert.KernelIdeal.Fr

end
-- ==== Proof.Blocks1.lean ====
/-
  From blocks to the arrays, for the second kernel region (attention between the query projection and the
  output projection), every float an extended real.

  The region's grid is 8 × 2 × 4: batch entry n, half q of the 2048 query rows, key tile k, the key tile
  innermost, so grid position t has n = t / 8, q = (t / 4) mod 2, k = t mod 4. At position t the body sees query
  rows 1024·q … 1024·q + 1023 of batch entry n of the target, key rows 512·k … 512·k + 511 of batch entry n of
  the keys and of the values, and the weights and biases whole. It stores its output block — query rows
  1024·q … 1024·q + 1023 of batch entry n of the result — at the last key tile only, and only there is the block
  written back. The 16 blocks of the last key tiles tile the result array (entry (n, r, ·) lies in the block of
  position 4·(2n + r / 1024) + 3), so after the region every entry of the result is the one its last key tile stored.
-/
import proofs.«113719_j69286412419541_2_alg».proof.Proof.Frame1
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- A grid position is below 64. -/
theorem pos_lt64 (t : Fin cfg1.N) : t.val < 64 := lt_of_lt_of_eq t.isLt N_1

/-- The block indices over the grid, position `t` being batch entry `t / 8`, query half `(t / 4) mod 2`, key tile
    `t mod 4`: the target and the result are at (entry, half, 0), the keys and the values at (entry, tile, 0), the
    weights and the biases at block 0 at every position. -/
theorem blockIndex1 : ∀ t : Fin cfg1.N,
    (win1_0.index t (0 : Fin 3) = t.val / 8 ∧ win1_0.index t (1 : Fin 3) = (t.val / 4) % 2 ∧ win1_0.index t (2 : Fin 3) = 0)
    ∧ (win1_1.index t (0 : Fin 3) = t.val / 8 ∧ win1_1.index t (1 : Fin 3) = t.val % 4 ∧ win1_1.index t (2 : Fin 3) = 0)
    ∧ (win1_2.index t (0 : Fin 3) = t.val / 8 ∧ win1_2.index t (1 : Fin 3) = t.val % 4 ∧ win1_2.index t (2 : Fin 3) = 0)
    ∧ (win1_7.index t (0 : Fin 3) = t.val / 8 ∧ win1_7.index t (1 : Fin 3) = (t.val / 4) % 2 ∧ win1_7.index t (2 : Fin 3) = 0)
    ∧ (win1_3.index t (0 : Fin 2) = 0 ∧ win1_3.index t (1 : Fin 2) = 0)
    ∧ (win1_5.index t (0 : Fin 2) = 0 ∧ win1_5.index t (1 : Fin 2) = 0)
    ∧ win1_4.index t (0 : Fin 1) = 0 ∧ win1_6.index t (0 : Fin 1) = 0 :=
  (by decide +kernel : ∀ t : Fin grid1.N, _)

/-- The query weights' block is the whole matrix at every point. -/
theorem iblk1_3_whole (c : Dev nD) (t : Fin cfg1.N) : (iblk1 V c 3 t : S1024x1024.Idx → EReal) = V c main_v1 := by
  obtain ⟨-, -, -, -, ⟨e0, e1⟩, -⟩ := blockIndex1 t
  funext z
  show V c main_v1 (((cfg1.win 3).blk t).view.emb z) = V c main_v1 z
  refine congrArg _ (funext fun a => Fin.ext ?_)
  match a with
  | ⟨0, _⟩ => show win1_3.index t (0 : Fin 2) * 1024 + 1 * (z 0).val = (z 0).val; omega
  | ⟨1, _⟩ => show win1_3.index t (1 : Fin 2) * 1024 + 1 * (z 1).val = (z 1).val; omega

/-- The query bias' block is the whole vector. -/
theorem iblk1_4_whole (c : Dev nD) (t : Fin cfg1.N) : (iblk1 V c 4 t : S1024.Idx → EReal) = V c main_arg3 := by
  obtain ⟨-, -, -, -, -, -, e0, -⟩ := blockIndex1 t
  funext z
  show V c main_arg3 (((cfg1.win 4).blk t).view.emb z) = V c main_arg3 z
  refine congrArg _ (funext fun a => Fin.ext ?_)
  match a with
  | ⟨0, _⟩ => show win1_4.index t (0 : Fin 1) * 1024 + 1 * (z 0).val = (z 0).val; omega

/-- The output weights' block is the whole matrix. -/
theorem iblk1_5_whole (c : Dev nD) (t : Fin cfg1.N) : (iblk1 V c 5 t : S1024x1024.Idx → EReal) = V c main_v7 := by
  obtain ⟨-, -, -, -, -, ⟨e0, e1⟩, -⟩ := blockIndex1 t
  funext z
  show V c main_v7 (((cfg1.win 5).blk t).view.emb z) = V c main_v7 z
  refine congrArg _ (funext fun a => Fin.ext ?_)
  match a with
  | ⟨0, _⟩ => show win1_5.index t (0 : Fin 2) * 1024 + 1 * (z 0).val = (z 0).val; omega
  | ⟨1, _⟩ => show win1_5.index t (1 : Fin 2) * 1024 + 1 * (z 1).val = (z 1).val; omega

/-- The output bias' block is the whole vector. -/
theorem iblk1_6_whole (c : Dev nD) (t : Fin cfg1.N) : (iblk1 V c 6 t : S1024.Idx → EReal) = V c main_arg9 := by
  obtain ⟨-, -, -, -, -, -, -, e0⟩ := blockIndex1 t
  funext z
  show V c main_arg9 (((cfg1.win 6).blk t).view.emb z) = V c main_arg9 z
  refine congrArg _ (funext fun a => Fin.ext ?_)
  match a with
  | ⟨0, _⟩ => show win1_6.index t (0 : Fin 1) * 1024 + 1 * (z 0).val = (z 0).val; omega

/-- The target's block at position `t` is batch entry `t / 8`, query rows `1024·((t / 4) mod 2) …` of the target. -/
theorem iblk1_0_rows (c : Dev nD) (t : Fin cfg1.N) (z : S1x1024x1024.Idx) (i : S8x2048x1024.Idx)
    (h0 : (i 0).val = t.val / 8) (h1 : (i 1).val = 1024 * ((t.val / 4) % 2) + (z 1).val) (h2 : (i 2).val = (z 2).val) :
    (iblk1 V c 0 t : S1x1024x1024.Idx → EReal) z = V c main_arg0 i := by
  obtain ⟨⟨e0, e1, e2⟩, -⟩ := blockIndex1 t
  have hz0 : (z 0).val < 1 := (z 0).isLt
  show V c main_arg0 (((cfg1.win 0).blk t).view.emb z) = V c main_arg0 i
  refine congrArg _ (funext fun a => Fin.ext ?_)
  match a with
  | ⟨0, _⟩ => show win1_0.index t (0 : Fin 3) * 1 + 1 * (z 0).val = (i 0).val; omega
  | ⟨1, _⟩ => show win1_0.index t (1 : Fin 3) * 1024 + 1 * (z 1).val = (i 1).val; omega
  | ⟨2, _⟩ => show win1_0.index t (2 : Fin 3) * 1024 + 1 * (z 2).val = (i 2).val; omega

/-- The keys' block at position `t` is batch entry `t / 8`, key rows `512·(t mod 4) …` of the keys. -/
theorem iblk1_1_rows (c : Dev nD) (t : Fin cfg1.N) (z : S1x512x1024.Idx) (i : S8x2048x1024.Idx)
    (h0 : (i 0).val = t.val / 8) (h1 : (i 1).val = 512 * (t.val % 4) + (z 1).val) (h2 : (i 2).val = (z 2).val) :
    (iblk1 V c 1 t : S1x512x1024.Idx → EReal) z = V c main_v10 i := by
  obtain ⟨-, ⟨e0, e1, e2⟩, -⟩ := blockIndex1 t
  have hz0 : (z 0).val < 1 := (z 0).isLt
  show V c main_v10 (((cfg1.win 1).blk t).view.emb z) = V c main_v10 i
  refine congrArg _ (funext fun a => Fin.ext ?_)
  match a with
  | ⟨0, _⟩ => show win1_1.index t (0 : Fin 3) * 1 + 1 * (z 0).val = (i 0).val; omega
  | ⟨1, _⟩ => show win1_1.index t (1 : Fin 3) * 512 + 1 * (z 1).val = (i 1).val; omega
  | ⟨2, _⟩ => show win1_1.index t (2 : Fin 3) * 1024 + 1 * (z 2).val = (i 2).val; omega

/-- The values' block likewise. -/
theorem iblk1_2_rows (c : Dev nD) (t : Fin cfg1.N) (z : S1x512x1024.Idx) (i : S8x2048x1024.Idx)
    (h0 : (i 0).val = t.val / 8) (h1 : (i 1).val = 512 * (t.val % 4) + (z 1).val) (h2 : (i 2).val = (z 2).val) :
    (iblk1 V c 2 t : S1x512x1024.Idx → EReal) z = V c main_v11 i := by
  obtain ⟨-, -, ⟨e0, e1, e2⟩, -⟩ := blockIndex1 t
  have hz0 : (z 0).val < 1 := (z 0).isLt
  show V c main_v11 (((cfg1.win 2).blk t).view.emb z) = V c main_v11 i
  refine congrArg _ (funext fun a => Fin.ext ?_)
  match a with
  | ⟨0, _⟩ => show win1_2.index t (0 : Fin 3) * 1 + 1 * (z 0).val = (i 0).val; omega
  | ⟨1, _⟩ => show win1_2.index t (1 : Fin 3) * 512 + 1 * (z 1).val = (i 1).val; omega
  | ⟨2, _⟩ => show win1_2.index t (2 : Fin 3) * 1024 + 1 * (z 2).val = (i 2).val; omega

/-- The target's block at explicit coordinates. -/
theorem iblk1_0_at (c : Dev nD) (t : Fin cfg1.N) (r d : Fin 1024) :
    (iblk1 V c 0 t : S1x1024x1024.Idx → EReal) (ix3 (0 : Fin 1) r d)
      = V c main_arg0 (ix3 (⟨t.val / 8, by have := pos_lt64 t; omega⟩ : Fin 8)
          (⟨1024 * ((t.val / 4) % 2) + r.val, by have := r.isLt; omega⟩ : Fin 2048) d) :=
  iblk1_0_rows V c t _ _ rfl rfl rfl

/-- The keys' block at explicit coordinates. -/
theorem iblk1_1_at (c : Dev nD) (t : Fin cfg1.N) (j : Fin 512) (e : Fin 1024) :
    (iblk1 V c 1 t : S1x512x1024.Idx → EReal) (ix3 (0 : Fin 1) j e)
      = V c main_v10 (ix3 (⟨t.val / 8, by have := pos_lt64 t; omega⟩ : Fin 8)
          (⟨512 * (t.val % 4) + j.val, by have := j.isLt; omega⟩ : Fin 2048) e) :=
  iblk1_1_rows V c t _ _ rfl rfl rfl

/-- The values' block at explicit coordinates. -/
theorem iblk1_2_at (c : Dev nD) (t : Fin cfg1.N) (j : Fin 512) (e : Fin 1024) :
    (iblk1 V c 2 t : S1x512x1024.Idx → EReal) (ix3 (0 : Fin 1) j e)
      = V c main_v11 (ix3 (⟨t.val / 8, by have := pos_lt64 t; omega⟩ : Fin 8)
          (⟨512 * (t.val % 4) + j.val, by have := j.isLt; omega⟩ : Fin 2048) e) :=
  iblk1_2_rows V c t _ _ rfl rfl rfl

/-- The grid position of the last key tile of batch entry `n`, query half `r / 1024`. -/
theorem lastTile_lt (n : Fin 8) (r : Fin 2048) : 4 * (2 * n.val + r.val / 1024) + 3 < cfg1.N := by
  have h0 := n.isLt
  have h1 := r.isLt
  show _ < grid1.N
  rw [N_1]; omega

/-- What a position leaves depends on the position only, not on how its bound is proved or spelt. -/
theorem outsAt1_congr (c : Dev nD) {n n' : ℕ} (h : n = n') (hn : n < cfg1.N) (hn' : n' < cfg1.N) :
    outsAt1 V c n hn = outsAt1 V c n' hn' := by
  subst h; rfl

/-- The result array as one function of its index: entry `(n, r, o)` is entry `(r mod 1024, o)` of the output block
    left at the last key tile of batch entry `n`, query half `r / 1024`, that is, at grid position
    `4·(2n + r / 1024) + 3`. -/
def attnG (c : Dev nD) : S8x2048x1024.Idx → EReal := fun i =>
  (outsAt1 V c (4 * (2 * (i 0).val + (i 1).val / 1024) + 3) (lastTile_lt (i 0) (i 1))).1
    (ix3 (0 : Fin 1) (⟨(i 1).val % 1024, Nat.mod_lt _ (by decide)⟩ : Fin 1024) (i 2))

/-- That function at explicit coordinates. -/
theorem attnG_apply (c : Dev nD) (n : Fin 8) (r : Fin 2048) (o : Fin 1024) :
    attnG V c (ix3 n r o)
      = (outsAt1 V c (4 * (2 * n.val + r.val / 1024) + 3) (lastTile_lt n r)).1
          (ix3 (0 : Fin 1) (⟨r.val % 1024, Nat.mod_lt _ (by decide)⟩ : Fin 1024) o) := rfl

/-- At a last key tile `t`, the output block left there is the block of `attnG` its rectangle names. -/
theorem attnG_at (c : Dev nD) (t : Fin cfg1.N) (h3 : t.val % 4 = 3) (z : S1x1024x1024.Idx) (i : S8x2048x1024.Idx)
    (h0 : (i 0).val = t.val / 8) (h1 : (i 1).val = 1024 * ((t.val / 4) % 2) + (z 1).val) (h2 : (i 2).val = (z 2).val) :
    (outsAt1 V c t.val t.isLt).1 z = attnG V c i := by
  have hz0 : (z 0).val < 1 := (z 0).isLt
  have hz1 : (z 1).val < 1024 := (z 1).isLt
  have hn : t.val = 4 * (2 * (i 0).val + (i 1).val / 1024) + 3 := by omega
  have hz : z = ix3 (0 : Fin 1) (⟨(i 1).val % 1024, Nat.mod_lt _ (by decide)⟩ : Fin 1024) (i 2) := funext fun a => by
    match a with
    | ⟨0, _⟩ => exact Fin.ext (by show (z 0).val = 0; omega)
    | ⟨1, _⟩ => exact Fin.ext (by show (z 1).val = (i 1).val % 1024; omega)
    | ⟨2, _⟩ => exact Fin.ext h2.symm
  have e1 : (outsAt1 V c t.val t.isLt).1 = (outsAt1 V c (4 * (2 * (i 0).val + (i 1).val / 1024) + 3) (lastTile_lt (i 0) (i 1))).1 :=
    congrArg Prod.fst (outsAt1_congr V c hn t.isLt (lastTile_lt (i 0) (i 1)))
  exact (congrFun e1 z).trans
    (congrArg (outsAt1 V c (4 * (2 * (i 0).val + (i 1).val / 1024) + 3) (lastTile_lt (i 0) (i 1))).1 hz)

/-- A position that writes back (a last key tile) writes back its block of `attnG`. -/
theorem flushed1_7_eq (c : Dev nD) (t : Fin cfg1.N) (hf : (cfg1.win 7).flush t = true) :
    (dat1 (F := Ideal) V c).flushed 7 t = ((cfg1.win 7).blk t).view.read (Elt Ideal) (attnG V c) := by
  have h3 : t.val % 4 = 3 := (flush1_7 t).mp hf
  show (cfg1.win 7).cut (grid1.coords t) ((dat1 (F := Ideal) V c).after 7 t) = _
  rw [after1_7]
  obtain ⟨-, -, -, ⟨e0, e1, e2⟩, -⟩ := blockIndex1 t
  funext y
  have hy0 : (y 0).val < 1 := (y 0).isLt
  show (outsAt1 V c t.val t.isLt).1 (win1_7.xinj (grid1.coords t) y) = attnG V c (((cfg1.win 7).blk t).view.emb y)
  refine attnG_at V c t h3 _ _ ?_ ?_ ?_
  · show win1_7.index t (0 : Fin 3) * 1 + 1 * (y 0).val = t.val / 8; omega
  · show win1_7.index t (1 : Fin 3) * 1024 + 1 * (y 1).val = 1024 * ((t.val / 4) % 2) + (y 1).val; omega
  · show win1_7.index t (2 : Fin 3) * 1024 + 1 * (y 2).val = (y 2).val; omega

/-- An index of the result array is in position `t`'s block iff each coordinate is in the block's range on its axis. -/
theorem mem_blk1_7 (t : Fin cfg1.N) (i : S8x2048x1024.Idx) :
    i ∈ ((cfg1.win 7).blk t).view.set ↔ ∀ a : Fin 3, win1_7.index t a * S1x1024x1024.size a ≤ (i a).val
      ∧ (i a).val < win1_7.index t a * S1x1024x1024.size a + S1x1024x1024.size a := by
  show i ∈ ((View.whole main_v12).slice (win1_7.rect t)).set ↔ _
  rw [View.set_slice_whole, Rect.mem_set_unit]
  exact Iff.rfl

/-- Entry `(n, r, ·)` lies in the block of position `4·(2n + r / 1024) + 3`, a last key tile, which writes back. -/
theorem cover1_7 (i : S8x2048x1024.Idx) :
    ∃ t : Fin cfg1.N, (cfg1.win 7).flush t = true ∧ i ∈ ((cfg1.win 7).blk t).view.set := by
  have hi0 : (i 0).val < 8 := (i 0).isLt
  have hi1 : (i 1).val < 2048 := (i 1).isLt
  have hi2 : (i 2).val < 1024 := (i 2).isLt
  obtain ⟨t, ht⟩ : ∃ t : Fin cfg1.N, t.val = 4 * (2 * (i 0).val + (i 1).val / 1024) + 3 :=
    ⟨⟨4 * (2 * (i 0).val + (i 1).val / 1024) + 3, lastTile_lt (i 0) (i 1)⟩, rfl⟩
  obtain ⟨-, -, -, ⟨e0, e1, e2⟩, -⟩ := blockIndex1 t
  refine ⟨t, (flush1_7 t).mpr (by omega), ?_⟩
  rw [mem_blk1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1024 ≤ (i 1).val ∧ (i 1).val < win1_7.index t (1 : Fin 3) * 1024 + 1024; omega
  | ⟨2, _⟩ => show win1_7.index t (2 : Fin 3) * 1024 ≤ (i 2).val ∧ (i 2).val < win1_7.index t (2 : Fin 3) * 1024 + 1024; omega

/-- After the region the result array is `attnG`: every entry is the one its last key tile stored. -/
theorem final1_7 (c : Dev nD) : (dat1 (F := Ideal) V c).arrAt 7 cfg1.N = attnG V c :=
  (dat1 (F := Ideal) V c).arrAt_eq_of_cover 7 (attnG V c) (fun t hf => flushed1_7_eq V c t hf) cover1_7

end Cert.KernelIdeal.Fr

end
-- ==== Proof.Pieces.lean ====
/-
  What one grid point of the attention region leaves in its buffers, as the fold of the point's key tile.

  The body's run, case by case, finds for each buffer it stores into the list of stores (last first), each a
  whole-buffer store of a payload over the values loaded before it. Read back, a buffer holds its last store's payload;
  a load after a store reads the stored value, and a load of a buffer not yet stored reads what it held. So a first
  key tile leaves the scratch at the reset state with the tile folded in, a later key tile leaves what the scratch
  held with the tile folded in, and a last key tile stores the block emitted from the state after its fold. Four
  consecutive grid points are one query block against its four key tiles: the block stored at the fourth is the
  emitted block of the four folds.
-/
import proofs.«113719_j69286412419541_2_alg».proof.Proof.Frame1
import proofs.«113719_j69286412419541_2_alg».proof.Proof.Steps
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

/-- The zero offsets of a rank-3, rank-2 and rank-1 buffer. -/
theorem zOff3 : (![0, 0, 0] : Fin 3 → Nat) = fun _ => 0 := funext fun a => by fin_cases a <;> rfl
theorem zOff2 : (![0, 0] : Fin 2 → Nat) = fun _ => 0 := funext fun a => by fin_cases a <;> rfl
theorem zOff1 : (![0] : Fin 1 → Nat) = fun _ => 0 := funext fun a => by fin_cases a <;> rfl

/-! ## A first key tile -/

/-- The query scratch after a first key tile: the projection of the target block. -/
theorem scrA_q (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    (scrA c t hc0 hc1 x0 x1 x2 x3 x4 x5 x6).1 = k1_pay4 x0 x3 x4 := by
  unfold scrA
  dsimp only
  rw [View.read_writes_eq_canon _ _ _ (scoverA_0 c t hc0 hc1 x0 x1 x2 x3 x4 x5 x6)]
  unfold runA kernelRun1_A
  dsimp only
  sl_unfold_words
  rw [View.canon_unit_zero zOff2]
  simp only [View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1]

/-- The running maximum after a first key tile: the reset value, then the tile folded in; the later store wins. -/
theorem scrA_m (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    (scrA c t hc0 hc1 x0 x1 x2 x3 x4 x5 x6).2.1 = k1_pay2 (k1_pay10 (k1_pay4 x0 x3 x4) x1 k1_pay5) := by
  unfold scrA
  dsimp only
  rw [View.read_writes_eq_canon _ _ _ (scoverA_1 c t hc0 hc1 x0 x1 x2 x3 x4 x5 x6)]
  unfold runA kernelRun1_A
  dsimp only
  sl_unfold_words
  rw [View.canon_cons_unit_zero (S := S1024x1) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1]

/-- The running denominator after a first key tile. -/
theorem scrA_l (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    (scrA c t hc0 hc1 x0 x1 x2 x3 x4 x5 x6).2.2.1 = k1_pay13 (k1_pay4 x0 x3 x4) x1 k1_pay5 k1_pay6 := by
  unfold scrA
  dsimp only
  rw [View.read_writes_eq_canon _ _ _ (scoverA_2 c t hc0 hc1 x0 x1 x2 x3 x4 x5 x6)]
  unfold runA kernelRun1_A
  dsimp only
  sl_unfold_words
  rw [View.canon_cons_unit_zero (S := S1024x1) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1]

/-- The running numerator after a first key tile. -/
theorem scrA_acc (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    (scrA c t hc0 hc1 x0 x1 x2 x3 x4 x5 x6).2.2.2
      = k1_pay1 (k1_pay8 x2) (k1_pay14 (k1_pay4 x0 x3 x4) x1 k1_pay5 k1_pay7) (k1_pay15 (k1_pay4 x0 x3 x4) x1 k1_pay5)
          (constant S1024x1024 .f32 0x00000000#32) := by
  unfold scrA
  dsimp only
  rw [View.read_writes_eq_canon _ _ _ (scoverA_3 c t hc0 hc1 x0 x1 x2 x3 x4 x5 x6)]
  unfold runA kernelRun1_A
  dsimp only
  sl_unfold_words
  rw [View.canon_cons_unit_zero (S := S1024x1024) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1]

/-- A first key tile leaves the scratch at the reset state with the tile folded in. -/
theorem scrA_eq (c : Dev nD) (t : Fin cfg1.N) (hc0 : cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) :
    scrA c t hc0 hc1 x0 x1 x2 x3 x4 x5 x6 = foldFirst x0 x1 x2 x3 x4 :=
  Prod.ext (scrA_q c t hc0 hc1 x0 x1 x2 x3 x4 x5 x6)
    (Prod.ext (scrA_m c t hc0 hc1 x0 x1 x2 x3 x4 x5 x6)
      (Prod.ext (scrA_l c t hc0 hc1 x0 x1 x2 x3 x4 x5 x6) (scrA_acc c t hc0 hc1 x0 x1 x2 x3 x4 x5 x6)))

/-! ## A middle key tile -/

/-- The running maximum after a middle key tile: the tile folded into what the scratch held. -/
theorem scrB_m (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    (scrB c t hc0 hc1 x0 x1 x2 x3 x4 x5 x6 xs).2.1 = k1_pay2 (k1_pay10 xs.1 x1 xs.2.1) := by
  unfold scrB
  dsimp only
  rw [View.read_writes_eq_canon _ _ _ (scoverB_1 c t hc0 hc1 x0 x1 x2 x3 x4 x5 x6 xs)]
  unfold runB kernelRun1_B
  dsimp only
  sl_unfold_words
  rw [View.canon_unit_zero (S := S1024x1) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- The running denominator after a middle key tile. -/
theorem scrB_l (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    (scrB c t hc0 hc1 x0 x1 x2 x3 x4 x5 x6 xs).2.2.1 = k1_pay13 xs.1 x1 xs.2.1 xs.2.2.1 := by
  unfold scrB
  dsimp only
  rw [View.read_writes_eq_canon _ _ _ (scoverB_2 c t hc0 hc1 x0 x1 x2 x3 x4 x5 x6 xs)]
  unfold runB kernelRun1_B
  dsimp only
  sl_unfold_words
  rw [View.canon_unit_zero (S := S1024x1) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- The running numerator after a middle key tile. -/
theorem scrB_acc (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    (scrB c t hc0 hc1 x0 x1 x2 x3 x4 x5 x6 xs).2.2.2
      = k1_pay1 (k1_pay8 x2) (k1_pay14 xs.1 x1 xs.2.1 xs.2.2.2) (k1_pay15 xs.1 x1 xs.2.1)
          (constant S1024x1024 .f32 0x00000000#32) := by
  unfold scrB
  dsimp only
  rw [View.read_writes_eq_canon _ _ _ (scoverB_3 c t hc0 hc1 x0 x1 x2 x3 x4 x5 x6 xs)]
  unfold runB kernelRun1_B
  dsimp only
  sl_unfold_words
  rw [View.canon_unit_zero (S := S1024x1024) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- A middle key tile leaves the scratch at what it held with the tile folded in; the projected queries are only read. -/
theorem scrB_eq (c : Dev nD) (t : Fin cfg1.N) (hc0 : ¬cond1_0 (grid1.coords t)) (hc1 : ¬cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    scrB c t hc0 hc1 x0 x1 x2 x3 x4 x5 x6 xs = fold x1 x2 xs :=
  Prod.ext rfl
    (Prod.ext (scrB_m c t hc0 hc1 x0 x1 x2 x3 x4 x5 x6 xs)
      (Prod.ext (scrB_l c t hc0 hc1 x0 x1 x2 x3 x4 x5 x6 xs) (scrB_acc c t hc0 hc1 x0 x1 x2 x3 x4 x5 x6 xs)))

/-! ## A last key tile -/

/-- The running maximum after a last key tile: the tile folded into what the scratch held. -/
theorem scrC_m (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    (scrC c t hc0 hc1 x0 x1 x2 x3 x4 x5 x6 xs).2.1 = k1_pay2 (k1_pay10 xs.1 x1 xs.2.1) := by
  unfold scrC
  dsimp only
  rw [View.read_writes_eq_canon _ _ _ (scoverC_1 c t hc0 hc1 x0 x1 x2 x3 x4 x5 x6 xs)]
  unfold runC kernelRun1_C
  dsimp only
  sl_unfold_words
  rw [View.canon_unit_zero (S := S1024x1) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- The running denominator after a last key tile. -/
theorem scrC_l (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    (scrC c t hc0 hc1 x0 x1 x2 x3 x4 x5 x6 xs).2.2.1 = k1_pay13 xs.1 x1 xs.2.1 xs.2.2.1 := by
  unfold scrC
  dsimp only
  rw [View.read_writes_eq_canon _ _ _ (scoverC_2 c t hc0 hc1 x0 x1 x2 x3 x4 x5 x6 xs)]
  unfold runC kernelRun1_C
  dsimp only
  sl_unfold_words
  rw [View.canon_unit_zero (S := S1024x1) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- The running numerator after a last key tile. -/
theorem scrC_acc (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    (scrC c t hc0 hc1 x0 x1 x2 x3 x4 x5 x6 xs).2.2.2
      = k1_pay1 (k1_pay8 x2) (k1_pay14 xs.1 x1 xs.2.1 xs.2.2.2) (k1_pay15 xs.1 x1 xs.2.1)
          (constant S1024x1024 .f32 0x00000000#32) := by
  unfold scrC
  dsimp only
  rw [View.read_writes_eq_canon _ _ _ (scoverC_3 c t hc0 hc1 x0 x1 x2 x3 x4 x5 x6 xs)]
  unfold runC kernelRun1_C
  dsimp only
  sl_unfold_words
  rw [View.canon_unit_zero (S := S1024x1024) zOff2]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- A last key tile leaves the scratch at what it held with the tile folded in; the projected queries are only read. -/
theorem scrC_eq (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    scrC c t hc0 hc1 x0 x1 x2 x3 x4 x5 x6 xs = fold x1 x2 xs :=
  Prod.ext rfl
    (Prod.ext (scrC_m c t hc0 hc1 x0 x1 x2 x3 x4 x5 x6 xs)
      (Prod.ext (scrC_l c t hc0 hc1 x0 x1 x2 x3 x4 x5 x6 xs) (scrC_acc c t hc0 hc1 x0 x1 x2 x3 x4 x5 x6 xs)))

/-- The output block a last key tile stores: the payload of the state after the tile's fold — the loads after the
    stores of the denominator and the numerator read the stored values. -/
theorem outC_pay (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    outC c t hc0 hc1 x0 x1 x2 x3 x4 x5 x6 xs
      = k1_pay3 (k1_pay1 (k1_pay8 x2) (k1_pay14 xs.1 x1 xs.2.1 xs.2.2.2) (k1_pay15 xs.1 x1 xs.2.1)
            (constant S1024x1024 .f32 0x00000000#32))
          (k1_pay13 xs.1 x1 xs.2.1 xs.2.2.1) x5 x6 := by
  unfold outC
  rw [View.read_writes_eq_canon _ _ _ (coverC_7 c t hc0 hc1 x0 x1 x2 x3 x4 x5 x6 xs)]
  unfold runC kernelRun1_C
  dsimp only
  sl_unfold_words
  rw [View.canon_unit_zero (S := S1x1024x1024) zOff3]
  simp only [View.readCov_unit_zero (S := S1024x1024) _ zOff2, View.readCov_unit_zero (S := S1024x1) _ zOff2, View.readAt_eq_ld, Memref.IsWhole.read_unread, View.ld_unit_zero (S := S1x1024x1024) zOff3, View.ld_unit_zero (S := S1x512x1024) zOff3, View.ld_unit_zero (S := S1024x1024) zOff2, View.ld_unit_zero (S := S1024x1) zOff2, View.ld_unit_zero (S := S1024) zOff1, (Memref.isWhole_whole cc1_scratch0 : scM1_0.IsWhole).read_unread, (Memref.isWhole_whole cc1_scratch1 : scM1_1.IsWhole).read_unread, (Memref.isWhole_whole cc1_scratch2 : scM1_2.IsWhole).read_unread, (Memref.isWhole_whole cc1_scratch3 : scM1_3.IsWhole).read_unread]

/-- The output block of a last key tile is the emitted block of the state after the tile's fold. -/
theorem outC_eq (c : Dev nD) (t : Fin cfg1.N) (hc0 : ¬cond1_0 (grid1.coords t)) (hc1 : cond1_1 (grid1.coords t)) (x0 : Vec F S1x1024x1024 .f32) (x1 : Vec F S1x512x1024 .bf16) (x2 : Vec F S1x512x1024 .bf16) (x3 : Vec F S1024x1024 .bf16) (x4 : Vec F S1024 .f32) (x5 : Vec F S1024x1024 .bf16) (x6 : Vec F S1024 .f32) (xs : Scr F) :
    outC c t hc0 hc1 x0 x1 x2 x3 x4 x5 x6 xs = emit (fold x1 x2 xs) x5 x6 :=
  (outC_pay c t hc0 hc1 x0 x1 x2 x3 x4 x5 x6 xs).trans rfl

/-! ## Four consecutive grid points: one query block against its four key tiles -/

section Group

variable (V : (c : Dev nD) → (b : Ref sig .tc) → Buf (Elt F) ((c : Thread nD τ).loc b))

/-- The contents after a grid position depend on the position only. -/
theorem outsAt1_congr (c : Dev nD) {a b : ℕ} (e : a = b) (ha : a < cfg1.N) (hb : b < cfg1.N) :
    outsAt1 V c a ha = outsAt1 V c b hb := by
  subst e; rfl

/-- At a first key tile the scratch is left at the reset state with the tile folded in. -/
theorem scr_at_first (c : Dev nD) (n : ℕ) (hn : n < cfg1.N) (h0 : n % 4 = 0) :
    (outsAt1 V c n hn).2
      = foldFirst (iblk1 V c 0 ⟨n, hn⟩) (iblk1 V c 1 ⟨n, hn⟩) (iblk1 V c 2 ⟨n, hn⟩) (iblk1 V c 3 ⟨n, hn⟩) (iblk1 V c 4 ⟨n, hn⟩) :=
  have h1 : ¬n % 4 = 3 := by omega
  (congrArg Prod.snd (outsAt1_A V c ⟨n, hn⟩ h0 h1)).trans
    (scrA_eq c ⟨n, hn⟩ ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩))

/-- At a middle key tile the scratch is left at what the point before left, with the tile folded in. -/
theorem scr_at_middle (c : Dev nD) (n : ℕ) (hn : n + 1 < cfg1.N) (h0 : ¬(n + 1) % 4 = 0) (h1 : ¬(n + 1) % 4 = 3) :
    (outsAt1 V c (n + 1) hn).2
      = fold (iblk1 V c 1 ⟨n + 1, hn⟩) (iblk1 V c 2 ⟨n + 1, hn⟩) (outsAt1 V c n (Nat.lt_of_succ_lt hn)).2 := by
  have e := outsAt1_B V c ⟨n + 1, hn⟩ h0 h1
  dsimp only at e
  rw [outsAt1_congr V c (Nat.add_sub_cancel n 1) _ (Nat.lt_of_succ_lt hn)] at e
  exact (congrArg Prod.snd e).trans
    (scrB_eq c ⟨n + 1, hn⟩ (fun h => h0 ((hcond1_0 ⟨n + 1, hn⟩).mp h)) (fun h => h1 ((hcond1_1 ⟨n + 1, hn⟩).mp h))
      (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 V c n (Nat.lt_of_succ_lt hn)).2)

/-- At a last key tile the output block is the emitted block of what the point before left with the tile folded in. -/
theorem out_at_last (c : Dev nD) (n : ℕ) (hn : n + 1 < cfg1.N) (h0 : ¬(n + 1) % 4 = 0) (h1 : (n + 1) % 4 = 3) :
    (outsAt1 V c (n + 1) hn).1
      = emit (fold (iblk1 V c 1 ⟨n + 1, hn⟩) (iblk1 V c 2 ⟨n + 1, hn⟩) (outsAt1 V c n (Nat.lt_of_succ_lt hn)).2)
          (iblk1 V c 5 ⟨n + 1, hn⟩) (iblk1 V c 6 ⟨n + 1, hn⟩) := by
  have e := outsAt1_C V c ⟨n + 1, hn⟩ h0 h1
  dsimp only at e
  rw [outsAt1_congr V c (Nat.add_sub_cancel n 1) _ (Nat.lt_of_succ_lt hn)] at e
  have e1 := congrArg Prod.fst e
  dsimp only at e1
  refine e1.trans ?_
  exact outC_eq c ⟨n + 1, hn⟩ (fun h => h0 ((hcond1_0 ⟨n + 1, hn⟩).mp h)) ((hcond1_1 ⟨n + 1, hn⟩).mpr h1)
      (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 V c n (Nat.lt_of_succ_lt hn)).2

/-- Four consecutive points from a first key tile at position `n`: the block stored at the fourth. -/
theorem group_from (c : Dev nD) (n : ℕ) (h3 : n + 1 + 1 + 1 < cfg1.N) (h : n % 4 = 0) :
    (outsAt1 V c (n + 1 + 1 + 1) h3).1
      = emit
          (fold (iblk1 V c 1 ⟨n + 1 + 1 + 1, h3⟩) (iblk1 V c 2 ⟨n + 1 + 1 + 1, h3⟩)
            (fold (iblk1 V c 1 ⟨n + 1 + 1, Nat.lt_of_succ_lt h3⟩) (iblk1 V c 2 ⟨n + 1 + 1, Nat.lt_of_succ_lt h3⟩)
              (fold (iblk1 V c 1 ⟨n + 1, Nat.lt_of_succ_lt (Nat.lt_of_succ_lt h3)⟩) (iblk1 V c 2 ⟨n + 1, Nat.lt_of_succ_lt (Nat.lt_of_succ_lt h3)⟩)
                (foldFirst (iblk1 V c 0 ⟨n, Nat.lt_of_succ_lt (Nat.lt_of_succ_lt (Nat.lt_of_succ_lt h3))⟩) (iblk1 V c 1 ⟨n, Nat.lt_of_succ_lt (Nat.lt_of_succ_lt (Nat.lt_of_succ_lt h3))⟩) (iblk1 V c 2 ⟨n, Nat.lt_of_succ_lt (Nat.lt_of_succ_lt (Nat.lt_of_succ_lt h3))⟩) (iblk1 V c 3 ⟨n, Nat.lt_of_succ_lt (Nat.lt_of_succ_lt (Nat.lt_of_succ_lt h3))⟩) (iblk1 V c 4 ⟨n, Nat.lt_of_succ_lt (Nat.lt_of_succ_lt (Nat.lt_of_succ_lt h3))⟩)))))
          (iblk1 V c 5 ⟨n + 1 + 1 + 1, h3⟩) (iblk1 V c 6 ⟨n + 1 + 1 + 1, h3⟩) := by
  rw [out_at_last V c (n + 1 + 1) h3 (by omega) (by omega),
    scr_at_middle V c (n + 1) (Nat.lt_of_succ_lt h3) (by omega) (by omega),
    scr_at_middle V c n (Nat.lt_of_succ_lt (Nat.lt_of_succ_lt h3)) (by omega) (by omega),
    scr_at_first V c n (Nat.lt_of_succ_lt (Nat.lt_of_succ_lt (Nat.lt_of_succ_lt h3))) h]

/-- Position `k` (0 to 3) of group `g` of four consecutive grid positions: `4·g + k`. -/
abbrev gpos (g : Fin 16) (k : ℕ) (hk : k < 4) : Fin cfg1.N :=
  ⟨4 * g.val + k, by have := g.isLt; have : cfg1.N = 64 := N_1; omega⟩

/-- THE GROUP: the output block stored at the last of the four positions of group `g` is the emitted block of the four
    folds of the group's key and value tiles, from the reset state of the group's query block. -/
theorem group_out (c : Dev nD) (g : Fin 16) :
    (outsAt1 V c (4 * g.val + 3) (gpos g 3 (by decide)).isLt).1
      = emit
          (fold (iblk1 V c 1 (gpos g 3 (by decide))) (iblk1 V c 2 (gpos g 3 (by decide)))
            (fold (iblk1 V c 1 (gpos g 2 (by decide))) (iblk1 V c 2 (gpos g 2 (by decide)))
              (fold (iblk1 V c 1 (gpos g 1 (by decide))) (iblk1 V c 2 (gpos g 1 (by decide)))
                (foldFirst (iblk1 V c 0 (gpos g 0 (by decide))) (iblk1 V c 1 (gpos g 0 (by decide))) (iblk1 V c 2 (gpos g 0 (by decide))) (iblk1 V c 3 (gpos g 0 (by decide))) (iblk1 V c 4 (gpos g 0 (by decide)))))))
          (iblk1 V c 5 (gpos g 3 (by decide))) (iblk1 V c 6 (gpos g 3 (by decide))) :=
  group_from V c (4 * g.val) (gpos g 3 (by decide)).isLt (Nat.mul_mod_right 4 g.val)

end Group

end Cert.KernelIdeal.Pieces

end
-- ==== Proof.OnlineSoftmax.lean ====
/-
  The algebra of the online softmax, over the reals inside the extended reals; no program is imported.

  For a row of real scores S and values V, with M the largest score, the softmax-weighted sum is
      Σ_k (exp (S k − M) / Σ_k' exp (S k' − M)) · V k  =  (Σ_k exp (S k − M) · V k) / (Σ_k exp (S k − M)),
  the denominator being a positive real (`softmax_closed`).

  The blockwise computation keeps a running maximum m, a running denominator l and a running numerator a.
  After the blocks seen so far, with M' their largest score, the state is
      m = M',   l = Σ exp (S − M'),   a = Σ exp (S − M') · V      (sums over the keys seen so far).
  A further block with largest score B moves the reference point to M'' = max M' B: the old sums are
  multiplied by exp (M' − M''), and  exp (M' − M'') · exp (x − M') = exp (x − M'')  puts every old term at the
  new reference point; the block's own terms are already taken at M''. From the initial state (−∞, 0, 0) the
  old sums are 0 and contribute nothing. After four blocks of 512 the reference point is the row's maximum and
  the two sums are the numerator and the denominator of the closed form (`online_four`).

  All scores and values are real, so every sum and product below is a real one, coerced; that is what makes
  the distributive steps legal. A row of 2048 keys is cut into its four blocks by `keyAt`, and
  `online_four_eq_softmax` puts the two sides together for a whole row. The last section evaluates the two
  spellings of the scale 1/√1024.
-/
import Idealize.ShloMosaic.PureOps.Ideal
import proofs.«113719_j69286412419541_2_alg».proof.Proof.Spec

noncomputable section

namespace Cert.Attn

open Idealize.ShloMosaic

/-! ## Coercions: real sums and maxima inside the extended reals -/

/-- A finite sum of reals, coerced, is the sum of the coerced terms. -/
theorem coe_sum {K : Type} (t : Finset K) (f : K → ℝ) :
    (∑ k ∈ t, (f k : EReal)) = ((∑ k ∈ t, f k : ℝ) : EReal) := by
  classical
  induction t using Finset.induction_on with
  | empty => simp
  | insert a t ha ih => rw [Finset.sum_insert ha, Finset.sum_insert ha, EReal.coe_add, ih]

/-- The coercion commutes with the binary maximum. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- The exponential of a difference of two reals, computed on the extended reals, is the real one. -/
theorem exp_sub_coe (x y : ℝ) : Ideal.exp ((x : EReal) - (y : EReal)) = ((Real.exp (x - y) : ℝ) : EReal) := by
  rw [← EReal.coe_sub, Ideal.exp_coe]

/-! ## The maximum of a block of real scores -/

theorem blockMax_coe {K : Type} [Fintype K] (S : K → ℝ) (M : ℝ) (hle : ∀ k, S k ≤ M) (hat : ∃ k, S k = M) :
    blockMax (fun k => (S k : EReal)) = (M : EReal) := by
  unfold blockMax
  apply le_antisymm
  · rw [Finset.fold_max_le]
    exact ⟨bot_le, fun k _ => EReal.coe_le_coe_iff.mpr (hle k)⟩
  · rw [Finset.le_fold_max]
    obtain ⟨k, hk⟩ := hat
    exact Or.inr ⟨k, Finset.mem_univ k, by rw [hk]⟩

/-! ## The reference's side: normalise each weight, then sum -/

theorem softmax_closed {K : Type} [Fintype K] (S V : K → ℝ) (M : ℝ) (hat : ∃ k, S k = M) :
    (∑ k, Ideal.div (Ideal.exp ((S k : EReal) - (M : EReal))) (∑ k', Ideal.exp ((S k' : EReal) - (M : EReal))) * (V k : EReal))
      = Ideal.div (((∑ k, Real.exp (S k - M) * V k : ℝ)) : EReal) (((∑ k, Real.exp (S k - M) : ℝ)) : EReal) := by
  -- the denominator is a positive real: every term is positive and there is at least one
  obtain ⟨k0, _⟩ := hat
  have hpos : 0 < ∑ k, Real.exp (S k - M) :=
    Finset.sum_pos (fun k _ => Real.exp_pos _) ⟨k0, Finset.mem_univ k0⟩
  have hne : (∑ k, Real.exp (S k - M)) ≠ 0 := ne_of_gt hpos
  simp only [exp_sub_coe, coe_sum]
  simp only [Ideal.div_coe hne, ← EReal.coe_mul, coe_sum]
  congr 1
  rw [Finset.sum_mul]
  exact Finset.sum_congr rfl (fun k _ => by ring)

/-! ## One update of the running state, from a real previous state and from the initial state -/

section Step

variable {J : Type} [Fintype J]

/-- The new running maximum, when the old one is the real `Mp` and the block's largest score is `B`. -/
theorem rowMax_coe (S : J → ℝ) (Mp B : ℝ) (hle : ∀ j, S j ≤ B) (hat : ∃ j, S j = B) :
    rowMax (Mp : EReal) (fun j => (S j : EReal)) = ((max Mp B : ℝ) : EReal) := by
  rw [rowMax, blockMax_coe S B hle hat, coe_max]

/-- The new running denominator from a real previous state. -/
theorem rowDen_coe (S : J → ℝ) (Mp Lp B : ℝ) (hle : ∀ j, S j ≤ B) (hat : ∃ j, S j = B) :
    rowDen (Mp : EReal) (Lp : EReal) (fun j => (S j : EReal))
      = ((Real.exp (Mp - max Mp B) * Lp + ∑ j, Real.exp (S j - max Mp B) : ℝ) : EReal) := by
  rw [rowDen, rowMax_coe S Mp B hle hat]
  simp only [exp_sub_coe, coe_sum, ← EReal.coe_mul, ← EReal.coe_add]

/-- The new running numerator from a real previous state. -/
theorem rowNum_coe (S V : J → ℝ) (Mp Ap B : ℝ) (hle : ∀ j, S j ≤ B) (hat : ∃ j, S j = B) :
    rowNum (Mp : EReal) (Ap : EReal) (fun j => (S j : EReal)) (fun j => (V j : EReal))
      = ((Real.exp (Mp - max Mp B) * Ap + ∑ j, Real.exp (S j - max Mp B) * V j : ℝ) : EReal) := by
  rw [rowNum, rowMax_coe S Mp B hle hat]
  simp only [exp_sub_coe, coe_sum, ← EReal.coe_mul, ← EReal.coe_add]

/-- The first update: from the maximum `-∞` the new maximum is the block's. -/
theorem rowMax_bot (S : J → ℝ) (B : ℝ) (hle : ∀ j, S j ≤ B) (hat : ∃ j, S j = B) :
    rowMax (⊥ : EReal) (fun j => (S j : EReal)) = (B : EReal) := by
  rw [rowMax, blockMax_coe S B hle hat, max_eq_right bot_le]

/-- The first update of the denominator: the old denominator is `0`, so only the block's sum remains. -/
theorem rowDen_bot (S : J → ℝ) (B : ℝ) (hle : ∀ j, S j ≤ B) (hat : ∃ j, S j = B) :
    rowDen (⊥ : EReal) 0 (fun j => (S j : EReal)) = ((∑ j, Real.exp (S j - B) : ℝ) : EReal) := by
  rw [rowDen, rowMax_bot S B hle hat, mul_zero, zero_add]
  simp only [exp_sub_coe, coe_sum]

/-- The first update of the numerator. -/
theorem rowNum_bot (S V : J → ℝ) (B : ℝ) (hle : ∀ j, S j ≤ B) (hat : ∃ j, S j = B) :
    rowNum (⊥ : EReal) 0 (fun j => (S j : EReal)) (fun j => (V j : EReal))
      = ((∑ j, Real.exp (S j - B) * V j : ℝ) : EReal) := by
  rw [rowNum, rowMax_bot S B hle hat, mul_zero, zero_add]
  simp only [exp_sub_coe, coe_sum, ← EReal.coe_mul]

/-- Rescaling a block's sum of exponentials from one reference point to another. -/
theorem rescale_sum (S : J → ℝ) (a b : ℝ) :
    Real.exp (a - b) * ∑ j, Real.exp (S j - a) = ∑ j, Real.exp (S j - b) := by
  rw [Finset.mul_sum]
  refine Finset.sum_congr rfl (fun j _ => ?_)
  rw [← Real.exp_add]
  congr 1; ring

/-- The same for the weighted sum. -/
theorem rescale_sum_mul (S V : J → ℝ) (a b : ℝ) :
    Real.exp (a - b) * ∑ j, Real.exp (S j - a) * V j = ∑ j, Real.exp (S j - b) * V j := by
  rw [Finset.mul_sum]
  refine Finset.sum_congr rfl (fun j _ => ?_)
  rw [← mul_assoc, ← Real.exp_add]
  congr 2; ring

end Step

/-! ## The kernel's side: four updates from the initial state -/

/-- A nonempty finite family of reals has a largest element. -/
theorem exists_real_max {K : Type} [Finite K] [Nonempty K] (S : K → ℝ) : ∃ B : ℝ, (∀ k, S k ≤ B) ∧ ∃ k, S k = B := by
  obtain ⟨k0, hk0⟩ := Finite.exists_max S
  exact ⟨S k0, hk0, k0, rfl⟩

theorem online_four (S V : Fin 4 → Fin 512 → ℝ) (M : ℝ) (hle : ∀ k j, S k j ≤ M) (hat : ∃ k j, S k j = M) :
    let s : Fin 4 → Fin 512 → EReal := fun k j => (S k j : EReal)
    let v : Fin 4 → Fin 512 → EReal := fun k j => (V k j : EReal)
    let m1 := rowMax ⊥ (s 0);  let l1 := rowDen ⊥ 0 (s 0);   let a1 := rowNum ⊥ 0 (s 0) (v 0)
    let m2 := rowMax m1 (s 1); let l2 := rowDen m1 l1 (s 1); let a2 := rowNum m1 a1 (s 1) (v 1)
    let m3 := rowMax m2 (s 2); let l3 := rowDen m2 l2 (s 2); let a3 := rowNum m2 a2 (s 2) (v 2)
    let m4 := rowMax m3 (s 3); let l4 := rowDen m3 l3 (s 3); let a4 := rowNum m3 a3 (s 3) (v 3)
    l4 = (((∑ k, ∑ j, Real.exp (S k j - M) : ℝ)) : EReal) ∧ a4 = (((∑ k, ∑ j, Real.exp (S k j - M) * V k j : ℝ)) : EReal) := by
  intro s v m1 l1 a1 m2 l2 a2 m3 l3 a3 m4 l4 a4
  -- each block's largest score
  obtain ⟨B0, hle0, hat0⟩ := exists_real_max (S 0)
  obtain ⟨B1, hle1, hat1⟩ := exists_real_max (S 1)
  obtain ⟨B2, hle2, hat2⟩ := exists_real_max (S 2)
  obtain ⟨B3, hle3, hat3⟩ := exists_real_max (S 3)
  -- the running maximum after all four blocks is the row's maximum
  have hM : max (max (max B0 B1) B2) B3 = M := by
    apply le_antisymm
    · obtain ⟨j0, h0⟩ := hat0
      obtain ⟨j1, h1⟩ := hat1
      obtain ⟨j2, h2⟩ := hat2
      obtain ⟨j3, h3⟩ := hat3
      refine max_le (max_le (max_le ?_ ?_) ?_) ?_
      · rw [← h0]; exact hle 0 j0
      · rw [← h1]; exact hle 1 j1
      · rw [← h2]; exact hle 2 j2
      · rw [← h3]; exact hle 3 j3
    · obtain ⟨k, j, hkj⟩ := hat
      rw [← hkj]
      fin_cases k
      · exact le_trans (hle0 j) (le_trans (le_max_left _ _) (le_trans (le_max_left _ _) (le_max_left _ _)))
      · exact le_trans (hle1 j) (le_trans (le_max_right _ _) (le_trans (le_max_left _ _) (le_max_left _ _)))
      · exact le_trans (hle2 j) (le_trans (le_max_right _ _) (le_max_left _ _))
      · exact le_trans (hle3 j) (le_max_right _ _)
  -- after the first block: maximum B0, sums taken relative to B0
  have hm1 : m1 = (B0 : EReal) := rowMax_bot (S 0) B0 hle0 hat0
  have hl1 : l1 = ((∑ j, Real.exp (S 0 j - B0) : ℝ) : EReal) := rowDen_bot (S 0) B0 hle0 hat0
  have ha1 : a1 = ((∑ j, Real.exp (S 0 j - B0) * V 0 j : ℝ) : EReal) := rowNum_bot (S 0) (V 0) B0 hle0 hat0
  -- after the second block: everything rescaled to max B0 B1
  have hm2 : m2 = ((max B0 B1 : ℝ) : EReal) := by
    show rowMax m1 (s 1) = _
    rw [hm1]; exact rowMax_coe (S 1) B0 B1 hle1 hat1
  have hl2 : l2 = ((∑ j, Real.exp (S 0 j - max B0 B1) + ∑ j, Real.exp (S 1 j - max B0 B1) : ℝ) : EReal) := by
    show rowDen m1 l1 (s 1) = _
    rw [hm1, hl1]
    refine (rowDen_coe (S 1) B0 _ B1 hle1 hat1).trans ?_
    rw [rescale_sum]
  have ha2 : a2 = ((∑ j, Real.exp (S 0 j - max B0 B1) * V 0 j + ∑ j, Real.exp (S 1 j - max B0 B1) * V 1 j : ℝ) : EReal) := by
    show rowNum m1 a1 (s 1) (v 1) = _
    rw [hm1, ha1]
    refine (rowNum_coe (S 1) (V 1) B0 _ B1 hle1 hat1).trans ?_
    rw [rescale_sum_mul]
  -- after the third block
  have hm3 : m3 = ((max (max B0 B1) B2 : ℝ) : EReal) := by
    show rowMax m2 (s 2) = _
    rw [hm2]; exact rowMax_coe (S 2) _ B2 hle2 hat2
  have hl3 : l3 = ((∑ j, Real.exp (S 0 j - max (max B0 B1) B2) + ∑ j, Real.exp (S 1 j - max (max B0 B1) B2)
      + ∑ j, Real.exp (S 2 j - max (max B0 B1) B2) : ℝ) : EReal) := by
    show rowDen m2 l2 (s 2) = _
    rw [hm2, hl2]
    refine (rowDen_coe (S 2) _ _ B2 hle2 hat2).trans ?_
    rw [mul_add, rescale_sum, rescale_sum]
  have ha3 : a3 = ((∑ j, Real.exp (S 0 j - max (max B0 B1) B2) * V 0 j + ∑ j, Real.exp (S 1 j - max (max B0 B1) B2) * V 1 j
      + ∑ j, Real.exp (S 2 j - max (max B0 B1) B2) * V 2 j : ℝ) : EReal) := by
    show rowNum m2 a2 (s 2) (v 2) = _
    rw [hm2, ha2]
    refine (rowNum_coe (S 2) (V 2) _ _ B2 hle2 hat2).trans ?_
    rw [mul_add, rescale_sum_mul, rescale_sum_mul]
  -- after the fourth block the reference point is the row's maximum M
  constructor
  · show rowDen m3 l3 (s 3) = _
    rw [hm3, hl3]
    refine (rowDen_coe (S 3) _ _ B3 hle3 hat3).trans ?_
    rw [mul_add, mul_add, rescale_sum, rescale_sum, rescale_sum, hM, Fin.sum_univ_four]
  · show rowNum m3 a3 (s 3) (v 3) = _
    rw [hm3, ha3]
    refine (rowNum_coe (S 3) (V 3) _ _ B3 hle3 hat3).trans ?_
    rw [mul_add, mul_add, rescale_sum_mul, rescale_sum_mul, rescale_sum_mul, hM, Fin.sum_univ_four]

/-! ## Cutting a row of 2048 keys into four blocks of 512 -/

/-- The key at position `j` of block `k`. -/
def keyAt (k : Fin 4) (j : Fin 512) : Fin 2048 := ⟨512 * k.val + j.val, by omega⟩

theorem keyAt_val (k : Fin 4) (j : Fin 512) : (keyAt k j).val = 512 * k.val + j.val := rfl

/-- Blocks and positions inside a block are exactly the keys. -/
def keyEquiv : Fin 4 × Fin 512 ≃ Fin 2048 where
  toFun x := keyAt x.1 x.2
  invFun s := (⟨s.val / 512, by have := s.isLt; omega⟩, ⟨s.val % 512, by omega⟩)
  left_inv x := by
    have h1 := x.1.isLt
    have h2 := x.2.isLt
    refine Prod.ext (Fin.ext ?_) (Fin.ext ?_)
    · show (512 * x.1.val + x.2.val) / 512 = x.1.val
      omega
    · show (512 * x.1.val + x.2.val) % 512 = x.2.val
      omega
  right_inv s := by
    refine Fin.ext ?_
    show 512 * (s.val / 512) + s.val % 512 = s.val
    omega

/-- Every key sits in some block. -/
theorem exists_keyAt (s : Fin 2048) : ∃ k j, s = keyAt k j :=
  ⟨(keyEquiv.symm s).1, (keyEquiv.symm s).2, (keyEquiv.apply_symm_apply s).symm⟩

/-- A key whose position is written "block index × 512 + 1 × position in the block" is that block's key. -/
theorem eq_keyAt_of_val {s : Fin 2048} {k : Fin 4} {j : Fin 512} (h : s.val = k.val * 512 + 1 * j.val) :
    s = keyAt k j :=
  Fin.ext (by rw [h, keyAt_val]; omega)

/-- A sum over the keys is the sum over the blocks of the sums inside each block. -/
theorem sum_keyAt (f : Fin 2048 → ℝ) : ∑ s, f s = ∑ k, ∑ j, f (keyAt k j) := by
  rw [← Fintype.sum_prod_type' (f := fun k j => f (keyAt k j))]
  exact (Equiv.sum_comp keyEquiv f).symm

/-- The blockwise computation over a whole row of 2048 real scores, divided out at the end, is the
    softmax-weighted sum of the row taken at the row's largest score. -/
theorem online_four_eq_softmax (Sr Vr : Fin 2048 → ℝ) :
    let s : Fin 4 → Fin 512 → EReal := fun k j => (Sr (keyAt k j) : EReal)
    let v : Fin 4 → Fin 512 → EReal := fun k j => (Vr (keyAt k j) : EReal)
    let top : EReal := blockMax (fun y : Fin 2048 => (Sr y : EReal))
    let m1 := rowMax ⊥ (s 0);  let l1 := rowDen ⊥ 0 (s 0);   let a1 := rowNum ⊥ 0 (s 0) (v 0)
    let m2 := rowMax m1 (s 1); let l2 := rowDen m1 l1 (s 1); let a2 := rowNum m1 a1 (s 1) (v 1)
    let m3 := rowMax m2 (s 2); let l3 := rowDen m2 l2 (s 2); let a3 := rowNum m2 a2 (s 2) (v 2)
    let m4 := rowMax m3 (s 3); let l4 := rowDen m3 l3 (s 3); let a4 := rowNum m3 a3 (s 3) (v 3)
    Ideal.div a4 l4
      = ∑ x : Fin 2048, Ideal.div (Ideal.exp ((Sr x : EReal) - top)) (∑ y : Fin 2048, Ideal.exp ((Sr y : EReal) - top)) * (Vr x : EReal) := by
  intro s v top m1 l1 a1 m2 l2 a2 m3 l3 a3 m4 l4 a4
  obtain ⟨M, hle, hat⟩ := exists_real_max Sr
  have htop : top = (M : EReal) := blockMax_coe Sr M hle hat
  have hat' : ∃ k j, Sr (keyAt k j) = M := by
    obtain ⟨x, hx⟩ := hat
    obtain ⟨k, j, rfl⟩ := exists_keyAt x
    exact ⟨k, j, hx⟩
  obtain ⟨h4l, h4a⟩ := online_four (fun k j => Sr (keyAt k j)) (fun k j => Vr (keyAt k j)) M
    (fun k j => hle (keyAt k j)) hat'
  rw [htop, softmax_closed Sr Vr M hat, sum_keyAt (fun x => Real.exp (Sr x - M) * Vr x),
    sum_keyAt (fun x => Real.exp (Sr x - M))]
  exact congrArg₂ Ideal.div h4a h4l

/-! ## The two spellings of the scale 1/√1024 -/

/-- The f32 word `0x44800000` denotes 1024. -/
theorem ofBits_dWord : Ideal.ofBits .f32 dWord = ((1024 : ℝ) : EReal) := by
  show Ideal.ofBits .f32 0x44800000#32 = _
  simp [Ideal.ofBits, Ideal.ieee, -EReal.coe_mul]; norm_num

/-- The f32 word `0x3D000000` denotes 1/32. -/
theorem ofBits_scaleWord : Ideal.ofBits .f32 scaleWord = ((1 / 32 : ℝ) : EReal) := by
  show Ideal.ofBits .f32 0x3D000000#32 = _
  simp [Ideal.ofBits, Ideal.ieee, -EReal.coe_mul]; norm_num

/-- √1024 = 32. -/
theorem sqrt_1024 : Real.sqrt 1024 = 32 := by
  rw [show (1024 : ℝ) = 32 * 32 by norm_num]
  exact Real.sqrt_mul_self (by norm_num)

/-- Dividing by √1024 is multiplying by 1/32, at every extended real. -/
theorem scale_eq (x : EReal) :
    Ideal.div x (Ideal.sqrt (Ideal.ofBits .f32 dWord)) = x * Ideal.ofBits .f32 scaleWord := by
  rw [ofBits_dWord, ofBits_scaleWord, Ideal.sqrt_coe, if_neg (by norm_num : ¬ ((1024 : ℝ) < 0)), sqrt_1024,
    Ideal.div_coe (by norm_num : (32 : ℝ) ≠ 0)]

/-- A real times the scale word is the real product. -/
theorem real_of_scale (r : ℝ) : (r : EReal) * Ideal.ofBits .f32 scaleWord = ((r * (1 / 32) : ℝ) : EReal) := by
  rw [ofBits_scaleWord, ← EReal.coe_mul]

end Cert.Attn

end
-- ==== Proof.FourFold.lean ====
/-
  Four key tiles folded into one query block, read at an index.

  One fold of a tile of 512 keys and values replaces, row by row, the running maximum, denominator and numerator by
  the row-level updates of the specification, with the tile's scaled scores and values; the projected queries are
  left alone. From the reset state (maximum −∞, denominator and numerator zero) four folds give, at a row, the four
  times iterated update, and the emitted block divides the numerator by the denominator and projects. When the
  scaled scores and the values are real, the iterated update divided out is the softmax-weighted sum of the whole
  row of 2048 keys, taken at the row's largest score.
-/
import proofs.«113719_j69286412419541_2_alg».proof.Proof.PayAt
import proofs.«113719_j69286412419541_2_alg».proof.Proof.Spec
import proofs.«113719_j69286412419541_2_alg».proof.Proof.OnlineSoftmax
import proofs.«113719_j69286412419541_2_alg».proof.Proof.Steps

noncomputable section

namespace Cert.KernelIdeal.FourFold

open Cert.KernelIdeal Cert.KernelIdeal.Gen Cert.KernelIdeal.Fr Cert.KernelIdeal.PayAt
open Idealize.ShloMosaic Idealize.ShloMosaic.ValueIdx Cert.Attn

/-! ## One fold, component by component -/

/-- A fold leaves the projected queries alone. -/
theorem fold_q (kb vb : Vec Ideal S1x512x1024 .bf16) (s : Scr Ideal) : (fold kb vb s).1 = s.1 := rfl

/-- The running maximum after a fold, at row `r`. -/
theorem fold_m_apply (kb vb : Vec Ideal S1x512x1024 .bf16) (s : Scr Ideal) (r : Fin 1024) (u : Fin 1) :
    (fold (F := Ideal) kb vb s).2.1 (ix2 r u) = rowMax (s.2.1 (ix2 r 0)) (sc s.1 kb r) := by
  show k1_pay2 (F := Ideal) (k1_pay10 (F := Ideal) s.1 kb s.2.1) (ix2 r u) = _
  rw [pay2_eq]
  exact pay10_apply s.1 kb s.2.1 r u

/-- The running denominator after a fold, at row `r`. -/
theorem fold_l_apply (kb vb : Vec Ideal S1x512x1024 .bf16) (s : Scr Ideal) (r : Fin 1024) (u : Fin 1) :
    (fold (F := Ideal) kb vb s).2.2.1 (ix2 r u) = rowDen (s.2.1 (ix2 r 0)) (s.2.2.1 (ix2 r 0)) (sc s.1 kb r) :=
  pay13_apply s.1 kb s.2.1 s.2.2.1 r u

/-- The running numerator after a fold, at row `r` and output column `e`. -/
theorem fold_acc_apply (kb vb : Vec Ideal S1x512x1024 .bf16) (s : Scr Ideal) (r e : Fin 1024) :
    (fold (F := Ideal) kb vb s).2.2.2 (ix2 r e)
      = rowNum (s.2.1 (ix2 r 0)) (s.2.2.2 (ix2 r e)) (sc s.1 kb r) (fun j => vb (ix3 0 j e)) :=
  acc_apply s.1 kb vb s.2.1 s.2.2.2 r e

/-! ## The reset state and the emitted block -/

/-- The reset state's queries are the projection of the target block. -/
theorem reset_q (x : Vec Ideal S1x1024x1024 .f32) (wq : Vec Ideal S1024x1024 .bf16) (bq : Vec Ideal S1024 .f32) :
    (reset x wq bq).1 = k1_pay4 x wq bq := rfl

/-- The reset maximum is minus infinity. -/
theorem reset_m_apply (x : Vec Ideal S1x1024x1024 .f32) (wq : Vec Ideal S1024x1024 .bf16) (bq : Vec Ideal S1024 .f32)
    (r : Fin 1024) (u : Fin 1) : (reset (F := Ideal) x wq bq).2.1 (ix2 r u) = ⊥ :=
  pay5_apply r u

/-- The reset denominator is zero. -/
theorem reset_l_apply (x : Vec Ideal S1x1024x1024 .f32) (wq : Vec Ideal S1024x1024 .bf16) (bq : Vec Ideal S1024 .f32)
    (r : Fin 1024) (u : Fin 1) : (reset (F := Ideal) x wq bq).2.2.1 (ix2 r u) = 0 :=
  pay6_apply r u

/-- The reset numerator is zero. -/
theorem reset_acc_apply (x : Vec Ideal S1x1024x1024 .f32) (wq : Vec Ideal S1024x1024 .bf16) (bq : Vec Ideal S1024 .f32)
    (r e : Fin 1024) : (reset (F := Ideal) x wq bq).2.2.2 (ix2 r e) = 0 :=
  pay7_apply r e

/-- The emitted block: numerator over denominator, row by row, projected by the output weights, plus the bias. -/
theorem emit_apply (s : Scr Ideal) (wo : Vec Ideal S1024x1024 .bf16) (bo : Vec Ideal S1024 .f32) (u : Fin 1) (r o : Fin 1024) :
    emit (F := Ideal) s wo bo (ix3 u r o)
      = (∑ e : Fin 1024, Ideal.div (s.2.2.2 (ix2 r e)) (s.2.2.1 (ix2 r 0)) * wo (ix2 e o)) + bo (ix1 o) :=
  pay3_apply s.2.2.2 s.2.2.1 wo bo u r o

/-! ## Four folds at a row -/

/-- One fold at row `r` and column `e`, from named values of the state there and named scores and values of the tile. -/
theorem fold_row (kb vb : Vec Ideal S1x512x1024 .bf16) (s : Scr Ideal) (r e : Fin 1024) (m l a : EReal)
    (S V : Fin 512 → EReal) (hm : s.2.1 (ix2 r 0) = m) (hl : s.2.2.1 (ix2 r 0) = l) (ha : s.2.2.2 (ix2 r e) = a)
    (hS : sc s.1 kb r = S) (hV : (fun j => vb (ix3 0 j e)) = V) :
    (fold (F := Ideal) kb vb s).2.1 (ix2 r 0) = rowMax m S ∧ (fold (F := Ideal) kb vb s).2.2.1 (ix2 r 0) = rowDen m l S
      ∧ (fold (F := Ideal) kb vb s).2.2.2 (ix2 r e) = rowNum m a S V := by
  subst hm hl ha hS hV
  exact ⟨fold_m_apply kb vb s r 0, fold_l_apply kb vb s r 0, fold_acc_apply kb vb s r e⟩

/-- After four folds from the reset state, at row `r` and column `e`, numerator over denominator is the softmax-weighted sum
    of the whole row of 2048 keys, when the tiles' scaled scores and values are the real `Sr` and `Vr` cut into tiles. -/
theorem row_four (x : Vec Ideal S1x1024x1024 .f32) (wq : Vec Ideal S1024x1024 .bf16) (bq : Vec Ideal S1024 .f32)
    (kb vb : Fin 4 → Vec Ideal S1x512x1024 .bf16) (Sr : Fin 1024 → Fin 2048 → ℝ) (Vr : Fin 2048 → Fin 1024 → ℝ)
    (hS : ∀ k r j, sc (k1_pay4 (F := Ideal) x wq bq) (kb k) r j = ((Sr r (keyAt k j) : ℝ) : EReal))
    (hV : ∀ k j e, (vb k) (ix3 0 j e) = ((Vr (keyAt k j) e : ℝ) : EReal)) (r e : Fin 1024) :
    Ideal.div
        ((fold (kb 3) (vb 3) (fold (kb 2) (vb 2) (fold (kb 1) (vb 1) (foldFirst x (kb 0) (vb 0) wq bq)))).2.2.2 (ix2 r e))
        ((fold (kb 3) (vb 3) (fold (kb 2) (vb 2) (fold (kb 1) (vb 1) (foldFirst x (kb 0) (vb 0) wq bq)))).2.2.1 (ix2 r 0))
      = ∑ y : Fin 2048, Ideal.div (Ideal.exp ((Sr r y : EReal) - blockMax (fun y : Fin 2048 => (Sr r y : EReal))))
          (∑ y' : Fin 2048, Ideal.exp ((Sr r y' : EReal) - blockMax (fun y : Fin 2048 => (Sr r y : EReal)))) * (Vr y e : EReal) := by
  unfold foldFirst
  obtain ⟨hm1, hl1, ha1⟩ := fold_row (kb 0) (vb 0) (reset x wq bq) r e ⊥ 0 0
    (fun j => ((Sr r (keyAt 0 j) : ℝ) : EReal)) (fun j => ((Vr (keyAt 0 j) e : ℝ) : EReal))
    (reset_m_apply x wq bq r 0) (reset_l_apply x wq bq r 0) (reset_acc_apply x wq bq r e)
    (funext fun j => hS 0 r j) (funext fun j => hV 0 j e)
  obtain ⟨hm2, hl2, ha2⟩ := fold_row (kb 1) (vb 1) _ r e _ _ _
    (fun j => ((Sr r (keyAt 1 j) : ℝ) : EReal)) (fun j => ((Vr (keyAt 1 j) e : ℝ) : EReal))
    hm1 hl1 ha1 (funext fun j => hS 1 r j) (funext fun j => hV 1 j e)
  obtain ⟨hm3, hl3, ha3⟩ := fold_row (kb 2) (vb 2) _ r e _ _ _
    (fun j => ((Sr r (keyAt 2 j) : ℝ) : EReal)) (fun j => ((Vr (keyAt 2 j) e : ℝ) : EReal))
    hm2 hl2 ha2 (funext fun j => hS 2 r j) (funext fun j => hV 2 j e)
  obtain ⟨_, hl4, ha4⟩ := fold_row (kb 3) (vb 3) _ r e _ _ _
    (fun j => ((Sr r (keyAt 3 j) : ℝ) : EReal)) (fun j => ((Vr (keyAt 3 j) e : ℝ) : EReal))
    hm3 hl3 ha3 (funext fun j => hS 3 r j) (funext fun j => hV 3 j e)
  rw [ha4, hl4]
  exact online_four_eq_softmax (Sr r) (fun y => Vr y e)

/-- THE COMPOSITE: the block emitted after the four key tiles of one query block, at `(r, o)`, is the output projection of
    the softmax-weighted sums of the rows. -/
theorem emit_four (x : Vec Ideal S1x1024x1024 .f32) (wq : Vec Ideal S1024x1024 .bf16) (bq : Vec Ideal S1024 .f32)
    (wo : Vec Ideal S1024x1024 .bf16) (bo : Vec Ideal S1024 .f32)
    (kb vb : Fin 4 → Vec Ideal S1x512x1024 .bf16) (Sr : Fin 1024 → Fin 2048 → ℝ) (Vr : Fin 2048 → Fin 1024 → ℝ)
    (hS : ∀ k r j, sc (k1_pay4 (F := Ideal) x wq bq) (kb k) r j = ((Sr r (keyAt k j) : ℝ) : EReal))
    (hV : ∀ k j e, (vb k) (ix3 0 j e) = ((Vr (keyAt k j) e : ℝ) : EReal)) (r o : Fin 1024) (u : Fin 1) :
    emit (F := Ideal) (fold (kb 3) (vb 3) (fold (kb 2) (vb 2) (fold (kb 1) (vb 1) (foldFirst x (kb 0) (vb 0) wq bq)))) wo bo
        (ix3 u r o)
      = (∑ e : Fin 1024,
          (∑ y : Fin 2048, Ideal.div (Ideal.exp ((Sr r y : EReal) - blockMax (fun y : Fin 2048 => (Sr r y : EReal))))
            (∑ y' : Fin 2048, Ideal.exp ((Sr r y' : EReal) - blockMax (fun y : Fin 2048 => (Sr r y : EReal)))) * (Vr y e : EReal))
          * wo (ix2 e o)) + bo (ix1 o) := by
  rw [emit_apply]
  refine congrArg (· + bo (ix1 o)) ?_
  exact Finset.sum_congr rfl fun e _ => congrArg (· * wo (ix2 e o)) (row_four x wq bq kb vb Sr Vr hS hV r e)

end Cert.KernelIdeal.FourFold

end
-- ==== Proof.SpecBridge.lean ====
/-
  From the specification's spelling of attention to the spelling the blockwise computation arrives in.

  The specification divides each score by √1024 and names its pieces (`score`, `rowTop`, `weight`, `norm`,
  `attended`, `result`). The other side multiplies the same inner product by 1/32 and has no names. Since
  x / √1024 = x · (1/32) at every extended real, unfolding the names gives one explicit formula for `result`
  in terms of the scaled inner products (`result_eq_scaled`).

  When every input entry is a real number, so are the projections Σ_d x·W + b (finite sums and products of reals
  are real) and the scaled scores; choosing their real values gives real families Sr, Vr whose coercions are the
  scaled scores and the value projections, and the explicit formula written with them is `result`
  (`result_of_real`).
-/
import proofs.«113719_j69286412419541_2_alg».proof.Proof.Spec
import proofs.«113719_j69286412419541_2_alg».proof.Proof.OnlineSoftmax

noncomputable section

namespace Cert.Attn

open Idealize.ShloMosaic

/-! ## Real inputs give real projections and real scaled scores -/

/-- A linear layer of real inputs, real weights and a real bias is real at every entry. -/
theorem proj_real (x : Fin 8 → Fin 2048 → Fin 1024 → EReal) (W : Fin 1024 → Fin 1024 → EReal) (b : Fin 1024 → EReal)
    (hx : ∀ n t d, ∃ r : ℝ, x n t d = r) (hW : ∀ e d, ∃ r : ℝ, W e d = r) (hb : ∀ e, ∃ r : ℝ, b e = r)
    (n : Fin 8) (t : Fin 2048) (e : Fin 1024) : ∃ r : ℝ, proj x W b n t e = (r : EReal) := by
  choose xr hxr using hx
  choose Wr hWr using hW
  choose br hbr using hb
  refine ⟨(∑ d, xr n t d * Wr e d) + br e, ?_⟩
  unfold proj
  simp only [hxr, hWr, hbr, ← EReal.coe_mul, coe_sum, ← EReal.coe_add]

/-- The inner product of a query row with a key row, times the scale word, is real for real inputs. -/
theorem score_real (tg src : Fin 8 → Fin 2048 → Fin 1024 → EReal) (Wq Wk : Fin 1024 → Fin 1024 → EReal)
    (bq bk : Fin 1024 → EReal)
    (htg : ∀ n t d, ∃ r : ℝ, tg n t d = r) (hsrc : ∀ n t d, ∃ r : ℝ, src n t d = r)
    (hWq : ∀ e d, ∃ r : ℝ, Wq e d = r) (hWk : ∀ e d, ∃ r : ℝ, Wk e d = r)
    (hbq : ∀ e, ∃ r : ℝ, bq e = r) (hbk : ∀ e, ∃ r : ℝ, bk e = r)
    (n : Fin 8) (t s : Fin 2048) :
    ∃ r : ℝ, (∑ e, proj tg Wq bq n t e * proj src Wk bk n s e) * Ideal.ofBits .f32 scaleWord = (r : EReal) := by
  choose qr hq using fun e => proj_real tg Wq bq htg hWq hbq n t e
  choose kr hk using fun e => proj_real src Wk bk hsrc hWk hbk n s e
  refine ⟨(∑ e, qr e * kr e) * (1 / 32), ?_⟩
  simp only [hq, hk, ← EReal.coe_mul, coe_sum]
  exact real_of_scale _

/-! ## The specification, unfolded, with the scale as a product -/

/-- The specification's result written out in full, each score being the inner product times 1/32. -/
theorem result_eq_scaled (tg src : Fin 8 → Fin 2048 → Fin 1024 → EReal)
    (Wq Wk Wv Wo : Fin 1024 → Fin 1024 → EReal) (bq bk bv bo : Fin 1024 → EReal)
    (n : Fin 8) (t : Fin 2048) (o : Fin 1024) :
    result tg src Wq Wk Wv Wo bq bk bv bo n t o
      = (∑ e : Fin 1024,
          (∑ x : Fin 2048,
            Ideal.div
              (Ideal.exp ((∑ e' : Fin 1024, proj tg Wq bq n t e' * proj src Wk bk n x e') * Ideal.ofBits .f32 scaleWord
                - blockMax (fun y : Fin 2048 =>
                    (∑ e' : Fin 1024, proj tg Wq bq n t e' * proj src Wk bk n y e') * Ideal.ofBits .f32 scaleWord)))
              (∑ y : Fin 2048,
                Ideal.exp ((∑ e' : Fin 1024, proj tg Wq bq n t e' * proj src Wk bk n y e') * Ideal.ofBits .f32 scaleWord
                  - blockMax (fun y : Fin 2048 =>
                      (∑ e' : Fin 1024, proj tg Wq bq n t e' * proj src Wk bk n y e') * Ideal.ofBits .f32 scaleWord)))
              * proj src Wv bv n x e) * Wo o e) + bo o := by
  unfold result attended norm weight rowTop score
  simp only [scale_eq]

/-! ## The packaged step: real families whose formula is the specification's result -/

theorem result_of_real (tg src : Fin 8 → Fin 2048 → Fin 1024 → EReal)
    (Wq Wk Wv Wo : Fin 1024 → Fin 1024 → EReal) (bq bk bv bo : Fin 1024 → EReal)
    (htg : ∀ n t d, ∃ r : ℝ, tg n t d = r) (hsrc : ∀ n t d, ∃ r : ℝ, src n t d = r)
    (hWq : ∀ e d, ∃ r : ℝ, Wq e d = r) (hWk : ∀ e d, ∃ r : ℝ, Wk e d = r) (hWv : ∀ e d, ∃ r : ℝ, Wv e d = r)
    (hbq : ∀ e, ∃ r : ℝ, bq e = r) (hbk : ∀ e, ∃ r : ℝ, bk e = r) (hbv : ∀ e, ∃ r : ℝ, bv e = r) :
    ∃ (Sr : Fin 8 → Fin 2048 → Fin 2048 → ℝ) (Vr : Fin 8 → Fin 2048 → Fin 1024 → ℝ),
      (∀ n t x, ((Sr n t x : ℝ) : EReal)
          = (∑ e, proj tg Wq bq n t e * proj src Wk bk n x e) * Ideal.ofBits .f32 scaleWord) ∧
      (∀ n x e, ((Vr n x e : ℝ) : EReal) = proj src Wv bv n x e) ∧
      ∀ n t o,
        (∑ e : Fin 1024,
          (∑ x : Fin 2048,
            Ideal.div (Ideal.exp ((Sr n t x : EReal) - blockMax (fun y : Fin 2048 => (Sr n t y : EReal))))
              (∑ y : Fin 2048, Ideal.exp ((Sr n t y : EReal) - blockMax (fun y : Fin 2048 => (Sr n t y : EReal))))
              * (Vr n x e : EReal)) * Wo o e) + bo o
          = result tg src Wq Wk Wv Wo bq bk bv bo n t o := by
  choose Sr hSr using fun n t x => score_real tg src Wq Wk bq bk htg hsrc hWq hWk hbq hbk n t x
  choose Vr hVr using fun n x e => proj_real src Wv bv hsrc hWv hbv n x e
  refine ⟨Sr, Vr, fun n t x => (hSr n t x).symm, fun n x e => (hVr n x e).symm, fun n t o => ?_⟩
  rw [result_eq_scaled]
  simp only [hSr, hVr]

end Cert.Attn

end
-- ==== Proof.FiniteIn.lean ====
/-
  Finiteness from the precondition. The precondition says of each of the ten float arguments that
  `all (|x| < +∞)` is true. On the extended reals `|x| = max x (-x)`, and `max x (-x) < ⊤` excludes
  both `x = ⊤` (then `max x (-x) = ⊤`) and `x = ⊥` (then `-x = ⊤`): what remains is a real number.
  So every entry of every argument is a real. The `all` is a reduction by `and` from 1 into an array
  with a single index; a reduction by `and` that came out 1 met only 1s.
-/
import proofs.«113719_j69286412419541_2_alg».proof.Defs
import proofs.«113719_j69286412419541_2_alg».proof.Proof.Gen.Pre_finite_inputs
import Idealize.ShloMosaic.Lib.ReduceAll
import Idealize.ShloMosaic.Lib.ValueIdx

noncomputable section

namespace Cert.KernelIdeal.FiniteIn

open Idealize.ShloMosaic Idealize.ShloMosaic.ValueIdx Idealize.SL.Sem

/-- The f32 word `0x7F800000` denotes `+∞`. -/
theorem inf_word : Ideal.ofBits .f32 0x7F800000#32 = (⊤ : EReal) := by
  simp [Ideal.ofBits, Ideal.ieee]

/-- One value: if `|x| < +∞` compares true then `x` is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- The scalar shape has a single index. -/
theorem subsingleton_scalar_idx : Subsingleton Cert.Pre_finite_inputs.S_.Idx :=
  ⟨fun a b => funext fun d => d.elim0⟩

/-- One array: if `all (|x| < +∞)`, as the precondition prints it (a reduction by `and` from 1 of the
    comparison of `|x|` with a broadcast `+∞`), is 1 at the result's index, every entry of `x` is a real. -/
theorem finite_of_all_at {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32) (j : Cert.Pre_finite_inputs.S_.Idx)
    (hall : Host.reduce IntOp.andi
        (cmpf .olt (Host.absf x) (broadcastInDim S ![] hb (constant (F := Ideal) Cert.Pre_finite_inputs.S_ .f32 0x7F800000#32)))
        (constantI Cert.Pre_finite_inputs.S_ 1 1#1) hr hu j = 1#1) :
    ∀ i, ∃ r : ℝ, x i = (r : EReal) := by
  intro i
  haveI := subsingleton_scalar_idx
  have e := Host.reduce_andi_all _ _ hr hu j hall i
  exact real_of_abs_lt_inf (x i) e

/-- A family of extended reals each of which is a real is the coercion of a real-valued family. -/
theorem real_fun_of_forall {ι : Type} (x : ι → EReal) (h : ∀ i, ∃ r : ℝ, x i = (r : EReal)) :
    ∃ f : ι → ℝ, x = fun i => (f i : EReal) := by
  choose f hf using h
  exact ⟨f, funext hf⟩

/-- THE PRECONDITION DECODED: under `finite_inputs`, on every device, every entry of each of the ten
    arguments (target, source, the four weight matrices and the four bias vectors, in the program's
    order) is a real number. The precondition is the `and` of ten `all (|x| < +∞)`; an `and` that is 1
    has both operands 1, and each `all` is read back entry by entry. -/
theorem finite_of_pre (m : (ℓ : Loc nD τ sig) → Buf (Elt Ideal) ℓ)
    (h : Cert.Pre_KernelIdeal (hPre_finite_inputs := Cert.Pre_finite_inputs.Gen.facts) m) (c : Dev nD) :
    (∀ i : S8x2048x1024.Idx, ∃ r : ℝ, (m ((c.tc : Thread nD τ).loc main_arg0) : FVec Ideal S8x2048x1024 .f32) i = (r : EReal))
      ∧ (∀ i : S8x2048x1024.Idx, ∃ r : ℝ, (m ((c.tc : Thread nD τ).loc main_arg1) : FVec Ideal S8x2048x1024 .f32) i = (r : EReal))
      ∧ (∀ i : S1024x1024.Idx, ∃ r : ℝ, (m ((c.tc : Thread nD τ).loc main_arg2) : FVec Ideal S1024x1024 .f32) i = (r : EReal))
      ∧ (∀ i : S1024.Idx, ∃ r : ℝ, (m ((c.tc : Thread nD τ).loc main_arg3) : FVec Ideal S1024 .f32) i = (r : EReal))
      ∧ (∀ i : S1024x1024.Idx, ∃ r : ℝ, (m ((c.tc : Thread nD τ).loc main_arg4) : FVec Ideal S1024x1024 .f32) i = (r : EReal))
      ∧ (∀ i : S1024.Idx, ∃ r : ℝ, (m ((c.tc : Thread nD τ).loc main_arg5) : FVec Ideal S1024 .f32) i = (r : EReal))
      ∧ (∀ i : S1024x1024.Idx, ∃ r : ℝ, (m ((c.tc : Thread nD τ).loc main_arg6) : FVec Ideal S1024x1024 .f32) i = (r : EReal))
      ∧ (∀ i : S1024.Idx, ∃ r : ℝ, (m ((c.tc : Thread nD τ).loc main_arg7) : FVec Ideal S1024 .f32) i = (r : EReal))
      ∧ (∀ i : S1024x1024.Idx, ∃ r : ℝ, (m ((c.tc : Thread nD τ).loc main_arg8) : FVec Ideal S1024x1024 .f32) i = (r : EReal))
      ∧ (∀ i : S1024.Idx, ∃ r : ℝ, (m ((c.tc : Thread nD τ).loc main_arg9) : FVec Ideal S1024 .f32) i = (r : EReal)) := by
  have e := congrFun (h c) ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, h1⟩, h2⟩, h3⟩, h4⟩, h5⟩, h6⟩, h7⟩, h8⟩, h9⟩ := e
  exact ⟨finite_of_all_at _ _ _ _ ix0 h0, finite_of_all_at _ _ _ _ ix0 h1, finite_of_all_at _ _ _ _ ix0 h2,
    finite_of_all_at _ _ _ _ ix0 h3, finite_of_all_at _ _ _ _ ix0 h4, finite_of_all_at _ _ _ _ ix0 h5,
    finite_of_all_at _ _ _ _ ix0 h6, finite_of_all_at _ _ _ _ ix0 h7, finite_of_all_at _ _ _ _ ix0 h8,
    finite_of_all_at _ _ _ _ ix0 h9⟩

end Cert.KernelIdeal.FiniteIn

end
-- ==== Proof.Value.lean ====
/-
  The kernel's result array is the attention function of its arguments.

  Query row t of batch entry n lies in the block of 1024 rows (n, t / 1024); the grid visits that block at four
  consecutive positions, one per tile of 512 keys, and writes the block back after the last. What it writes
  at row t mod 1024 is the projected quotient of the running numerator by the running denominator after the
  four tiles. The query block is the projection of target rows; tile k's keys and values are the projections
  of source rows 512·k … 512·k + 511 (the first region's result, regrouped); so each tile's scores are the
  specification's scores of those keys, scaled by 1/32 instead of divided by √1024, which is the same. With
  every input finite the scores and values are real numbers, the four running updates collapse to the sums
  against the row's maximum, and the quotient is the sum of the normalised weights times the values: the
  specification's attended value. The output projection and bias are the specification's.
-/
import proofs.«113719_j69286412419541_2_alg».proof.Proof.Folds
import proofs.«113719_j69286412419541_2_alg».proof.Proof.Blocks1
import proofs.«113719_j69286412419541_2_alg».proof.Proof.Pieces
import proofs.«113719_j69286412419541_2_alg».proof.Proof.FourFold
import proofs.«113719_j69286412419541_2_alg».proof.Proof.SpecBridge
import proofs.«113719_j69286412419541_2_alg».proof.Proof.FiniteIn

noncomputable section

namespace Cert.KernelIdeal.Fr

open Cert.KernelIdeal Cert.KernelIdeal.Gen Cert.KernelIdeal.PayAt Cert.KernelIdeal.FourFold Cert.KernelIdeal.Pieces
open Idealize.ShloMosaic Idealize.ShloMosaic.TcCoe Idealize.ShloMosaic.ValueIdx
open Idealize.SL Idealize.SL.Sem
open Cert.Attn

variable (m : (ℓ : Loc nD τ sig) → Buf (Elt Ideal) ℓ) (ρ : Dev nD → PrngReg) (c : Dev nD)

/-! ## The arguments as plain families -/

abbrev aTg : Fin 8 → Fin 2048 → Fin 1024 → EReal := fun n t d => (m ((c : Thread nD τ).loc main_arg0) : S8x2048x1024.Idx → EReal) (ix3 n t d)
abbrev aSrc : Fin 8 → Fin 2048 → Fin 1024 → EReal := fun n s d => (m ((c : Thread nD τ).loc main_arg1) : S8x2048x1024.Idx → EReal) (ix3 n s d)
abbrev aWq : Fin 1024 → Fin 1024 → EReal := fun e d => (m ((c : Thread nD τ).loc main_arg2) : S1024x1024.Idx → EReal) (ix2 e d)
abbrev aBq : Fin 1024 → EReal := fun e => (m ((c : Thread nD τ).loc main_arg3) : S1024.Idx → EReal) (ix1 e)
abbrev aWk : Fin 1024 → Fin 1024 → EReal := fun e d => (m ((c : Thread nD τ).loc main_arg4) : S1024x1024.Idx → EReal) (ix2 e d)
abbrev aBk : Fin 1024 → EReal := fun e => (m ((c : Thread nD τ).loc main_arg5) : S1024.Idx → EReal) (ix1 e)
abbrev aWv : Fin 1024 → Fin 1024 → EReal := fun e d => (m ((c : Thread nD τ).loc main_arg6) : S1024x1024.Idx → EReal) (ix2 e d)
abbrev aBv : Fin 1024 → EReal := fun e => (m ((c : Thread nD τ).loc main_arg7) : S1024.Idx → EReal) (ix1 e)
abbrev aWo : Fin 1024 → Fin 1024 → EReal := fun o e => (m ((c : Thread nD τ).loc main_arg8) : S1024x1024.Idx → EReal) (ix2 o e)
abbrev aBo : Fin 1024 → EReal := fun o => (m ((c : Thread nD τ).loc main_arg9) : S1024.Idx → EReal) (ix1 o)

/-- The group of four grid positions that serves the block of query rows (n, qi). -/
def grp (n : Fin 8) (qi : Fin 2) : Fin 16 := ⟨2 * n.val + qi.val, by have := n.isLt; have := qi.isLt; omega⟩

/-- Row r of the query block (n, qi) is query row 1024·qi + r. -/
def rowOf (qi : Fin 2) (r : Fin 1024) : Fin 2048 := ⟨1024 * qi.val + r.val, by have := qi.isLt; have := r.isLt; omega⟩

/-! ## The blocks of a group, read back to the arguments -/

/-- The projected query block. -/
theorem q_at (n : Fin 8) (qi : Fin 2) (r e : Fin 1024) :
    k1_pay4 (F := Ideal) (iblk1 (V3 m ρ) c 0 (gpos (grp n qi) 0 (by decide))) (iblk1 (V3 m ρ) c 3 (gpos (grp n qi) 0 (by decide)))
        (iblk1 (V3 m ρ) c 4 (gpos (grp n qi) 0 (by decide))) (ix2 r e)
      = proj (aTg m c) (aWq m c) (aBq m c) n (rowOf qi r) e := by
  have hn := n.isLt; have hq := qi.isLt
  rw [pay4_apply]
  unfold proj
  refine congrArg₂ (· + ·) (Finset.sum_congr rfl fun d _ => congrArg₂ (· * ·) ?_ ?_) ?_
  · refine (iblk1_0_rows (V3 m ρ) c (gpos (grp n qi) 0 (by decide)) (ix3 (0 : Fin 1) r d) (ix3 n (rowOf qi r) d) ?_ ?_ rfl).trans ?_
    · show n.val = (4 * (2 * n.val + qi.val) + 0) / 8
      omega
    · show 1024 * qi.val + r.val = 1024 * (((4 * (2 * n.val + qi.val) + 0) / 4) % 2) + r.val
      omega
    · rw [V3_arg0]
  · rw [iblk1_3_whole]; exact V3_v1 m ρ c d e
  · rw [iblk1_4_whole, V3_arg3]

/-- Tile k's keys. -/
theorem k_at (n : Fin 8) (qi : Fin 2) (k : Fin 4) (j : Fin 512) (e : Fin 1024) :
    (iblk1 (V3 m ρ) c 1 (gpos (grp n qi) k.val k.isLt) : S1x512x1024.Idx → EReal) (ix3 (0 : Fin 1) j e)
      = proj (aSrc m c) (aWk m c) (aBk m c) n (keyAt k j) e := by
  have hn := n.isLt; have hq := qi.isLt; have hk := k.isLt
  refine (iblk1_1_rows (V3 m ρ) c (gpos (grp n qi) k.val k.isLt) (ix3 (0 : Fin 1) j e) (ix3 n (keyAt k j) e) ?_ ?_ rfl).trans (V3_v10 m ρ c n (keyAt k j) e)
  · show n.val = (4 * (2 * n.val + qi.val) + k.val) / 8
    omega
  · show 512 * k.val + j.val = 512 * ((4 * (2 * n.val + qi.val) + k.val) % 4) + j.val
    omega

/-- Tile k's values. -/
theorem v_at (n : Fin 8) (qi : Fin 2) (k : Fin 4) (j : Fin 512) (e : Fin 1024) :
    (iblk1 (V3 m ρ) c 2 (gpos (grp n qi) k.val k.isLt) : S1x512x1024.Idx → EReal) (ix3 (0 : Fin 1) j e)
      = proj (aSrc m c) (aWv m c) (aBv m c) n (keyAt k j) e := by
  have hn := n.isLt; have hq := qi.isLt; have hk := k.isLt
  refine (iblk1_2_rows (V3 m ρ) c (gpos (grp n qi) k.val k.isLt) (ix3 (0 : Fin 1) j e) (ix3 n (keyAt k j) e) ?_ ?_ rfl).trans (V3_v11 m ρ c n (keyAt k j) e)
  · show n.val = (4 * (2 * n.val + qi.val) + k.val) / 8
    omega
  · show 512 * k.val + j.val = 512 * ((4 * (2 * n.val + qi.val) + k.val) % 4) + j.val
    omega

/-- A tile's scaled scores are the specification's scaled scores of its keys. -/
theorem sc_at (n : Fin 8) (qi : Fin 2) (k : Fin 4) (r : Fin 1024) (j : Fin 512) :
    sc (k1_pay4 (F := Ideal) (iblk1 (V3 m ρ) c 0 (gpos (grp n qi) 0 (by decide))) (iblk1 (V3 m ρ) c 3 (gpos (grp n qi) 0 (by decide)))
          (iblk1 (V3 m ρ) c 4 (gpos (grp n qi) 0 (by decide))))
        (iblk1 (V3 m ρ) c 1 (gpos (grp n qi) k.val k.isLt)) r j
      = (∑ e : Fin 1024, proj (aTg m c) (aWq m c) (aBq m c) n (rowOf qi r) e * proj (aSrc m c) (aWk m c) (aBk m c) n (keyAt k j) e)
          * Ideal.ofBits .f32 scaleWord := by
  unfold sc
  refine congrArg (· * Ideal.ofBits .f32 scaleWord) (Finset.sum_congr rfl fun e _ => congrArg₂ (· * ·) (q_at m ρ c n qi r e) (k_at m ρ c n qi k j e))

/-! ## A row of the result -/

theorem row_value (hpre : Cert.Pre_KernelIdeal (hPre_finite_inputs := Cert.Pre_finite_inputs.Gen.facts) m)
    (n : Fin 8) (t : Fin 2048) (o : Fin 1024) :
    attnG (V3 m ρ) c (ix3 n t o)
      = result (aTg m c) (aSrc m c) (aWq m c) (aWk m c) (aWv m c) (aWo m c) (aBq m c) (aBk m c) (aBv m c) (aBo m c) n t o := by
  obtain ⟨h0, h1, h2, h3, h4, h5, h6, h7, h8, h9⟩ := FiniteIn.finite_of_pre m hpre c
  obtain ⟨Sr, Vr, hSr, hVr, hres⟩ := result_of_real (aTg m c) (aSrc m c) (aWq m c) (aWk m c) (aWv m c) (aWo m c) (aBq m c) (aBk m c) (aBv m c) (aBo m c)
    (fun n t d => h0 (ix3 n t d)) (fun n t d => h1 (ix3 n t d)) (fun e d => h2 (ix2 e d)) (fun e d => h4 (ix2 e d)) (fun e d => h6 (ix2 e d))
    (fun e => h3 (ix1 e)) (fun e => h5 (ix1 e)) (fun e => h7 (ix1 e))
  have htl := t.isLt
  have hqi : t.val / 1024 < 2 := by omega
  have hr : t.val % 1024 < 1024 := Nat.mod_lt _ (by decide)
  have ht : rowOf ⟨t.val / 1024, hqi⟩ ⟨t.val % 1024, hr⟩ = t := Fin.ext (by show 1024 * (t.val / 1024) + t.val % 1024 = t.val; omega)
  rw [attnG_apply]
  refine (congrFun (group_out (V3 m ρ) c (grp n ⟨t.val / 1024, hqi⟩)) (ix3 (0 : Fin 1) (⟨t.val % 1024, hr⟩ : Fin 1024) o)).trans ?_
  refine (emit_four _ _ _ _ _ (fun k : Fin 4 => iblk1 (V3 m ρ) c 1 (gpos (grp n ⟨t.val / 1024, hqi⟩) k.val k.isLt))
      (fun k : Fin 4 => iblk1 (V3 m ρ) c 2 (gpos (grp n ⟨t.val / 1024, hqi⟩) k.val k.isLt))
      (fun r y => Sr n (rowOf ⟨t.val / 1024, hqi⟩ r) y) (fun y e => Vr n y e)
      (fun k r j => (sc_at m ρ c n ⟨t.val / 1024, hqi⟩ k r j).trans (hSr n (rowOf ⟨t.val / 1024, hqi⟩ r) (keyAt k j)).symm)
      (fun k j e => (v_at m ρ c n ⟨t.val / 1024, hqi⟩ k j e).trans (hVr n (keyAt k j) e).symm)
      (⟨t.val % 1024, hr⟩ : Fin 1024) o (0 : Fin 1)).trans ?_
  refine Eq.trans ?_ (hres n t o)
  simp only [ht]
  refine congrArg₂ (· + ·) (Finset.sum_congr rfl fun e _ => congrArg₂ (· * ·) rfl ?_) ?_
  · rw [iblk1_5_whole]; exact V3_v7 m ρ c e o
  · rw [iblk1_6_whole, V3_arg9]

/-- THE VALUE: after the run the result's array is the attention function of the argument arrays. -/
theorem kernel_value (hpre : Cert.Pre_KernelIdeal (hPre_finite_inputs := Cert.Pre_finite_inputs.Gen.facts) m) :
    ((dat1 (F := Ideal) (V3 m ρ) c).arrAt 7 cfg1.N : S8x2048x1024.Idx → EReal)
      = fun i : S8x2048x1024.Idx => result (aTg m c) (aSrc m c) (aWq m c) (aWk m c) (aWv m c) (aWo m c) (aBq m c) (aBk m c) (aBv m c) (aBo m c) (i 0) (i 1) (i 2) := by
  rw [final1_7]
  funext i
  obtain ⟨n, t, o, rfl⟩ : ∃ (n : Fin 8) (t : Fin 2048) (o : Fin 1024), i = ix3 n t o := ⟨i 0, i 1, i 2, eq_ix3 i⟩
  exact row_value m ρ c hpre n t o

end Cert.KernelIdeal.Fr

end
-- ==== Proof.lean ====
/-
  The certificate of one attention kernel against its reference.

  Both programs compute scaled dot-product attention with learned projections: queries from the target,
  keys and values from the source, scores divided by √1024, a softmax over the 2048 keys of each query row,
  the weighted values, and an output projection (`Cert.Attn.result`, Proof/Spec.lean). The reference does it
  in one pass over whole arrays. The kernel does it in two regions: the first projects keys and values a
  block of 1024 source rows at a time; the second takes a block of 1024 query rows and walks the keys in four
  tiles of 512, keeping per row a running maximum, denominator and numerator, and divides at the end
  ("online softmax"), then projects. On extended reals the narrowing conversions are the identity and the two
  are the same function of finite inputs: rescaling the running sums by exp (old maximum − new maximum) turns
  them into the sums against the final maximum, and dividing the numerator by the denominator is summing the
  normalised weights — the one step that needs every entry finite (a quotient distributed over a sum).

  Frames: each kernel program is two regions among host operations; every grid point's body is run whole
  (Proof/Frame0, Frame1Runs, Run1A/B/C, Frame1, Frame1b), the regions are chained (Proof/Run), for the word-level
  program by the same text (the K-prefixed modules). The reference's frame is its generated run.
-/
import proofs.«113719_j69286412419541_2_alg».proof.Defs
import proofs.«113719_j69286412419541_2_alg».proof.Proof.Gen.Kernel
import proofs.«113719_j69286412419541_2_alg».proof.Proof.Gen.KernelIdeal
import proofs.«113719_j69286412419541_2_alg».proof.Proof.Gen.ReferenceIdeal
import proofs.«113719_j69286412419541_2_alg».proof.Proof.Gen.ReferenceIdeal.Run
import proofs.«113719_j69286412419541_2_alg».proof.Proof.Gen.ReferenceIdeal.Read
import proofs.«113719_j69286412419541_2_alg».proof.Proof.Gen.Pre_finite_inputs
import proofs.«113719_j69286412419541_2_alg».proof.Proof.KRun
import proofs.«113719_j69286412419541_2_alg».proof.Proof.Run
import proofs.«113719_j69286412419541_2_alg».proof.Proof.RefAt
import proofs.«113719_j69286412419541_2_alg».proof.Proof.Value

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel's result array ends at the attention function of its
    arguments (Proof/Value.lean: the kernel's blocks, tile by tile, against the specification) and the reference's at the
    same function of its own (Proof/RefAt.lean), which are the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Value.res_main_v31 m' c, ?_, ?_⟩
  · refine (θ_run Cert.KernelIdeal.defs _ _).mono (fun r h c => ⟨(h c).1.trans ?_, (h c).2⟩) (Cert.KernelIdeal.Fr.run_result (F := Ideal) m ρ)
    show _ = Cert.ReferenceIdeal.Value.res_main_v31 m' c
    rw [Cert.ReferenceIdeal.RefValue.ref_run_eq m' c, Cert.KernelIdeal.Fr.kernel_value m ρ c hpre,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  · exact Cert.ReferenceIdeal.Value.run (F := Ideal) m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
